-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x16 : Shape := ⟨2, ![16384, 16]⟩
abbrev S26x100000 : Shape := ⟨2, ![26, 100000]⟩
abbrev S26x100000x8 : Shape := ⟨3, ![26, 100000, 8]⟩
abbrev S16x1 : Shape := ⟨2, ![16, 1]⟩
abbrev S1 : Shape := ⟨1, ![1]⟩
abbrev S16x208 : Shape := ⟨2, ![16, 208]⟩
abbrev S208 : Shape := ⟨1, ![208]⟩
abbrev S208x128 : Shape := ⟨2, ![208, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S26x100000 : S_.BroadcastsInDim S26x100000 (![] : Fin 0 → Fin S26x100000.rank)
  reducesTo_S26x100000_S_d0_1 : S26x100000.ReducesTo [0, 1] S_
  bcast_S_S26x100000x8 : S_.BroadcastsInDim S26x100000x8 (![] : Fin 0 → Fin S26x100000x8.rank)
  reducesTo_S26x100000x8_S_d0_1_2 : S26x100000x8.ReducesTo [0, 1, 2] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S16x208 : S_.BroadcastsInDim S16x208 (![] : Fin 0 → Fin S16x208.rank)
  reducesTo_S16x208_S_d0_1 : S16x208.ReducesTo [0, 1] S_
  bcast_S_S208 : S_.BroadcastsInDim S208 (![] : Fin 0 → Fin S208.rank)
  reducesTo_S208_S_d0 : S208.ReducesTo [0] S_
  bcast_S_S208x128 : S_.BroadcastsInDim S208x128 (![] : Fin 0 → Fin S208x128.rank)
  reducesTo_S208x128_S_d0_1 : S208x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part4 {F : FTy → Type} [FloatOps F] (main_arg15 : FVec F S64 .f32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg16
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128x64 .f32) (main_arg13 : FVec F S64 .f32) (main_arg14 : FVec F S64 .f32) (main_arg15 : FVec F S64 .f32) (main_arg16 : FVec F S64x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_v63 main_v67

def fn_part2 {F : FTy → Type} [FloatOps F] (main_arg8 : FVec F S208x128 .f32) (main_arg9 : FVec F S128 .f32) (main_arg10 : FVec F S128 .f32) (main_arg11 : FVec F S128 .f32) (main_arg12 : FVec F S128x64 .f32) (main_arg13 : FVec F S64 .f32) (main_arg14 : FVec F S64 .f32) (main_arg15 : FVec F S64 .f32) (main_arg16 : FVec F S64x1 .f32) (main_arg17 : FVec F S1 .f32) (main_v33 : IVec S_ 1) : IVec S_ 1 :=
  let main_v34 : FVec F S208x128 .f32 := Host.absf main_arg8
  let main_cst_12 : FVec F S_ .f32 := constant S_ .f32 0x7F800000#32
  let main_v35 : FVec F S208x128 .f32 := broadcastInDim S208x128 ![] bcast_S_S208x128 main_cst_12
  let main_v36 : IVec S208x128 1 := cmpf .olt main_v34 main_v35
  let main_c_13 : IVec S_ 1 := constantI S_ 1 1#1
  let main_v37 : IVec S_ 1 := (fun x v => Host.reduce IntOp.andi x v reducesTo_S208x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S1 .f32) (main_arg6 : FVec F S16x208 .f32) (main_arg7 : FVec F S208 .f32) (main_arg8 : FVec F S208x128 .f32) (main_arg9 : FVec F S128 .f32) (main_arg10 : FVec F S128 .f32) (main_arg11 : FVec F S128 .f32) (main_arg12 : FVec F S128x64 .f32) (main_arg13 : FVec F S64 .f32) (main_arg14 : FVec F S64 .f32) (main_arg15 : FVec F S64 .f32) (main_arg16 : FVec F S64x1 .f32) (main_arg17 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S16x208 .f32 := Host.absf main_arg6
  let main_cst_8 : FVec F S_ .f32 := constant S_ .f32 0x7F800000#32
  let main_v25 : FVec F S16x208 .f32 := broadcastInDim S16x208 ![] bcast_S_S16x208 main_cst_8
  let main_v26 : IVec S16x208 1 := cmpf .olt main_v24 main_v25
  let main_c_9 : IVec S_ 1 := constantI S_ 1 1#1
  let main_v27 : IVec S_ 1 := (fun x v => Host.reduce IntOp.andi x v reducesTo_S16x208_S_d0_1 h_S_) main_v26 main_c_9
  let main_v28 : IVec S_ 1 := andi main_v23 main_v27
  let main_v29 : FVec F S208 .f32 := Host.absf main_arg7
  let main_cst_10 : FVec F S_ .f32 := constant S_ .f32 0x7F800000#32
  let main_v30 : FVec F S208 .f32 := broadcastInDim S208 ![] bcast_S_S208 main_cst_10
  let main_v31 : IVec S208 1 := cmpf .olt main_v29 main_v30
  let main_c_11 : IVec S_ 1 := constantI S_ 1 1#1
  let main_v32 : IVec S_ 1 := (fun x v => Host.reduce IntOp.andi x v reducesTo_S208_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : IVec S16384x26 32) (main_arg1 : FVec F S16384x16 .f32) (main_arg2 : FVec F S26x100000 .f32) (main_arg3 : FVec F S26x100000x8 .f32) (main_arg4 : FVec F S16x1 .f32) (main_arg5 : FVec F S1 .f32) (main_arg6 : FVec F S16x208 .f32) (main_arg7 : FVec F S208 .f32) (main_arg8 : FVec F S208x128 .f32) (main_arg9 : FVec F S128 .f32) (main_arg10 : FVec F S128 .f32) (main_arg11 : FVec F S128 .f32) (main_arg12 : FVec F S128x64 .f32) (main_arg13 : FVec F S64 .f32) (main_arg14 : FVec F S64 .f32) (main_arg15 : FVec F S64 .f32) (main_arg16 : FVec F S64x1 .f32) (main_arg17 : FVec F S1 .f32) : IVec S_ 1 :=
  let main_v0 : FVec F S16384x16 .f32 := Host.absf main_arg1
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S26x100000 .f32 := Host.absf main_arg2
  let main_cst_0 : FVec F S_ .f32 := constant S_ .f32 0x7F800000#32
  let main_v5 : FVec F S26x100000 .f32 := broadcastInDim S26x100000 ![] bcast_S_S26x100000 main_cst_0
  let main_v6 : IVec S26x100000 1 := cmpf .olt main_v4 main_v5
  let main_c_1 : IVec S_ 1 := constantI S_ 1 1#1
  let main_v7 : IVec S_ 1 := (fun x v => Host.reduce IntOp.andi x v reducesTo_S26x100000_S_d0_1 h_S_) main_v6 main_c_1
  let main_v8 : IVec S_ 1 := andi main_v3 main_v7
  let main_v9 : FVec F S26x100000x8 .f32 := Host.absf main_arg3
  let main_cst_2 : FVec F S_ .f32 := constant S_ .f32 0x7F800000#32
  let main_v10 : FVec F S26x100000x8 .f32 := broadcastInDim S26x100000x8 ![] bcast_S_S26x100000x8 main_cst_2
  let main_v11 : IVec S26x100000x8 1 := cmpf .olt main_v9 main_v10
  let main_c_3 : IVec S_ 1 := constantI S_ 1 1#1
  let main_v12 : IVec S_ 1 := (fun x v => Host.reduce IntOp.andi x v reducesTo_S26x100000x8_S_d0_1_2 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S16384x26 : Shape := ⟨2, ![16384, 26]⟩
abbrev S16384x16 : Shape := ⟨2, ![16384, 16]⟩
abbrev S26x100000 : Shape := ⟨2, ![26, 100000]⟩
abbrev S26x100000x8 : Shape := ⟨3, ![26, 100000, 8]⟩
abbrev S16x1 : Shape := ⟨2, ![16, 1]⟩
abbrev S1 : Shape := ⟨1, ![1]⟩
abbrev S16x208 : Shape := ⟨2, ![16, 208]⟩
abbrev S208 : Shape := ⟨1, ![208]⟩
abbrev S208x128 : Shape := ⟨2, ![208, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384 : Shape := ⟨1, ![16384]⟩
abbrev S16384x1 : Shape := ⟨2, ![16384, 1]⟩
abbrev S16384x26x8 : Shape := ⟨3, ![16384, 26, 8]⟩
abbrev S16384x8 : Shape := ⟨2, ![16384, 8]⟩
abbrev S1x1 : Shape := ⟨2, ![1, 1]⟩
abbrev S16384x208 : Shape := ⟨2, ![16384, 208]⟩
abbrev S1x208 : Shape := ⟨2, ![1, 208]⟩
abbrev S1x128 : Shape := ⟨2, ![1, 128]⟩
abbrev S16384x128 : Shape := ⟨2, ![16384, 128]⟩
abbrev S2048x1 : Shape := ⟨2, ![2048, 1]⟩
abbrev S2048x208 : Shape := ⟨2, ![2048, 208]⟩
abbrev S2048x16 : Shape := ⟨2, ![2048, 16]⟩
abbrev S2048x128 : Shape := ⟨2, ![2048, 128]⟩
abbrev S1x64 : Shape := ⟨2, ![1, 64]⟩
abbrev S16384x64 : Shape := ⟨2, ![16384, 64]⟩
abbrev S2048x64 : Shape := ⟨2, ![2048, 64]⟩
abbrev S2048 : Shape := ⟨1, ![2048]⟩

abbrev nBuf : Space → Nat
  | .hbm => 154
  | .vmem => 32
  | .smem => 0
  | _ => 0

abbrev hbmTy0_0 (i : Nat) : BufTy := match i % 128 with
  | 0 => ⟨S16384x26, .i32⟩
  | 1 => ⟨S16384x16, .f32⟩
  | 2 => ⟨S26x100000, .f32⟩
  | 3 => ⟨S26x100000x8, .f32⟩
  | 4 => ⟨S16x1, .f32⟩
  | 5 => ⟨S1, .f32⟩
  | 6 => ⟨S16x208, .f32⟩
  | 7 => ⟨S208, .f32⟩
  | 8 => ⟨S208x128, .f32⟩
  | 9 => ⟨S128, .f32⟩
  | 10 => ⟨S128, .f32⟩
  | 11 => ⟨S128, .f32⟩
  | 12 => ⟨S128x64, .f32⟩
  | 13 => ⟨S64, .f32⟩
  | 14 => ⟨S64, .f32⟩
  | 15 => ⟨S64, .f32⟩
  | 16 => ⟨S64x1, .f32⟩
  | 17 => ⟨S1, .f32⟩
  | 18 => ⟨S26, .i32⟩
  | 19 => ⟨S1x26, .i32⟩
  | 20 => ⟨S_, .i32⟩
  | 21 => ⟨S1x26, .i32⟩
  | 22 => ⟨S1x26, .i1⟩
  | 23 => ⟨S_, .i32⟩
  | 24 => ⟨S1x26, .i32⟩
  | 25 => ⟨S1x26, .i32⟩
  | 26 => ⟨S1x26, .i32⟩
  | 27 => ⟨S_, .i32⟩
  | 28 => ⟨S16384x26, .i32⟩
  | 29 => ⟨S16384x26, .i1⟩
  | 30 => ⟨S_, .i32⟩
  | 31 => ⟨S16384x26, .i32⟩
  | 32 => ⟨S16384x26, .i32⟩
  | 33 => ⟨S16384x26, .i32⟩
  | 34 => ⟨S16384x26, .i32⟩
  | 35 => ⟨S16384x26x1, .i32⟩
  | 36 => ⟨S16384x26x1, .i32⟩
  | 37 => ⟨S16384x26x2, .i32⟩
  | 38 => ⟨S16384x26, .f32⟩
  | 39 => ⟨S_, .f32⟩
  | 40 => ⟨S16384, .f32⟩
  | 41 => ⟨S16384x1, .f32⟩
  | 42 => ⟨S_, .i32⟩
  | 43 => ⟨S1x26, .i32⟩
  | 44 => ⟨S1x26, .i1⟩
  | 45 => ⟨S_, .i32⟩
  | 46 => ⟨S1x26, .i32⟩
  | 47 => ⟨S1x26, .i32⟩
  | 48 => ⟨S1x26, .i32⟩
  | 49 => ⟨S_, .i32⟩
  | 50 => ⟨S16384x26, .i32⟩
  | 51 => ⟨S16384x26, .i1⟩
  | 52 => ⟨S_, .i32⟩
  | 53 => ⟨S16384x26, .i32⟩
  | 54 => ⟨S16384x26, .i32⟩
  | 55 => ⟨S16384x26, .i32⟩
  | 56 => ⟨S16384x26, .i32⟩
  | 57 => ⟨S16384x26x1, .i32⟩
  | 58 => ⟨S16384x26x1, .i32⟩
  | 59 => ⟨S16384x26x2, .i32⟩
  | 60 => ⟨S16384x26x8, .f32⟩
  | 61 => ⟨S_, .f32⟩
  | 62 => ⟨S16384x8, .f32⟩
  | 63 => ⟨S16384x26x8, .f32⟩
  | 64 => ⟨S_, .f32⟩
  | 65 => ⟨S16384x8, .f32⟩
  | 66 => ⟨S16384x8, .f32⟩
  | 67 => ⟨S16384x8, .f32⟩
  | 68 => ⟨S_, .f32⟩
  | 69 => ⟨S16384x8, .f32⟩
  | 70 => ⟨S16384x8, .f32⟩
  | 71 => ⟨S_, .f32⟩
  | 72 => ⟨S16384, .f32⟩
  | 73 => ⟨S16384x1, .f32⟩
  | 74 => ⟨S16384x1, .f32⟩
  | 75 => ⟨S1x1, .f32⟩
  | 76 => ⟨S16384x1, .f32⟩
  | 77 => ⟨S16384x1, .f32⟩
  | 78 => ⟨S16384x1, .f32⟩
  | 79 => ⟨S16384x1, .f32⟩
  | 80 => ⟨S16384x208, .f32⟩
  | 81 => ⟨S1x208, .f32⟩
  | 82 => ⟨S1x128, .f32⟩
  | 83 => ⟨S16384x128, .f32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S16384x128, .f32⟩
  | 98 => ⟨S16384x128, .f32⟩
  | 99 => ⟨S16384x128, .f32⟩
  | 100 => ⟨S_, .f32⟩
  | 101 => ⟨S_, .f32⟩
  | 102 => ⟨S_, .f32⟩
  | 103 => ⟨S_, .f32⟩
  | 104 => ⟨S128, .f32⟩
  | 105 => ⟨S1x128, .f32⟩
  | 106 => ⟨S1x128, .f32⟩
  | 107 => ⟨S1x128, .f32⟩
  | 108 => ⟨S_, .f32⟩
  | 109 => ⟨S_, .i1⟩
  | 110 => ⟨S_, .f32⟩
  | 111 => ⟨S_, .f32⟩
  | 112 => ⟨S1x128, .f32⟩
  | 113 => ⟨S1x128, .f32⟩
  | 114 => ⟨S1x128, .f32⟩
  | 115 => ⟨S1x128, .f32⟩
  | 116 => ⟨S1x64, .f32⟩
  | 117 => ⟨S16384x64, .f32⟩
  | 118 => ⟨S_, .f32⟩
  | 119 => ⟨S64, .f32⟩
  | 120 => ⟨S1x64, .f32⟩
  | 121 => ⟨S_, .f32⟩
  | 122 => ⟨S1x64, .f32⟩
  | 123 => ⟨S1x64, .f32⟩
  | 124 => ⟨S_, .i32⟩
  | 125 => ⟨S_, .f32⟩
  | 126 => ⟨S64, .f32⟩
  | 127 => ⟨S1x64, .f32⟩
  | _ => ⟨S16384x26, .i32⟩

abbrev hbmTy0_1 (i : Nat) : BufTy := match i % 128 with
  | 0 => ⟨S_, .f32⟩
  | 1 => ⟨S1x64, .f32⟩
  | 2 => ⟨S1x64, .f32⟩
  | 3 => ⟨S16384x64, .f32⟩
  | 4 => ⟨S16384x64, .f32⟩
  | 5 => ⟨S16384x64, .f32⟩
  | 6 => ⟨S_, .f32⟩
  | 7 => ⟨S_, .f32⟩
  | 8 => ⟨S_, .f32⟩
  | 9 => ⟨S_, .f32⟩
  | 10 => ⟨S64, .f32⟩
  | 11 => ⟨S1x64, .f32⟩
  | 12 => ⟨S1x64, .f32⟩
  | 13 => ⟨S1x64, .f32⟩
  | 14 => ⟨S_, .f32⟩
  | 15 => ⟨S_, .i1⟩
  | 16 => ⟨S_, .f32⟩
  | 17 => ⟨S_, .f32⟩
  | 18 => ⟨S1x64, .f32⟩
  | 19 => ⟨S1x64, .f32⟩
  | 20 => ⟨S1x64, .f32⟩
  | 21 => ⟨S1x64, .f32⟩
  | 22 => ⟨S64, .f32⟩
  | 23 => ⟨S1x64, .f32⟩
  | 24 => ⟨S1x1, .f32⟩
  | 25 => ⟨S16384x1, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | .local _ .vmem, ⟨0, _⟩ => ⟨S2048x1, .f32⟩
  | .local _ .vmem, ⟨1, _⟩ => ⟨S2048x1, .f32⟩
  | .local _ .vmem, ⟨2, _⟩ => ⟨S2048x208, .f32⟩
  | .local _ .vmem, ⟨3, _⟩ => ⟨S2048x208, .f32⟩
  | .local _ .vmem, ⟨4, _⟩ => ⟨S2048x16, .f32⟩
  | .local _ .vmem, ⟨5, _⟩ => ⟨S2048x16, .f32⟩
  | .local _ .vmem, ⟨6, _⟩ => ⟨S16x208, .f32⟩
  | .local _ .vmem, ⟨7, _⟩ => ⟨S1x208, .f32⟩
  | .local _ .vmem, ⟨8, _⟩ => ⟨S208x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x1, .f32⟩
  | .local _ .vmem, ⟨30, _⟩ => ⟨S2048x1, .f32⟩
  | .local _ .vmem, ⟨31, _⟩ => ⟨S2048x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_c_13 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_cst_0 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_cst_1 : Ref sig .tc := ⟨.hbm, 101, rfl⟩
abbrev main_call0_v8 : Ref sig .tc := ⟨.hbm, 102, rfl⟩
abbrev main_call0_cst_2 : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_call0_v12 : Ref sig .tc := ⟨.hbm, 107, rfl⟩
abbrev main_call0_cst_3 : Ref sig .tc := ⟨.hbm, 108, rfl⟩
abbrev main_call0_v13 : Ref sig .tc := ⟨.hbm, 109, rfl⟩
abbrev main_call0_cst_4 : Ref sig .tc := ⟨.hbm, 110, rfl⟩
abbrev main_call0_call0_v0 : Ref sig .tc := ⟨.hbm, 111, rfl⟩
abbrev main_call0_call0_v1 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_14 : Ref sig .tc := ⟨.hbm, 118, rfl⟩
abbrev main_v62 : Ref sig .tc := ⟨.hbm, 119, rfl⟩
abbrev main_v63 : Ref sig .tc := ⟨.hbm, 120, rfl⟩
abbrev main_cst_15 : Ref sig .tc := ⟨.hbm, 121, rfl⟩
abbrev main_v64 : Ref sig .tc := ⟨.hbm, 122, rfl⟩
abbrev main_v65 : Ref sig .tc := ⟨.hbm, 123, rfl⟩
abbrev main_c_16 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_cst_1 : Ref sig .tc := ⟨.hbm, 135, rfl⟩
abbrev main_call1_v8 : Ref sig .tc := ⟨.hbm, 136, rfl⟩
abbrev main_call1_cst_2 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_v12 : Ref sig .tc := ⟨.hbm, 141, rfl⟩
abbrev main_call1_cst_3 : Ref sig .tc := ⟨.hbm, 142, rfl⟩
abbrev main_call1_v13 : Ref sig .tc := ⟨.hbm, 143, rfl⟩
abbrev main_call1_cst_4 : Ref sig .tc := ⟨.hbm, 144, rfl⟩
abbrev main_call1_call0_v0 : Ref sig .tc := ⟨.hbm, 145, rfl⟩
abbrev main_call1_call0_v1 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x208 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x208 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x208 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S208x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x8_S16384x8_d1 : S16384x26x8.ReducesTo [1] S16384x8
  bcast_S_S16384x8 : S_.BroadcastsInDim S16384x8 (![] : Fin 0 → Fin S16384x8.rank)
  reducesTo_S16384x8_S16384_d1 : S16384x8.ReducesTo [1] S16384
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x26x8_S16384x208 : S16384x26x8.ShapeCasts S16384x208
  shapeCasts_S208_S1x208 : S208.ShapeCasts S1x208
  shapeCasts_S128_S1x128 : S128.ShapeCasts S1x128
  inb_S2048x16_S2048x16_0_0 : ∀ a, (![0, 0] : Fin 2 → Nat) a + S2048x16.size a ≤ S2048x16.size a
  h_S2048x16 : 0 < S2048x16.numel
  bitsLt_bf16_f32 : FTy.bits .bf16 < FTy.bits .f32
  inb_S16x208_S16x208_0_0 : ∀ a, (![0, 0] : Fin 2 → Nat) a + S16x208.size a ≤ S16x208.size a
  h_S16x208 : 0 < S16x208.numel
  inb_S1x208_S1x208_0_0 : ∀ a, (![0, 0] : Fin 2 → Nat) a + S1x208.size a ≤ S1x208.size a
  h_S1x208 : 0 < S1x208.numel
  shapeCasts_S1x208_S1x208 : S1x208.ShapeCasts S1x208
  broadcasts_S1x208_S2048x208 : S1x208.Broadcasts S2048x208
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x208_S2048x208_0_0 : ∀ a, (![0, 0] : Fin 2 → Nat) a + S2048x208.size a ≤ S2048x208.size a
  h_S2048x208 : 0 < S2048x208.numel
  shapeCasts_S2048x208_S2048x208 : S2048x208.ShapeCasts S2048x208
  broadcasts_S2048x1_S2048x208 : S2048x1.Broadcasts S2048x208
  inb_S208x128_S208x128_0_0 : ∀ a, (![0, 0] : Fin 2 → Nat) a + S208x128.size a ≤ S208x128.size a
  h_S208x128 : 0 < S208x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  reducesTo_S16384x128_S128_d0 : S16384x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S16384x128_0_1 : S1x128.BroadcastsInDim S16384x128 (![0, 1] : Fin 2 → Fin S16384x128.rank)
  shapeCasts_S64_S1x64 : S64.ShapeCasts S1x64
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  reducesTo_S16384x64_S64_d0 : S16384x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S16384x64_0_1 : S1x64.BroadcastsInDim S16384x64 (![0, 1] : Fin 2 → Fin S16384x64.rank)
  shapeCasts_S64x1_S64 : S64x1.ShapeCasts S64
  shapeCasts_S1_S1x1 : S1.ShapeCasts S1x1
  shapeCasts_S2048x64_S2048x64 : S2048x64.ShapeCasts S2048x64
  reduces_S2048x64_S2048 : S2048x64.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  gather_S26x100000_S16384x26x2_S16384x26_n_01_n_n_01_2_11_wf : GatherDims.WF S26x100000 S16384x26x2 S16384x26 [] [0, 1] [] [0, 1] [] 2 ![1, 1]
  gather_S26x100000x8_S16384x26x2_S16384x26x8_2_01_n_n_01_2_118_wf : GatherDims.WF S26x100000x8 S16384x26x2 S16384x26x8 [2] [0, 1] [] [0, 1] [] 2 ![1, 1, 8]
  dot_S16384x16_S16x1_S16384x1_1_0_0_1_n_n_wf : DotDims.WF S16384x16 S16x1 S16384x1 [1] [0] [0] [1] [] []
  dot_S2048x16_S16x208_S2048x208_1_0_0_1_n_n_wf : DotDims.WF S2048x16 S16x208 S2048x208 [1] [0] [0] [1] [] []
  dot_S2048x208_S208x128_S2048x128_1_0_0_1_n_n_wf : DotDims.WF S2048x208 S208x128 S2048x128 [1] [0] [0] [1] [] []
  dot_S2048x128_S128x64_S2048x64_1_0_0_1_n_n_wf : DotDims.WF S2048x128 S128x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .f32 = 32 ∨ (Rect.block (s := S16384x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x208.size a ≤ S16384x208.size a
  hwx0_1 : ∀ i : grid0.Coords, EltTy.bits .f32 = 32 ∨ (Rect.block (s := S16384x208) S2048x208.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S16384x16.size a
  hwx0_2 : ∀ i : grid0.Coords, EltTy.bits .f32 = 32 ∨ (Rect.block (s := S16384x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x208.size a ≤ S16x208.size a
  hwx0_3 : ∀ i : grid0.Coords, EltTy.bits .f32 = 32 ∨ (Rect.block (s := S16x208) S16x208.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x208.size a ≤ S1x208.size a
  hwx0_4 : ∀ i : grid0.Coords, EltTy.bits .f32 = 32 ∨ (Rect.block (s := S1x208) S1x208.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S208x128.size a ≤ S208x128.size a
  hwx0_5 : ∀ i : grid0.Coords, EltTy.bits .f32 = 32 ∨ (Rect.block (s := S208x128) S208x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S16384x64.size a
  hwx1_7 : ∀ i : grid1.Coords, EltTy.bits .f32 = 32 ∨ (Rect.block (s := S16384x64) S2048x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x1.size a ≤ S16384x1.size a
  hwx2_7 : ∀ i : grid2.Coords, EltTy.bits .f32 = 32 ∨ (Rect.block (s := S16384x1) S2048x1.size (cc2_transform_7 i) (hinb2_7 i)).WholeWords (EltTy.packing .f32)

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def gather_S26x100000x8_S16384x26x2_S16384x26x8_2_01_n_n_01_2_118 : GatherDims S26x100000x8 S16384x26x2 S16384x26x8 where
  offsetDims := [2]
  collapsedSliceDims := [0, 1]
  operandBatchingDims := []
  startIndicesBatchingDims := []
  startIndexMap := [0, 1]
  indexVectorDim := 2
  sliceSizes := ![1, 1, 8]
  wf := gather_S26x100000x8_S16384x26x2_S16384x26x8_2_01_n_n_01_2_118_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf
def dot_S2048x16_S16x208_S2048x208_1_0_0_1_n_n : DotDims S2048x16 S16x208 S2048x208 where
  lhsContracting := [1]
  rhsContracting := [0]
  lhsNonContracting := [0]
  rhsNonContracting := [1]
  lhsBatch := []
  rhsBatch := []
  wf := dot_S2048x16_S16x208_S2048x208_1_0_0_1_n_n_wf
def dot_S2048x208_S208x128_S2048x128_1_0_0_1_n_n : DotDims S2048x208 S208x128 S2048x128 where
  lhsContracting := [1]
  rhsContracting := [0]
  lhsNonContracting := [0]
  rhsNonContracting := [1]
  lhsBatch := []
  rhsBatch := []
  wf := dot_S2048x208_S208x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf

abbrev win0_0 : Pipeline.Window sig grid0 :=
  Pipeline.Window.ofSpec (Memref.whole main_v48) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S2048x208.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16x208.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x208.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S208x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v52) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S2048x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v61) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v72) S2048x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16384x26 : Shape := ⟨2, ![16384, 26]⟩
abbrev S16384x16 : Shape := ⟨2, ![16384, 16]⟩
abbrev S26x100000 : Shape := ⟨2, ![26, 100000]⟩
abbrev S26x100000x8 : Shape := ⟨3, ![26, 100000, 8]⟩
abbrev S16x1 : Shape := ⟨2, ![16, 1]⟩
abbrev S1 : Shape := ⟨1, ![1]⟩
abbrev S16x208 : Shape := ⟨2, ![16, 208]⟩
abbrev S208 : Shape := ⟨1, ![208]⟩
abbrev S208x128 : Shape := ⟨2, ![208, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384 : Shape := ⟨1, ![16384]⟩
abbrev S16384x1 : Shape := ⟨2, ![16384, 1]⟩
abbrev S1x1 : Shape := ⟨2, ![1, 1]⟩
abbrev S16384x26x8 : Shape := ⟨3, ![16384, 26, 8]⟩
abbrev S16384x8 : Shape := ⟨2, ![16384, 8]⟩
abbrev S16384x208 : Shape := ⟨2, ![16384, 208]⟩
abbrev S1x208 : Shape := ⟨2, ![1, 208]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 197
  | .vmem => 0
  | .smem => 0
  | _ => 0

abbrev hbmTy0_0 (i : Nat) : BufTy := match i % 128 with
  | 0 => ⟨S16384x26, .i32⟩
  | 1 => ⟨S16384x16, .f32⟩
  | 2 => ⟨S26x100000, .f32⟩
  | 3 => ⟨S26x100000x8, .f32⟩
  | 4 => ⟨S16x1, .f32⟩
  | 5 => ⟨S1, .f32⟩
  | 6 => ⟨S16x208, .f32⟩
  | 7 => ⟨S208, .f32⟩
  | 8 => ⟨S208x128, .f32⟩
  | 9 => ⟨S128, .f32⟩
  | 10 => ⟨S128, .f32⟩
  | 11 => ⟨S128, .f32⟩
  | 12 => ⟨S128x64, .f32⟩
  | 13 => ⟨S64, .f32⟩
  | 14 => ⟨S64, .f32⟩
  | 15 => ⟨S64, .f32⟩
  | 16 => ⟨S64x1, .f32⟩
  | 17 => ⟨S1, .f32⟩
  | 18 => ⟨S26, .i32⟩
  | 19 => ⟨S1x26, .i32⟩
  | 20 => ⟨S_, .i32⟩
  | 21 => ⟨S1x26, .i32⟩
  | 22 => ⟨S1x26, .i1⟩
  | 23 => ⟨S_, .i32⟩
  | 24 => ⟨S1x26, .i32⟩
  | 25 => ⟨S1x26, .i32⟩
  | 26 => ⟨S1x26, .i32⟩
  | 27 => ⟨S_, .i32⟩
  | 28 => ⟨S16384x26, .i32⟩
  | 29 => ⟨S16384x26, .i1⟩
  | 30 => ⟨S_, .i32⟩
  | 31 => ⟨S16384x26, .i32⟩
  | 32 => ⟨S16384x26, .i32⟩
  | 33 => ⟨S16384x26, .i32⟩
  | 34 => ⟨S16384x26, .i32⟩
  | 35 => ⟨S16384x26x1, .i32⟩
  | 36 => ⟨S16384x26x1, .i32⟩
  | 37 => ⟨S16384x26x2, .i32⟩
  | 38 => ⟨S16384x26, .f32⟩
  | 39 => ⟨S_, .f32⟩
  | 40 => ⟨S16384, .f32⟩
  | 41 => ⟨S16384x1, .f32⟩
  | 42 => ⟨S16384x1, .f32⟩
  | 43 => ⟨S16384x1, .f32⟩
  | 44 => ⟨S1x1, .f32⟩
  | 45 => ⟨S16384x1, .f32⟩
  | 46 => ⟨S16384x1, .f32⟩
  | 47 => ⟨S_, .i32⟩
  | 48 => ⟨S1x26, .i32⟩
  | 49 => ⟨S1x26, .i1⟩
  | 50 => ⟨S_, .i32⟩
  | 51 => ⟨S1x26, .i32⟩
  | 52 => ⟨S1x26, .i32⟩
  | 53 => ⟨S1x26, .i32⟩
  | 54 => ⟨S_, .i32⟩
  | 55 => ⟨S16384x26, .i32⟩
  | 56 => ⟨S16384x26, .i1⟩
  | 57 => ⟨S_, .i32⟩
  | 58 => ⟨S16384x26, .i32⟩
  | 59 => ⟨S16384x26, .i32⟩
  | 60 => ⟨S16384x26, .i32⟩
  | 61 => ⟨S16384x26, .i32⟩
  | 62 => ⟨S16384x26x1, .i32⟩
  | 63 => ⟨S16384x26x1, .i32⟩
  | 64 => ⟨S16384x26x2, .i32⟩
  | 65 => ⟨S16384x26x8, .f32⟩
  | 66 => ⟨S_, .f32⟩
  | 67 => ⟨S16384x8, .f32⟩
  | 68 => ⟨S16384x8, .f32⟩
  | 69 => ⟨S16384x26x8, .f32⟩
  | 70 => ⟨S_, .f32⟩
  | 71 => ⟨S16384x8, .f32⟩
  | 72 => ⟨S16384x8, .f32⟩
  | 73 => ⟨S_, .f32⟩
  | 74 => ⟨S16384x8, .f32⟩
  | 75 => ⟨S16384x8, .f32⟩
  | 76 => ⟨S_, .f32⟩
  | 77 => ⟨S16384, .f32⟩
  | 78 => ⟨S16384x1, .f32⟩
  | 79 => ⟨S16384x208, .f32⟩
  | 80 => ⟨S16384x208, .f32⟩
  | 81 => ⟨S1x208, .f32⟩
  | 82 => ⟨S16384x208, .f32⟩
  | 83 => ⟨S16384x208, .f32⟩
  | 84 => ⟨S_, .f32⟩
  | 85 => ⟨S16384x208, .f32⟩
  | 86 => ⟨S16384x208, .f32⟩
  | 87 => ⟨S16384x208, .f32⟩
  | 88 => ⟨S16384x1, .f32⟩
  | 89 => ⟨S16384x208, .f32⟩
  | 90 => ⟨S16384x208, .f32⟩
  | 91 => ⟨S16384x128, .f32⟩
  | 92 => ⟨S1x128, .f32⟩
  | 93 => ⟨S16384x128, .f32⟩
  | 94 => ⟨S16384x128, .f32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S16384x128, .f32⟩
  | 109 => ⟨S16384x128, .f32⟩
  | 110 => ⟨S16384x128, .f32⟩
  | 111 => ⟨S_, .f32⟩
  | 112 => ⟨S_, .f32⟩
  | 113 => ⟨S_, .f32⟩
  | 114 => ⟨S_, .f32⟩
  | 115 => ⟨S128, .f32⟩
  | 116 => ⟨S1x128, .f32⟩
  | 117 => ⟨S1x128, .f32⟩
  | 118 => ⟨S1x128, .f32⟩
  | 119 => ⟨S_, .f32⟩
  | 120 => ⟨S_, .i1⟩
  | 121 => ⟨S_, .f32⟩
  | 122 => ⟨S_, .f32⟩
  | 123 => ⟨S1x128, .f32⟩
  | 124 => ⟨S1x128, .f32⟩
  | 125 => ⟨S16384x128, .f32⟩
  | 126 => ⟨S16384x128, .f32⟩
  | 127 => ⟨S_, .f32⟩
  | _ => ⟨S16384x26, .i32⟩

abbrev hbmTy0_1 (i : Nat) : BufTy := match i % 128 with
  | 0 => ⟨S1x128, .f32⟩
  | 1 => ⟨S1x128, .f32⟩
  | 2 => ⟨S1x128, .f32⟩
  | 3 => ⟨S16384x128, .f32⟩
  | 4 => ⟨S16384x128, .f32⟩
  | 5 => ⟨S1x128, .f32⟩
  | 6 => ⟨S16384x128, .f32⟩
  | 7 => ⟨S16384x128, .f32⟩
  | 8 => ⟨S1x128, .f32⟩
  | 9 => ⟨S16384x128, .f32⟩
  | 10 => ⟨S16384x128, .f32⟩
  | 11 => ⟨S_, .f32⟩
  | 12 => ⟨S16384x128, .f32⟩
  | 13 => ⟨S16384x128, .f32⟩
  | 14 => ⟨S16384x64, .f32⟩
  | 15 => ⟨S1x64, .f32⟩
  | 16 => ⟨S16384x64, .f32⟩
  | 17 => ⟨S16384x64, .f32⟩
  | 18 => ⟨S_, .f32⟩
  | 19 => ⟨S64, .f32⟩
  | 20 => ⟨S1x64, .f32⟩
  | 21 => ⟨S_, .f32⟩
  | 22 => ⟨S1x64, .f32⟩
  | 23 => ⟨S1x64, .f32⟩
  | 24 => ⟨S_, .i32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S16384x64, .f32⟩
  | 32 => ⟨S16384x64, .f32⟩
  | 33 => ⟨S16384x64, .f32⟩
  | 34 => ⟨S_, .f32⟩
  | 35 => ⟨S_, .f32⟩
  | 36 => ⟨S_, .f32⟩
  | 37 => ⟨S_, .f32⟩
  | 38 => ⟨S64, .f32⟩
  | 39 => ⟨S1x64, .f32⟩
  | 40 => ⟨S1x64, .f32⟩
  | 41 => ⟨S1x64, .f32⟩
  | 42 => ⟨S_, .f32⟩
  | 43 => ⟨S_, .i1⟩
  | 44 => ⟨S_, .f32⟩
  | 45 => ⟨S_, .f32⟩
  | 46 => ⟨S1x64, .f32⟩
  | 47 => ⟨S1x64, .f32⟩
  | 48 => ⟨S16384x64, .f32⟩
  | 49 => ⟨S16384x64, .f32⟩
  | 50 => ⟨S_, .f32⟩
  | 51 => ⟨S1x64, .f32⟩
  | 52 => ⟨S1x64, .f32⟩
  | 53 => ⟨S1x64, .f32⟩
  | 54 => ⟨S16384x64, .f32⟩
  | 55 => ⟨S16384x64, .f32⟩
  | 56 => ⟨S1x64, .f32⟩
  | 57 => ⟨S16384x64, .f32⟩
  | 58 => ⟨S16384x64, .f32⟩
  | 59 => ⟨S1x64, .f32⟩
  | 60 => ⟨S16384x64, .f32⟩
  | 61 => ⟨S16384x64, .f32⟩
  | 62 => ⟨S_, .f32⟩
  | 63 => ⟨S16384x64, .f32⟩
  | 64 => ⟨S16384x64, .f32⟩
  | 65 => ⟨S16384x1, .f32⟩
  | 66 => ⟨S1x1, .f32⟩
  | 67 => ⟨S16384x1, .f32⟩
  | 68 => ⟨S16384x1, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call0_cst : Ref sig .tc := ⟨.hbm, 84, rfl⟩
abbrev main_call0_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_cst_3 : Ref sig .tc := ⟨.hbm, 119, rfl⟩
abbrev main_call1_v13 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_cst_14 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_call2_cst : Ref sig .tc := ⟨.hbm, 139, rfl⟩
abbrev main_call2_v0 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_15 : Ref sig .tc := ⟨.hbm, 146, rfl⟩
abbrev main_v85 : Ref sig .tc := ⟨.hbm, 147, rfl⟩
abbrev main_v86 : Ref sig .tc := ⟨.hbm, 148, rfl⟩
abbrev main_cst_16 : Ref sig .tc := ⟨.hbm, 149, rfl⟩
abbrev main_v87 : Ref sig .tc := ⟨.hbm, 150, rfl⟩
abbrev main_v88 : Ref sig .tc := ⟨.hbm, 151, rfl⟩
abbrev main_c_17 : Ref sig .tc := ⟨.hbm, 152, rfl⟩
abbrev main_call3_cst : Ref sig .tc := ⟨.hbm, 153, rfl⟩
abbrev main_call3_v0 : Ref sig .tc := ⟨.hbm, 154, rfl⟩
abbrev main_call3_v1 : Ref sig .tc := ⟨.hbm, 155, rfl⟩
abbrev main_call3_cst_0 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_cst_1 : Ref sig .tc := ⟨.hbm, 163, rfl⟩
abbrev main_call3_v8 : Ref sig .tc := ⟨.hbm, 164, rfl⟩
abbrev main_call3_cst_2 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_cst_3 : Ref sig .tc := ⟨.hbm, 170, rfl⟩
abbrev main_call3_v13 : Ref sig .tc := ⟨.hbm, 171, rfl⟩
abbrev main_call3_cst_4 : Ref sig .tc := ⟨.hbm, 172, rfl⟩
abbrev main_call3_call0_v0 : Ref sig .tc := ⟨.hbm, 173, rfl⟩
abbrev main_call3_call0_v1 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_cst_18 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_call4_cst : Ref sig .tc := ⟨.hbm, 190, rfl⟩
abbrev main_call4_v0 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26_S16384_d1 : S16384x26.ReducesTo [1] S16384
  h_S_ : 0 < S_.numel
  bcast_S16384_S16384x1_0 : S16384.BroadcastsInDim S16384x1 (![0] : Fin 1 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x26x8_S16384x8_d1 : S16384x26x8.ReducesTo [1] S16384x8
  bcast_S_S16384x8 : S_.BroadcastsInDim S16384x8 (![] : Fin 0 → Fin S16384x8.rank)
  reducesTo_S16384x8_S16384_d1 : S16384x8.ReducesTo [1] S16384
  shapeCasts_S16384x26x8_S16384x208 : S16384x26x8.ShapeCasts S16384x208
  bcast_S208_S1x208_1 : S208.BroadcastsInDim S1x208 (![1] : Fin 1 → Fin S1x208.rank)
  bcast_S1x208_S16384x208_0_1 : S1x208.BroadcastsInDim S16384x208 (![0, 1] : Fin 2 → Fin S16384x208.rank)
  bcast_S_S16384x208 : S_.BroadcastsInDim S16384x208 (![] : Fin 0 → Fin S16384x208.rank)
  bcast_S16384x1_S16384x208_0_1 : S16384x1.BroadcastsInDim S16384x208 (![0, 1] : Fin 2 → Fin S16384x208.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S128_d0 : S16384x128.ReducesTo [0] S128
  bcast_S_S1x128 : S_.BroadcastsInDim S1x128 (![] : Fin 0 → Fin S1x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S64_d0 : S16384x64.ReducesTo [0] S64
  bcast_S_S1x64 : S_.BroadcastsInDim S1x64 (![] : Fin 0 → Fin S1x64.rank)
  bcast_S_S16384x64 : S_.BroadcastsInDim S16384x64 (![] : Fin 0 → Fin S16384x64.rank)
  gather_S26x100000_S16384x26x2_S16384x26_n_01_n_n_01_2_11_wf : GatherDims.WF S26x100000 S16384x26x2 S16384x26 [] [0, 1] [] [0, 1] [] 2 ![1, 1]
  dot_S16384x16_S16x1_S16384x1_1_0_0_1_n_n_wf : DotDims.WF S16384x16 S16x1 S16384x1 [1] [0] [0] [1] [] []
  gather_S26x100000x8_S16384x26x2_S16384x26x8_2_01_n_n_01_2_118_wf : GatherDims.WF S26x100000x8 S16384x26x2 S16384x26x8 [2] [0, 1] [] [0, 1] [] 2 ![1, 1, 8]
  dot_S16384x16_S16x208_S16384x208_1_0_0_1_n_n_wf : DotDims.WF S16384x16 S16x208 S16384x208 [1] [0] [0] [1] [] []
  dot_S16384x208_S208x128_S16384x128_1_0_0_1_n_n_wf : DotDims.WF S16384x208 S208x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf
def gather_S26x100000x8_S16384x26x2_S16384x26x8_2_01_n_n_01_2_118 : GatherDims S26x100000x8 S16384x26x2 S16384x26x8 where
  offsetDims := [2]
  collapsedSliceDims := [0, 1]
  operandBatchingDims := []
  startIndicesBatchingDims := []
  startIndexMap := [0, 1]
  indexVectorDim := 2
  sliceSizes := ![1, 1, 8]
  wf := gather_S26x100000x8_S16384x26x2_S16384x26x8_2_01_n_n_01_2_118_wf
def dot_S16384x16_S16x208_S16384x208_1_0_0_1_n_n : DotDims S16384x16 S16x208 S16384x208 where
  lhsContracting := [1]
  rhsContracting := [0]
  lhsNonContracting := [0]
  rhsNonContracting := [1]
  lhsBatch := []
  rhsBatch := []
  wf := dot_S16384x16_S16x208_S16384x208_1_0_0_1_n_n_wf
def dot_S16384x208_S208x128_S16384x128_1_0_0_1_n_n : DotDims S16384x208 S208x128 S16384x128 where
  lhsContracting := [1]
  rhsContracting := [0]
  lhsNonContracting := [0]
  rhsNonContracting := [1]
  lhsBatch := []
  rhsBatch := []
  wf := dot_S16384x208_S208x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KerRun.lean ====
/-
  The idealized kernel program's run with its buffers named. @main is ten segments — a stretch of host operations,
  the first pallas_call, three stretches, the second pallas_call, three stretches, the third pallas_call — and the
  generated frame module folds the buffer contents through them: `Gen.W10 m ρ c` is what core `c`'s buffers hold at the
  return. Every weakly fair execution terminates, nothing faulting, with every unscoped buffer at that fold; the
  result buffer is one of them.
-/
import proofs.«104220_j67989332296027_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates, nothing faulting, and the final
    state has every unscoped TensorCore buffer at the last boundary's contents `Gen.W10`: the regions kit's launch over
    the generated segments, the last thread state read against the final state. -/
theorem run_main : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.KerRun

end
-- ==== Proof.RefOps.lean ====
/- The reference program's host operations as seven consecutive lists, copied from the printed program: a called
   function's operations stand at its call, over the call's record of buffers. -/
import proofs.«104220_j67989332296027_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- 60 operations. -/
abbrev ops_a : List (HloOp τ sig (Elt F)) :=
  [ StableHlo.nullary main_v0 (iotaInDim S26 32 0),
    StableHlo.unary main_v0 main_v1 (broadcastInDim S1x26 ![1] bcast_S26_S1x26_1 : (⟨S26, .i32⟩ : BufTy).Contents (Elt F) → (⟨S1x26, .i32⟩ : BufTy).Contents (Elt F)),
    StableHlo.nullary main_c (constantI S_ 32 0#32),
    StableHlo.unary main_c main_v2 (broadcastInDim S1x26 ![] bcast_S_S1x26 : (⟨S_, .i32⟩ : BufTy).Contents (Elt F) → (⟨S1x26, .i32⟩ : BufTy).Contents (Elt F)),
    StableHlo.binary main_v1 main_v2 main_v3 (cmpi .slt : (⟨S1x26, .i32⟩ : BufTy).Contents (Elt F) → (⟨S1x26, .i32⟩ : BufTy).Contents (Elt F) → (⟨S1x26, .i1⟩ : BufTy).Contents (Elt F)),
    StableHlo.nullary main_c_0 (constantI S_ 32 26#32),
    StableHlo.unary main_c_0 main_v4 (broadcastInDim S1x26 ![] bcast_S_S1x26 : (⟨S_, .i32⟩ : BufTy).Contents (Elt F) → (⟨S1x26, .i32⟩ : BufTy).Contents (Elt F)),
    StableHlo.binary main_v1 main_v4 main_v5 (addi : (⟨S1x26, .i32⟩ : BufTy).Contents (Elt F) → (⟨S1x26, .i32⟩ : BufTy).Contents (Elt F) → (⟨S1x26, .i32⟩ : BufTy).Contents (Elt F)),
    StableHlo.ternary main_v3 main_v5 main_v1 main_v6 (select : (⟨S1x26, .i1⟩ : BufTy).Contents (Elt F) → (⟨S1x26, .i32⟩ : BufTy).Contents (Elt F) → (⟨S1x26, .i32⟩ : BufTy).Contents (Elt F) → (⟨S1x26, .i32⟩ : BufTy).Contents (Elt F)),
    StableHlo.nullary main_c_1 (constantI S_ 32 0#32),
    StableHlo.unary main_c_1 main_v7 (broadcastInDim S16384x26 ![] bcast_S_S16384x26 : (⟨S_, .i32⟩ : BufTy).Contents (Elt F) → (⟨S16384x26, .i32⟩ : BufTy).Contents (Elt F)),
    StableHlo.binary main_arg0 main_v7 main_v8 (cmpi .slt : (⟨S16384x26, .i32⟩ : BufTy).Contents (Elt F) → (⟨S16384x26, .i32⟩ : BufTy).Contents (Elt F) → (⟨S16384x26, .i1⟩ : BufTy).Contents (Elt F)),
    StableHlo.nullary main_c_2 (constantI S_ 32 100000#32),
    StableHlo.unary main_c_2 main_v9 (broadcastInDim S16384x26 ![] bcast_S_S16384x26 : (⟨S_, .i32⟩ : BufTy).Contents (Elt F) → (⟨S16384x26, .i32⟩ : BufTy).Contents (Elt F)),
    StableHlo.binary main_arg0 main_v9 main_v10 (addi : (⟨S16384x26, .i32⟩ : BufTy).Contents (Elt F) → (⟨S16384x26, .i32⟩ : BufTy).Contents (Elt F) → (⟨S16384x26, .i32⟩ : BufTy).Contents (Elt F)),
    StableHlo.ternary main_v8 main_v10 main_arg0 main_v11 (select : (⟨S16384x26, .i1⟩ : BufTy).Contents (Elt F) → (⟨S16384x26, .i32⟩ : BufTy).Contents (Elt F) → (⟨S16384x26, .i32⟩ : BufTy).Contents (Elt F) → (⟨S16384x26, .i32⟩ : BufTy).Contents (Elt F)),
    StableHlo.unary main_v6 main_v12 (broadcastInDim S16384x26 ![0, 1] bcast_S1x26_S16384x26_0_1 : (⟨S1x26, .i32⟩ : BufTy).Contents (Elt F) → (⟨S16384x26, .i32⟩ : BufTy).Contents (Elt F)),
    StableHlo.unary main_v12 main_v13 (broadcastInDim S16384x26x1 ![0, 1] bcast_S16384x26_S16384x26x1_0_1 : (⟨S16384x26, .i32⟩ : BufTy).Contents (Elt F) → (⟨S16384x26x1, .i32⟩ : BufTy).Contents (Elt F)),
    StableHlo.unary main_v11 main_v14 (broadcastInDim S16384x26x1 ![0, 1] bcast_S16384x26_S16384x26x1_0_1 : (⟨S16384x26, .i32⟩ : BufTy).Contents (Elt F) → (⟨S16384x26x1, .i32⟩ : BufTy).Contents (Elt F)),
    StableHlo.binary main_v13 main_v14 main_v15 ((fun a b => concatenate S16384x26x2 2 [⟨S16384x26x1, a⟩, ⟨S16384x26x1, b⟩] concatenates_S16384x26x1_S16384x26x1_S16384x26x2_d2) : (⟨S16384x26x1, .i32⟩ : BufTy).Contents (Elt F) → (⟨S16384x26x1, .i32⟩ : BufTy).Contents (Elt F) → (⟨S16384x26x2, .i32⟩ : BufTy).Contents (Elt F)),
    StableHlo.binary main_arg2 main_v15 main_v16 ((fun x i => Host.gather gather_S26x100000_S16384x26x2_S16384x26_n_01_n_n_01_2_11 x i) : (⟨S26x100000, .f32⟩ : BufTy).Contents (Elt F) → (⟨S16384x26x2, .i32⟩ : BufTy).Contents (Elt F) → (⟨S16384x26, .f32⟩ : BufTy).Contents (Elt F)),
    StableHlo.nullary main_cst (constant S_ .f32 0x00000000#32),
    StableHlo.binary main_v16 main_cst main_v17 ((fun x v => Host.reduceAdd x v reducesTo_S16384x26_S16384_d1 h_S_) : (⟨S16384x26, .f32⟩ : BufTy).Contents (Elt F) → (⟨S_, .f32⟩ : BufTy).Contents (Elt F) → (⟨S16384, .f32⟩ : BufTy).Contents (Elt F)),
    StableHlo.unary main_v17 main_v18 (broadcastInDim S16384x1 ![0] bcast_S16384_S16384x1_0 : (⟨S16384, .f32⟩ : BufTy).Contents (Elt F) → (⟨S16384x1, .f32⟩ : BufTy).Contents (Elt F)),
    StableHlo.binary main_arg1 main_arg4 main_v19 ((fun l r => Host.dotGeneral dot_S16384x16_S16x1_S16384x1_1_0_0_1_n_n none l r) : (⟨S16384x16, .f32⟩ : BufTy).Contents (Elt F) → (⟨S16x1, .f32⟩ : BufTy).Contents (Elt F) → (⟨S16384x1, .f32⟩ : BufTy).Contents (Elt F)),
    StableHlo.binary main_v18 main_v19 main_v20 (addf : (⟨S16384x1, .f32⟩ : BufTy).Contents (Elt F) → (⟨S16384x1, .f32⟩ : BufTy).Contents (Elt F) → (⟨S16384x1, .f32⟩ : BufTy).Contents (Elt F)),
    StableHlo.unary main_arg5 main_v21 (broadcastInDim S1x1 ![1] bcast_S1_S1x1_1 : (⟨S1, .f32⟩ : BufTy).Contents (Elt F) → (⟨S1x1, .f32⟩ : BufTy).Contents (Elt F)),
    StableHlo.unary main_v21 main_v22 (broadcastInDim S16384x1 ![0, 1] bcast_S1x1_S16384x1_0_1 : (⟨S1x1, .f32⟩ : BufTy).Contents (Elt F) → (⟨S16384x1, .f32⟩ : BufTy).Contents (Elt F)),
    StableHlo.binary main_v20 main_v22 main_v23 (addf : (⟨S16384x1, .f32⟩ : BufTy).Contents (Elt F) → (⟨S16384x1, .f32⟩ : BufTy).Contents (Elt F) → (⟨S16384x1, .f32⟩ : BufTy).Contents (Elt F)),
    StableHlo.nullary main_c_3 (constantI S_ 32 0#32),
    StableHlo.unary main_c_3 main_v24 (broadcastInDim S1x26 ![] bcast_S_S1x26 : (⟨S_, .i32⟩ : BufTy).Contents (Elt F) → (⟨S1x26, .i32⟩ : BufTy).Contents (Elt F)),
    StableHlo.binary main_v1 main_v24 main_v25 (cmpi .slt : (⟨S1x26, .i32⟩ : BufTy).Contents (Elt F) → (⟨S1x26, .i32⟩ : BufTy).Contents (Elt F) → (⟨S1x26, .i1⟩ : BufTy).Contents (Elt F)),
    StableHlo.nullary main_c_4 (constantI S_ 32 26#32),
    StableHlo.unary main_c_4 main_v26 (broadcastInDim S1x26 ![] bcast_S_S1x26 : (⟨S_, .i32⟩ : BufTy).Contents (Elt F) → (⟨S1x26, .i32⟩ : BufTy).Contents (Elt F)),
    StableHlo.binary main_v1 main_v26 main_v27 (addi : (⟨S1x26, .i32⟩ : BufTy).Contents (Elt F) → (⟨S1x26, .i32⟩ : BufTy).Contents (Elt F) → (⟨S1x26, .i32⟩ : BufTy).Contents (Elt F)),
    StableHlo.ternary main_v25 main_v27 main_v1 main_v28 (select : (⟨S1x26, .i1⟩ : BufTy).Contents (Elt F) → (⟨S1x26, .i32⟩ : BufTy).Contents (Elt F) → (⟨S1x26, .i32⟩ : BufTy).Contents (Elt F) → (⟨S1x26, .i32⟩ : BufTy).Contents (Elt F)),
    StableHlo.nullary main_c_5 (constantI S_ 32 0#32),
    StableHlo.unary main_c_5 main_v29 (broadcastInDim S16384x26 ![] bcast_S_S16384x26 : (⟨S_, .i32⟩ : BufTy).Contents (Elt F) → (⟨S16384x26, .i32⟩ : BufTy).Contents (Elt F)),
    StableHlo.binary main_arg0 main_v29 main_v30 (cmpi .slt : (⟨S16384x26, .i32⟩ : BufTy).Contents (Elt F) → (⟨S16384x26, .i32⟩ : BufTy).Contents (Elt F) → (⟨S16384x26, .i1⟩ : BufTy).Contents (Elt F)),
    StableHlo.nullary main_c_6 (constantI S_ 32 100000#32),
    StableHlo.unary main_c_6 main_v31 (broadcastInDim S16384x26 ![] bcast_S_S16384x26 : (⟨S_, .i32⟩ : BufTy).Contents (Elt F) → (⟨S16384x26, .i32⟩ : BufTy).Contents (Elt F)),
    StableHlo.binary main_arg0 main_v31 main_v32 (addi : (⟨S16384x26, .i32⟩ : BufTy).Contents (Elt F) → (⟨S16384x26, .i32⟩ : BufTy).Contents (Elt F) → (⟨S16384x26, .i32⟩ : BufTy).Contents (Elt F)),
    StableHlo.ternary main_v30 main_v32 main_arg0 main_v33 (select : (⟨S16384x26, .i1⟩ : BufTy).Contents (Elt F) → (⟨S16384x26, .i32⟩ : BufTy).Contents (Elt F) → (⟨S16384x26, .i32⟩ : BufTy).Contents (Elt F) → (⟨S16384x26, .i32⟩ : BufTy).Contents (Elt F)),
    StableHlo.unary main_v28 main_v34 (broadcastInDim S16384x26 ![0, 1] bcast_S1x26_S16384x26_0_1 : (⟨S1x26, .i32⟩ : BufTy).Contents (Elt F) → (⟨S16384x26, .i32⟩ : BufTy).Contents (Elt F)),
    StableHlo.unary main_v34 main_v35 (broadcastInDim S16384x26x1 ![0, 1] bcast_S16384x26_S16384x26x1_0_1 : (⟨S16384x26, .i32⟩ : BufTy).Contents (Elt F) → (⟨S16384x26x1, .i32⟩ : BufTy).Contents (Elt F)),
    StableHlo.unary main_v33 main_v36 (broadcastInDim S16384x26x1 ![0, 1] bcast_S16384x26_S16384x26x1_0_1 : (⟨S16384x26, .i32⟩ : BufTy).Contents (Elt F) → (⟨S16384x26x1, .i32⟩ : BufTy).Contents (Elt F)),
    StableHlo.binary main_v35 main_v36 main_v37 ((fun a b => concatenate S16384x26x2 2 [⟨S16384x26x1, a⟩, ⟨S16384x26x1, b⟩] concatenates_S16384x26x1_S16384x26x1_S16384x26x2_d2) : (⟨S16384x26x1, .i32⟩ : BufTy).Contents (Elt F) → (⟨S16384x26x1, .i32⟩ : BufTy).Contents (Elt F) → (⟨S16384x26x2, .i32⟩ : BufTy).Contents (Elt F)),
    StableHlo.binary main_arg3 main_v37 main_v38 ((fun x i => Host.gather gather_S26x100000x8_S16384x26x2_S16384x26x8_2_01_n_n_01_2_118 x i) : (⟨S26x100000x8, .f32⟩ : BufTy).Contents (Elt F) → (⟨S16384x26x2, .i32⟩ : BufTy).Contents (Elt F) → (⟨S16384x26x8, .f32⟩ : BufTy).Contents (Elt F)),
    StableHlo.nullary main_cst_7 (constant S_ .f32 0x00000000#32),
    StableHlo.binary main_v38 main_cst_7 main_v39 ((fun x v => Host.reduceAdd x v reducesTo_S16384x26x8_S16384x8_d1 h_S_) : (⟨S16384x26x8, .f32⟩ : BufTy).Contents (Elt F) → (⟨S_, .f32⟩ : BufTy).Contents (Elt F) → (⟨S16384x8, .f32⟩ : BufTy).Contents (Elt F)),
    StableHlo.binary main_v39 main_v39 main_v40 (mulf : (⟨S16384x8, .f32⟩ : BufTy).Contents (Elt F) → (⟨S16384x8, .f32⟩ : BufTy).Contents (Elt F) → (⟨S16384x8, .f32⟩ : BufTy).Contents (Elt F)),
    StableHlo.binary main_v38 main_v38 main_v41 (mulf : (⟨S16384x26x8, .f32⟩ : BufTy).Contents (Elt F) → (⟨S16384x26x8, .f32⟩ : BufTy).Contents (Elt F) → (⟨S16384x26x8, .f32⟩ : BufTy).Contents (Elt F)),
    StableHlo.nullary main_cst_8 (constant S_ .f32 0x00000000#32),
    StableHlo.binary main_v41 main_cst_8 main_v42 ((fun x v => Host.reduceAdd x v reducesTo_S16384x26x8_S16384x8_d1 h_S_) : (⟨S16384x26x8, .f32⟩ : BufTy).Contents (Elt F) → (⟨S_, .f32⟩ : BufTy).Contents (Elt F) → (⟨S16384x8, .f32⟩ : BufTy).Contents (Elt F)),
    StableHlo.binary main_v40 main_v42 main_v43 (subf : (⟨S16384x8, .f32⟩ : BufTy).Contents (Elt F) → (⟨S16384x8, .f32⟩ : BufTy).Contents (Elt F) → (⟨S16384x8, .f32⟩ : BufTy).Contents (Elt F)),
    StableHlo.nullary main_cst_9 (constant S_ .f32 0x3F000000#32),
    StableHlo.unary main_cst_9 main_v44 (broadcastInDim S16384x8 ![] bcast_S_S16384x8 : (⟨S_, .f32⟩ : BufTy).Contents (Elt F) → (⟨S16384x8, .f32⟩ : BufTy).Contents (Elt F)),
    StableHlo.binary main_v44 main_v43 main_v45 (mulf : (⟨S16384x8, .f32⟩ : BufTy).Contents (Elt F) → (⟨S16384x8, .f32⟩ : BufTy).Contents (Elt F) → (⟨S16384x8, .f32⟩ : BufTy).Contents (Elt F)),
    StableHlo.nullary main_cst_10 (constant S_ .f32 0x00000000#32),
    StableHlo.binary main_v45 main_cst_10 main_v46 ((fun x v => Host.reduceAdd x v reducesTo_S16384x8_S16384_d1 h_S_) : (⟨S16384x8, .f32⟩ : BufTy).Contents (Elt F) → (⟨S_, .f32⟩ : BufTy).Contents (Elt F) → (⟨S16384, .f32⟩ : BufTy).Contents (Elt F)) ]

set_option maxRecDepth 8192 in
theorem ops_a_sub : (ops_a : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., binary_bufs_sub .., binary_bufs_sub .., nullary_bufs_sub .., binary_bufs_sub .., binary_bufs_sub .., nullary_bufs_sub .., unary_bufs_sub .., binary_bufs_sub .., nullary_bufs_sub .., binary_bufs_sub ..⟩

/-- 17 operations. -/
abbrev ops_b : List (HloOp τ sig (Elt F)) :=
  [ StableHlo.unary main_v46 main_v47 (broadcastInDim S16384x1 ![0] bcast_S16384_S16384x1_0 : (⟨S16384, .f32⟩ : BufTy).Contents (Elt F) → (⟨S16384x1, .f32⟩ : BufTy).Contents (Elt F)),
    StableHlo.reshape main_v38 main_v48 rfl shapeCasts_S16384x26x8_S16384x208,
    StableHlo.binary main_arg1 main_arg6 main_v49 ((fun l r => Host.dotGeneral dot_S16384x16_S16x208_S16384x208_1_0_0_1_n_n none l r) : (⟨S16384x16, .f32⟩ : BufTy).Contents (Elt F) → (⟨S16x208, .f32⟩ : BufTy).Contents (Elt F) → (⟨S16384x208, .f32⟩ : BufTy).Contents (Elt F)),
    StableHlo.unary main_arg7 main_v50 (broadcastInDim S1x208 ![1] bcast_S208_S1x208_1 : (⟨S208, .f32⟩ : BufTy).Contents (Elt F) → (⟨S1x208, .f32⟩ : BufTy).Contents (Elt F)),
    StableHlo.unary main_v50 main_v51 (broadcastInDim S16384x208 ![0, 1] bcast_S1x208_S16384x208_0_1 : (⟨S1x208, .f32⟩ : BufTy).Contents (Elt F) → (⟨S16384x208, .f32⟩ : BufTy).Contents (Elt F)),
    StableHlo.binary main_v49 main_v51 main_v52 (addf : (⟨S16384x208, .f32⟩ : BufTy).Contents (Elt F) → (⟨S16384x208, .f32⟩ : BufTy).Contents (Elt F) → (⟨S16384x208, .f32⟩ : BufTy).Contents (Elt F)),
    StableHlo.TRef.nullary main_call0.cst (constant S_ .f32 0x00000000#32),
    StableHlo.TRef.unary main_call0.cst main_call0.v0 (broadcastInDim S16384x208 ![] bcast_S_S16384x208),
    StableHlo.TRef.binary (.of main_v52) main_call0.v0 main_call0.v1 maximumf,
    StableHlo.binary main_v48 main_v53 main_v54 (addf : (⟨S16384x208, .f32⟩ : BufTy).Contents (Elt F) → (⟨S16384x208, .f32⟩ : BufTy).Contents (Elt F) → (⟨S16384x208, .f32⟩ : BufTy).Contents (Elt F)),
    StableHlo.binary main_v23 main_v47 main_v55 (addf : (⟨S16384x1, .f32⟩ : BufTy).Contents (Elt F) → (⟨S16384x1, .f32⟩ : BufTy).Contents (Elt F) → (⟨S16384x1, .f32⟩ : BufTy).Contents (Elt F)),
    StableHlo.unary main_v55 main_v56 (broadcastInDim S16384x208 ![0, 1] bcast_S16384x1_S16384x208_0_1 : (⟨S16384x1, .f32⟩ : BufTy).Contents (Elt F) → (⟨S16384x208, .f32⟩ : BufTy).Contents (Elt F)),
    StableHlo.binary main_v56 main_v54 main_v57 (addf : (⟨S16384x208, .f32⟩ : BufTy).Contents (Elt F) → (⟨S16384x208, .f32⟩ : BufTy).Contents (Elt F) → (⟨S16384x208, .f32⟩ : BufTy).Contents (Elt F)),
    StableHlo.binary main_v57 main_arg8 main_v58 ((fun l r => Host.dotGeneral dot_S16384x208_S208x128_S16384x128_1_0_0_1_n_n none l r) : (⟨S16384x208, .f32⟩ : BufTy).Contents (Elt F) → (⟨S208x128, .f32⟩ : BufTy).Contents (Elt F) → (⟨S16384x128, .f32⟩ : BufTy).Contents (Elt F)),
    StableHlo.unary main_arg9 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S16384x128 ![0, 1] bcast_S1x128_S16384x128_0_1 : (⟨S1x128, .f32⟩ : BufTy).Contents (Elt F) → (⟨S16384x128, .f32⟩ : BufTy).Contents (Elt F)),
    StableHlo.binary main_v58 main_v60 main_v61 (addf : (⟨S16384x128, .f32⟩ : BufTy).Contents (Elt F) → (⟨S16384x128, .f32⟩ : BufTy).Contents (Elt F) → (⟨S16384x128, .f32⟩ : BufTy).Contents (Elt F)) ]

set_option maxRecDepth 8192 in
theorem ops_b_sub : (ops_b : List (HloOp τ sig (Elt F))).Forall fun op => op.bufs ⊆ tcRefs τ sig :=
  ⟨unary_bufs_sub .., reshape_bufs_sub .., binary_bufs_sub .., unary_bufs_sub .., unary_bufs_sub .., binary_bufs_sub .., nullary_bufs_sub .., unary_bufs_sub .., binary_bufs_sub .., binary_bufs_sub .., binary_bufs_sub .., unary_bufs_sub .., binary_bufs_sub .., binary_bufs_sub .., unary_bufs_sub .., unary_bufs_sub .., binary_bufs_sub ..⟩

/-- 30 operations. -/
abbrev ops_c1 : List (HloOp τ sig (Elt F)) :=
  [ StableHlo.nullary main_cst_11 (constant S_ .f32 0x00000000#32),
    StableHlo.binary main_v61 main_cst_11 main_v62 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    StableHlo.unary main_v62 main_v63 (broadcastInDim S1x128 ![1] bcast_S128_S1x128_1 : (⟨S128, .f32⟩ : BufTy).Contents (Elt F) → (⟨S1x128, .f32⟩ : BufTy).Contents (Elt F)),
    StableHlo.nullary main_cst_12 (constant S_ .f32 0x46800000#32),
    StableHlo.unary main_cst_12 main_v64 (broadcastInDim S1x128 ![] bcast_S_S1x128 : (⟨S_, .f32⟩ : BufTy).Contents (Elt F) → (⟨S1x128, .f32⟩ : BufTy).Contents (Elt F)),
    StableHlo.binary main_v63 main_v64 main_v65 (Host.divf : (⟨S1x128, .f32⟩ : BufTy).Contents (Elt F) → (⟨S1x128, .f32⟩ : BufTy).Contents (Elt F) → (⟨S1x128, .f32⟩ : BufTy).Contents (Elt F)),
    StableHlo.nullary main_c_13 (constantI S_ 32 0#32),
    StableHlo.TRef.nullary main_call1.cst (constant S_ .f32 0x00000000#32),
    StableHlo.TRef.binary (.of main_v61) main_call1.cst main_call1.v0 (fun x v => Host.reduceAdd x v reducesTo_S16384x128_S128_d0 h_S_),
    StableHlo.TRef.unary main_call1.v0 main_call1.v1 (broadcastInDim S1x128 ![1] bcast_S128_S1x128_1),
    StableHlo.TRef.nullary main_call1.cst_0 (constant S_ .f32 0x46800000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S16384x128 ![0, 1] bcast_S1x128_S16384x128_0_1),
    StableHlo.TRef.binary (.of main_v61) main_call1.v4 main_call1.v5 subf,
    StableHlo.TRef.binary main_call1.v5 main_call1.v5 main_call1.v6 mulf,
    StableHlo.TRef.unary (.of main_c_13) main_call1.v7 (sitofp .f32),
    StableHlo.TRef.nullary main_call1.cst_1 (constant S_ .f32 0x46800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S16384x128_S128_d0 h_S_),
    StableHlo.TRef.unary main_call1.v9 main_call1.v10 (broadcastInDim S1x128 ![1] bcast_S128_S1x128_1),
    StableHlo.TRef.unary main_call1.v8 main_call1.v11 (broadcastInDim S1x128 ![] bcast_S_S1x128),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x128 ![] bcast_S_S1x128),
    StableHlo.TRef.ternary main_call1.v13 main_call1.v12 main_call1.call0.v1 main_call1.call0.v2 (fun p a b => select (broadcastInDim S1x128 ![] bcast_S_S1x128 p) a b) ]

set_option maxRecDepth 8192 in
theorem ops_c1_sub : (ops_c1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- 21 operations. -/
abbrev ops_c2 : List (HloOp τ sig (Elt F)) :=
  [ StableHlo.unary main_v65 main_v67 (broadcastInDim S16384x128 ![0, 1] bcast_S1x128_S16384x128_0_1 : (⟨S1x128, .f32⟩ : BufTy).Contents (Elt F) → (⟨S16384x128, .f32⟩ : BufTy).Contents (Elt F)),
    StableHlo.binary main_v61 main_v67 main_v68 (subf : (⟨S16384x128, .f32⟩ : BufTy).Contents (Elt F) → (⟨S16384x128, .f32⟩ : BufTy).Contents (Elt F) → (⟨S16384x128, .f32⟩ : BufTy).Contents (Elt F)),
    StableHlo.nullary main_cst_14 (constant S_ .f32 0x3727C5AC#32),
    StableHlo.unary main_cst_14 main_v69 (broadcastInDim S1x128 ![] bcast_S_S1x128 : (⟨S_, .f32⟩ : BufTy).Contents (Elt F) → (⟨S1x128, .f32⟩ : BufTy).Contents (Elt F)),
    StableHlo.binary main_v66 main_v69 main_v70 (addf : (⟨S1x128, .f32⟩ : BufTy).Contents (Elt F) → (⟨S1x128, .f32⟩ : BufTy).Contents (Elt F) → (⟨S1x128, .f32⟩ : BufTy).Contents (Elt F)),
    StableHlo.unary main_v70 main_v71 (Host.rsqrt : (⟨S1x128, .f32⟩ : BufTy).Contents (Elt F) → (⟨S1x128, .f32⟩ : BufTy).Contents (Elt F)),
    StableHlo.unary main_v71 main_v72 (broadcastInDim S16384x128 ![0, 1] bcast_S1x128_S16384x128_0_1 : (⟨S1x128, .f32⟩ : BufTy).Contents (Elt F) → (⟨S16384x128, .f32⟩ : BufTy).Contents (Elt F)),
    StableHlo.binary main_v68 main_v72 main_v73 (mulf : (⟨S16384x128, .f32⟩ : BufTy).Contents (Elt F) → (⟨S16384x128, .f32⟩ : BufTy).Contents (Elt F) → (⟨S16384x128, .f32⟩ : BufTy).Contents (Elt F)),
    StableHlo.unary main_arg10 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S16384x128 ![0, 1] bcast_S1x128_S16384x128_0_1 : (⟨S1x128, .f32⟩ : BufTy).Contents (Elt F) → (⟨S16384x128, .f32⟩ : BufTy).Contents (Elt F)),
    StableHlo.binary main_v73 main_v75 main_v76 (mulf : (⟨S16384x128, .f32⟩ : BufTy).Contents (Elt F) → (⟨S16384x128, .f32⟩ : BufTy).Contents (Elt F) → (⟨S16384x128, .f32⟩ : BufTy).Contents (Elt F)),
    StableHlo.unary main_arg11 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S16384x128 ![0, 1] bcast_S1x128_S16384x128_0_1 : (⟨S1x128, .f32⟩ : BufTy).Contents (Elt F) → (⟨S16384x128, .f32⟩ : BufTy).Contents (Elt F)),
    StableHlo.binary main_v76 main_v78 main_v79 (addf : (⟨S16384x128, .f32⟩ : BufTy).Contents (Elt F) → (⟨S16384x128, .f32⟩ : BufTy).Contents (Elt F) → (⟨S16384x128, .f32⟩ : BufTy).Contents (Elt F)),
    StableHlo.TRef.nullary main_call2.cst (constant S_ .f32 0x00000000#32),
    StableHlo.TRef.unary main_call2.cst main_call2.v0 (broadcastInDim S16384x128 ![] bcast_S_S16384x128),
    StableHlo.TRef.binary (.of main_v79) main_call2.v0 main_call2.v1 maximumf,
    StableHlo.binary main_v80 main_arg12 main_v81 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    StableHlo.unary main_arg13 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S16384x64 ![0, 1] bcast_S1x64_S16384x64_0_1 : (⟨S1x64, .f32⟩ : BufTy).Contents (Elt F) → (⟨S16384x64, .f32⟩ : BufTy).Contents (Elt F)),
    StableHlo.binary main_v81 main_v83 main_v84 (addf : (⟨S16384x64, .f32⟩ : BufTy).Contents (Elt F) → (⟨S16384x64, .f32⟩ : BufTy).Contents (Elt F) → (⟨S16384x64, .f32⟩ : BufTy).Contents (Elt F)) ]

set_option maxRecDepth 8192 in
theorem ops_c2_sub : (ops_c2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- 30 operations. -/
abbrev ops_d1 : List (HloOp τ sig (Elt F)) :=
  [ StableHlo.nullary main_cst_15 (constant S_ .f32 0x00000000#32),
    StableHlo.binary main_v84 main_cst_15 main_v85 ((fun x v => Host.reduceAdd x v reducesTo_S16384x64_S64_d0 h_S_) : (⟨S16384x64, .f32⟩ : BufTy).Contents (Elt F) → (⟨S_, .f32⟩ : BufTy).Contents (Elt F) → (⟨S64, .f32⟩ : BufTy).Contents (Elt F)),
    StableHlo.unary main_v85 main_v86 (broadcastInDim S1x64 ![1] bcast_S64_S1x64_1 : (⟨S64, .f32⟩ : BufTy).Contents (Elt F) → (⟨S1x64, .f32⟩ : BufTy).Contents (Elt F)),
    StableHlo.nullary main_cst_16 (constant S_ .f32 0x46800000#32),
    StableHlo.unary main_cst_16 main_v87 (broadcastInDim S1x64 ![] bcast_S_S1x64 : (⟨S_, .f32⟩ : BufTy).Contents (Elt F) → (⟨S1x64, .f32⟩ : BufTy).Contents (Elt F)),
    StableHlo.binary main_v86 main_v87 main_v88 (Host.divf : (⟨S1x64, .f32⟩ : BufTy).Contents (Elt F) → (⟨S1x64, .f32⟩ : BufTy).Contents (Elt F) → (⟨S1x64, .f32⟩ : BufTy).Contents (Elt F)),
    StableHlo.nullary main_c_17 (constantI S_ 32 0#32),
    StableHlo.TRef.nullary main_call3.cst (constant S_ .f32 0x00000000#32),
    StableHlo.TRef.binary (.of main_v84) main_call3.cst main_call3.v0 (fun x v => Host.reduceAdd x v reducesTo_S16384x64_S64_d0 h_S_),
    StableHlo.TRef.unary main_call3.v0 main_call3.v1 (broadcastInDim S1x64 ![1] bcast_S64_S1x64_1),
    StableHlo.TRef.nullary main_call3.cst_0 (constant S_ .f32 0x46800000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S16384x64 ![0, 1] bcast_S1x64_S16384x64_0_1),
    StableHlo.TRef.binary (.of main_v84) main_call3.v4 main_call3.v5 subf,
    StableHlo.TRef.binary main_call3.v5 main_call3.v5 main_call3.v6 mulf,
    StableHlo.TRef.unary (.of main_c_17) main_call3.v7 (sitofp .f32),
    StableHlo.TRef.nullary main_call3.cst_1 (constant S_ .f32 0x46800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S16384x64_S64_d0 h_S_),
    StableHlo.TRef.unary main_call3.v9 main_call3.v10 (broadcastInDim S1x64 ![1] bcast_S64_S1x64_1),
    StableHlo.TRef.unary main_call3.v8 main_call3.v11 (broadcastInDim S1x64 ![] bcast_S_S1x64),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x64 ![] bcast_S_S1x64),
    StableHlo.TRef.ternary main_call3.v13 main_call3.v12 main_call3.call0.v1 main_call3.call0.v2 (fun p a b => select (broadcastInDim S1x64 ![] bcast_S_S1x64 p) a b) ]

set_option maxRecDepth 8192 in
theorem ops_d1_sub : (ops_d1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- 10 operations. -/
abbrev ops_d2 : List (HloOp τ sig (Elt F)) :=
  [ StableHlo.unary main_v88 main_v90 (broadcastInDim S16384x64 ![0, 1] bcast_S1x64_S16384x64_0_1 : (⟨S1x64, .f32⟩ : BufTy).Contents (Elt F) → (⟨S16384x64, .f32⟩ : BufTy).Contents (Elt F)),
    StableHlo.binary main_v84 main_v90 main_v91 (subf : (⟨S16384x64, .f32⟩ : BufTy).Contents (Elt F) → (⟨S16384x64, .f32⟩ : BufTy).Contents (Elt F) → (⟨S16384x64, .f32⟩ : BufTy).Contents (Elt F)),
    StableHlo.nullary main_cst_18 (constant S_ .f32 0x3727C5AC#32),
    StableHlo.unary main_cst_18 main_v92 (broadcastInDim S1x64 ![] bcast_S_S1x64 : (⟨S_, .f32⟩ : BufTy).Contents (Elt F) → (⟨S1x64, .f32⟩ : BufTy).Contents (Elt F)),
    StableHlo.binary main_v89 main_v92 main_v93 (addf : (⟨S1x64, .f32⟩ : BufTy).Contents (Elt F) → (⟨S1x64, .f32⟩ : BufTy).Contents (Elt F) → (⟨S1x64, .f32⟩ : BufTy).Contents (Elt F)),
    StableHlo.unary main_v93 main_v94 (Host.rsqrt : (⟨S1x64, .f32⟩ : BufTy).Contents (Elt F) → (⟨S1x64, .f32⟩ : BufTy).Contents (Elt F)),
    StableHlo.unary main_v94 main_v95 (broadcastInDim S16384x64 ![0, 1] bcast_S1x64_S16384x64_0_1 : (⟨S1x64, .f32⟩ : BufTy).Contents (Elt F) → (⟨S16384x64, .f32⟩ : BufTy).Contents (Elt F)),
    StableHlo.binary main_v91 main_v95 main_v96 (mulf : (⟨S16384x64, .f32⟩ : BufTy).Contents (Elt F) → (⟨S16384x64, .f32⟩ : BufTy).Contents (Elt F) → (⟨S16384x64, .f32⟩ : BufTy).Contents (Elt F)),
    StableHlo.unary main_arg14 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S16384x64 ![0, 1] bcast_S1x64_S16384x64_0_1 : (⟨S1x64, .f32⟩ : BufTy).Contents (Elt F) → (⟨S16384x64, .f32⟩ : BufTy).Contents (Elt F)) ]

set_option maxRecDepth 8192 in
theorem ops_d2_sub : (ops_d2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub ..⟩

/-- 11 operations. -/
abbrev ops_e : List (HloOp τ sig (Elt F)) :=
  [ StableHlo.binary main_v96 main_v98 main_v99 (mulf : (⟨S16384x64, .f32⟩ : BufTy).Contents (Elt F) → (⟨S16384x64, .f32⟩ : BufTy).Contents (Elt F) → (⟨S16384x64, .f32⟩ : BufTy).Contents (Elt F)),
    StableHlo.unary main_arg15 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S16384x64 ![0, 1] bcast_S1x64_S16384x64_0_1 : (⟨S1x64, .f32⟩ : BufTy).Contents (Elt F) → (⟨S16384x64, .f32⟩ : BufTy).Contents (Elt F)),
    StableHlo.binary main_v99 main_v101 main_v102 (addf : (⟨S16384x64, .f32⟩ : BufTy).Contents (Elt F) → (⟨S16384x64, .f32⟩ : BufTy).Contents (Elt F) → (⟨S16384x64, .f32⟩ : BufTy).Contents (Elt F)),
    StableHlo.TRef.nullary main_call4.cst (constant S_ .f32 0x00000000#32),
    StableHlo.TRef.unary main_call4.cst main_call4.v0 (broadcastInDim S16384x64 ![] bcast_S_S16384x64),
    StableHlo.TRef.binary (.of main_v102) main_call4.v0 main_call4.v1 maximumf,
    StableHlo.binary main_v103 main_arg16 main_v104 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg17 main_v105 (broadcastInDim S1x1 ![1] bcast_S1_S1x1_1 : (⟨S1, .f32⟩ : BufTy).Contents (Elt F) → (⟨S1x1, .f32⟩ : BufTy).Contents (Elt F)),
    StableHlo.unary main_v105 main_v106 (broadcastInDim S16384x1 ![0, 1] bcast_S1x1_S16384x1_0_1 : (⟨S1x1, .f32⟩ : BufTy).Contents (Elt F) → (⟨S16384x1, .f32⟩ : BufTy).Contents (Elt F)),
    StableHlo.binary main_v104 main_v106 main_v107 (addf : (⟨S16384x1, .f32⟩ : BufTy).Contents (Elt F) → (⟨S16384x1, .f32⟩ : BufTy).Contents (Elt F) → (⟨S16384x1, .f32⟩ : BufTy).Contents (Elt F)) ]

set_option maxRecDepth 8192 in
theorem ops_e_sub : (ops_e : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

end Cert.ReferenceIdeal.RefOps

end
-- ==== Proof.RefRun.lean ====
/-
  The reference program's run. Its @main is a straight line of host operations (the three windows it is printed in,
  each called function's operations standing at its call), so every weakly fair execution terminates with each buffer
  at the fold of those operations over the launch contents. The line is cut after the first hidden layer's
  pre-activation (buffer `main_v61`), after its batch statistics, after the second layer's pre-activation (`main_v84`)
  and after its batch statistics, so that a later stretch is read over what the earlier one left, by name.
-/
import proofs.«104220_j67989332296027_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe
  Idealize.SL.Sem Idealize.ShloMosaic.StableHlo

variable {F : FTy → Type} [FloatOps F]

/-- @main's operations, in order: seven consecutive stretches. `ops_a ++ ops_b` ends at the first hidden layer's
    pre-activation; `ops_c1` computes its batch mean and variance; `ops_c2` normalises, rectifies and ends at the second
    hidden layer's pre-activation; `ops_d1` computes that one's batch mean and variance; `ops_d2 ++ ops_e` normalises,
    rectifies and ends at the result. -/
abbrev ops : List (HloOp τ sig (Elt F)) := ops_a ++ (ops_b ++ ops_c1 ++ ops_c2 ++ ops_d1 ++ ops_d2) ++ ops_e

set_option maxRecDepth 8192 in
theorem main_part0_eq (c : Dev nD) : main_part0 (F := F) c = seq ops_a := rfl

set_option maxRecDepth 8192 in
theorem main_part1_eq (c : Dev nD) : main_part1 (F := F) c = seq (ops_b ++ ops_c1 ++ ops_c2 ++ ops_d1 ++ ops_d2) := by
  simp only [main_part1, fn_relu.body, fn_var.body, fn_where.body, fn_relu_0.body, fn_var_1.body, fn_where_2.body,
    List.cons_append, List.nil_append, seq, bind_assoc, pure_bind]
  rfl

set_option maxRecDepth 8192 in
theorem main_part2_eq (c : Dev nD) : main_part2 (F := F) c = seq ops_e := by
  simp only [main_part2, fn_relu_3.body, seq, bind_assoc, pure_bind]

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (h | ((((h | h) | h) | h) | h)) | h
    exacts [List.forall_iff_forall_mem.mp ops_a_sub op h, List.forall_iff_forall_mem.mp ops_b_sub op h,
      List.forall_iff_forall_mem.mp ops_c1_sub op h, List.forall_iff_forall_mem.mp ops_c2_sub op h,
      List.forall_iff_forall_mem.mp ops_d1_sub op h, List.forall_iff_forall_mem.mp ops_d2_sub op h,
      List.forall_iff_forall_mem.mp ops_e_sub op h]

/-- The fold of a concatenation is the folds one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after ops_e (after ops_d2 (after ops_d1 (after ops_c2 (after ops_c1 (after ops_b (after ops_a V)))))) := by
  simp only [ops, after_append]

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RKeepA.lean ====
/- No operation of the reference writes an argument: the fold of the whole line at an argument's buffer is its launch
   contents (six arguments here; the other twelve in the two sibling modules).
-/
import proofs.«104220_j67989332296027_1_alg».proof.Proof.RefRun

set_option maxRecDepth 16384
set_option maxHeartbeats 1600000

noncomputable section

namespace Cert.ReferenceIdeal.RKeep

open Cert.ReferenceIdeal Cert.ReferenceIdeal.Gen Cert.ReferenceIdeal.RefOps Cert.ReferenceIdeal.RefRun
  Idealize.ShloMosaic Idealize.ShloMosaic.TcCoe Idealize.SL.Sem Idealize.ShloMosaic.StableHlo

variable {F : FTy → Type} [FloatOps F]

theorem keep_arg0 (V : Valuation τ sig (Elt F)) : after ops V (Proc.devRef .tc main_arg0) = V (Proc.devRef .tc main_arg0) := by
  rw [after_ops]
  after_results_simp

theorem keep_arg1 (V : Valuation τ sig (Elt F)) : after ops V (Proc.devRef .tc main_arg1) = V (Proc.devRef .tc main_arg1) := by
  rw [after_ops]
  after_results_simp

theorem keep_arg2 (V : Valuation τ sig (Elt F)) : after ops V (Proc.devRef .tc main_arg2) = V (Proc.devRef .tc main_arg2) := by
  rw [after_ops]
  after_results_simp

theorem keep_arg3 (V : Valuation τ sig (Elt F)) : after ops V (Proc.devRef .tc main_arg3) = V (Proc.devRef .tc main_arg3) := by
  rw [after_ops]
  after_results_simp

theorem keep_arg4 (V : Valuation τ sig (Elt F)) : after ops V (Proc.devRef .tc main_arg4) = V (Proc.devRef .tc main_arg4) := by
  rw [after_ops]
  after_results_simp

theorem keep_arg5 (V : Valuation τ sig (Elt F)) : after ops V (Proc.devRef .tc main_arg5) = V (Proc.devRef .tc main_arg5) := by
  rw [after_ops]
  after_results_simp

end Cert.ReferenceIdeal.RKeep

end
-- ==== Proof.RKeepB.lean ====
/- No operation of the reference writes an argument: the fold of the whole line at an argument's buffer is its launch
   contents (six arguments here; the other twelve in the two sibling modules).
-/
import proofs.«104220_j67989332296027_1_alg».proof.Proof.RefRun

set_option maxRecDepth 16384
set_option maxHeartbeats 1600000

noncomputable section

namespace Cert.ReferenceIdeal.RKeep

open Cert.ReferenceIdeal Cert.ReferenceIdeal.Gen Cert.ReferenceIdeal.RefOps Cert.ReferenceIdeal.RefRun
  Idealize.ShloMosaic Idealize.ShloMosaic.TcCoe Idealize.SL.Sem Idealize.ShloMosaic.StableHlo

variable {F : FTy → Type} [FloatOps F]

theorem keep_arg6 (V : Valuation τ sig (Elt F)) : after ops V (Proc.devRef .tc main_arg6) = V (Proc.devRef .tc main_arg6) := by
  rw [after_ops]
  after_results_simp

theorem keep_arg7 (V : Valuation τ sig (Elt F)) : after ops V (Proc.devRef .tc main_arg7) = V (Proc.devRef .tc main_arg7) := by
  rw [after_ops]
  after_results_simp

theorem keep_arg8 (V : Valuation τ sig (Elt F)) : after ops V (Proc.devRef .tc main_arg8) = V (Proc.devRef .tc main_arg8) := by
  rw [after_ops]
  after_results_simp

theorem keep_arg9 (V : Valuation τ sig (Elt F)) : after ops V (Proc.devRef .tc main_arg9) = V (Proc.devRef .tc main_arg9) := by
  rw [after_ops]
  after_results_simp

theorem keep_arg10 (V : Valuation τ sig (Elt F)) : after ops V (Proc.devRef .tc main_arg10) = V (Proc.devRef .tc main_arg10) := by
  rw [after_ops]
  after_results_simp

theorem keep_arg11 (V : Valuation τ sig (Elt F)) : after ops V (Proc.devRef .tc main_arg11) = V (Proc.devRef .tc main_arg11) := by
  rw [after_ops]
  after_results_simp

end Cert.ReferenceIdeal.RKeep

end
-- ==== Proof.RKeepC.lean ====
/- No operation of the reference writes an argument: the fold of the whole line at an argument's buffer is its launch
   contents (six arguments here; the other twelve in the two sibling modules).
-/
import proofs.«104220_j67989332296027_1_alg».proof.Proof.RefRun

set_option maxRecDepth 16384
set_option maxHeartbeats 1600000

noncomputable section

namespace Cert.ReferenceIdeal.RKeep

open Cert.ReferenceIdeal Cert.ReferenceIdeal.Gen Cert.ReferenceIdeal.RefOps Cert.ReferenceIdeal.RefRun
  Idealize.ShloMosaic Idealize.ShloMosaic.TcCoe Idealize.SL.Sem Idealize.ShloMosaic.StableHlo

variable {F : FTy → Type} [FloatOps F]

theorem keep_arg12 (V : Valuation τ sig (Elt F)) : after ops V (Proc.devRef .tc main_arg12) = V (Proc.devRef .tc main_arg12) := by
  rw [after_ops]
  after_results_simp

theorem keep_arg13 (V : Valuation τ sig (Elt F)) : after ops V (Proc.devRef .tc main_arg13) = V (Proc.devRef .tc main_arg13) := by
  rw [after_ops]
  after_results_simp

theorem keep_arg14 (V : Valuation τ sig (Elt F)) : after ops V (Proc.devRef .tc main_arg14) = V (Proc.devRef .tc main_arg14) := by
  rw [after_ops]
  after_results_simp

theorem keep_arg15 (V : Valuation τ sig (Elt F)) : after ops V (Proc.devRef .tc main_arg15) = V (Proc.devRef .tc main_arg15) := by
  rw [after_ops]
  after_results_simp

theorem keep_arg16 (V : Valuation τ sig (Elt F)) : after ops V (Proc.devRef .tc main_arg16) = V (Proc.devRef .tc main_arg16) := by
  rw [after_ops]
  after_results_simp

theorem keep_arg17 (V : Valuation τ sig (Elt F)) : after ops V (Proc.devRef .tc main_arg17) = V (Proc.devRef .tc main_arg17) := by
  rw [after_ops]
  after_results_simp

end Cert.ReferenceIdeal.RKeep

end
-- ==== Proof.Spec.lean ====
/-
  The specification: what the network computes, index by index, on the extended reals.

  A batch row `b` carries a first-and-second-order factorisation-machine term `A b` (one number), the 208 concatenated
  field embeddings `O b ·` and 16 dense features `D b ·`. The first layer adds to every embedding coordinate the row's
  term and a rectified linear image of the dense features, and applies a 208 → 128 linear map (`S1`). The next two
  layers normalise each feature with batch statistics `mu`, `var` (given here; the programs compute them from the
  previous layer's whole output), scale, shift and rectify (`bnRelu`), then apply a 128 → 64 linear map (`S2`) and a
  64 → 1 linear map (`S3`). Float words are kept as the words the programs print: the same word on both sides is never
  evaluated.
-/
import Idealize.ShloMosaic.PureOps.Ideal
import Idealize.ShloMosaic.Lib.ValueIdx

noncomputable section

namespace Cert.Spec

open Idealize.ShloMosaic

/-- One feature of a batch-normalised, rectified activation: `max (((x − μ) · (σ² + ε)^(−1/2)) · γ + β) 0`. -/
def bnRelu (x mu var g be : EReal) : EReal :=
  max ((x - mu) * Ideal.rsqrt (var + Ideal.ofBits .f32 0x3727C5AC#32) * g + be) (Ideal.ofBits .f32 0x00000000#32)

/-- The first layer's pre-activation at row `b`, feature `j`. -/
def S1 (A : Fin 16384 → EReal) (O : Fin 16384 → Fin 208 → EReal) (D : Fin 16384 → Fin 16 → EReal)
    (wdl : Fin 16 → Fin 208 → EReal) (bdl : Fin 208 → EReal) (w1 : Fin 208 → Fin 128 → EReal) (b1 : Fin 128 → EReal)
    (b : Fin 16384) (j : Fin 128) : EReal :=
  (∑ k : Fin 208, (A b + (O b k + max ((∑ d : Fin 16, D b d * wdl d k) + bdl k) (Ideal.ofBits .f32 0x00000000#32))) * w1 k j) + b1 j

/-- The second layer's pre-activation at row `b`, feature `j`, from the first layer's pre-activations `X`. -/
def S2 (X : Fin 16384 → Fin 128 → EReal) (mu var g be : Fin 128 → EReal) (w2 : Fin 128 → Fin 64 → EReal)
    (b2 : Fin 64 → EReal) (b : Fin 16384) (j : Fin 64) : EReal :=
  (∑ k : Fin 128, bnRelu (X b k) (mu k) (var k) (g k) (be k) * w2 k j) + b2 j

/-- The output at row `b`, from the second layer's pre-activations `X`. -/
def S3 (X : Fin 16384 → Fin 64 → EReal) (mu var g be wo : Fin 64 → EReal) (bo : EReal) (b : Fin 16384) : EReal :=
  (∑ j : Fin 64, bnRelu (X b j) (mu j) (var j) (g j) (be j) * wo j) + bo

end Cert.Spec

end
-- ==== Proof.KStage1.lean ====
/-
  The first kernel's stored block, read at row `r`, feature `j` of the block: the block's rows of the row term, the
  embeddings and the dense features enter exactly as the first layer's formula has them; the two matrix products are
  plain sums over the contracted axis (a change of float format is the identity on the extended reals).
-/
import proofs.«104220_j67989332296027_1_alg».proof.Proof.Gen.KernelIdeal.Skeleton
import proofs.«104220_j67989332296027_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KStage

open Cert.KernelIdeal Cert.KernelIdeal.Gen Idealize.ShloMosaic Idealize.ShloMosaic.ValueIdx

/-- A `[1, b]` row, cast to its own shape and broadcast to `[a, b]`, reads at `(p, c)` the row at `c`. -/
private theorem row_apply {α : Type} {a b : ℕ} (v : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- A `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index on its free axis is the result's row. -/
private theorem mmA_lhs_0 (i : S2048x208.Idx) (q : dot_S2048x16_S16x208_S2048x208_1_0_0_1_n_n.contr.Idx) :
    (dot_S2048x16_S16x208_S2048x208_1_0_0_1_n_n.lhsIdx i q 0).val = (i 0).val := by
  unfold DotDims.lhsIdx
  rw [dif_neg (show ¬(0 : Fin S2048x16.rank) ∈ dot_S2048x16_S16x208_S2048x208_1_0_0_1_n_n.lhsBatch by decide),
    dif_pos (show (0 : Fin S2048x16.rank) ∈ dot_S2048x16_S16x208_S2048x208_1_0_0_1_n_n.lhsNonContracting by decide)]
  rfl
/-- The left operand's index on its contracted axis is the contraction index's one coordinate. -/
private theorem mmA_lhs_1 (i : S2048x208.Idx) (q : dot_S2048x16_S16x208_S2048x208_1_0_0_1_n_n.contr.Idx) :
    (dot_S2048x16_S16x208_S2048x208_1_0_0_1_n_n.lhsIdx i q 1).val = (q ⟨0, by decide⟩).val :=
  dot_S2048x16_S16x208_S2048x208_1_0_0_1_n_n.lhsIdx_val_of_single rfl i q
/-- The right operand's index on its contracted axis is the contraction index's one coordinate. -/
private theorem mmA_rhs_0 (i : S2048x208.Idx) (q : dot_S2048x16_S16x208_S2048x208_1_0_0_1_n_n.contr.Idx) :
    (dot_S2048x16_S16x208_S2048x208_1_0_0_1_n_n.rhsIdx i q 0).val = (q ⟨0, by decide⟩).val :=
  dot_S2048x16_S16x208_S2048x208_1_0_0_1_n_n.rhsIdx_val_of_single rfl i q
/-- The right operand's index on its free axis is the result's column. -/
private theorem mmA_rhs_1 (i : S2048x208.Idx) (q : dot_S2048x16_S16x208_S2048x208_1_0_0_1_n_n.contr.Idx) :
    (dot_S2048x16_S16x208_S2048x208_1_0_0_1_n_n.rhsIdx i q 1).val = (i 1).val := by
  unfold DotDims.rhsIdx
  rw [dif_neg (show ¬(1 : Fin S16x208.rank) ∈ dot_S2048x16_S16x208_S2048x208_1_0_0_1_n_n.rhsBatch by decide),
    dif_pos (show (1 : Fin S16x208.rank) ∈ dot_S2048x16_S16x208_S2048x208_1_0_0_1_n_n.rhsNonContracting by decide)]
  rfl

/-- The `[2048, 16] × [16, 208]` matrix product into the zero constant, read at `(r, j)`: the sum over the contracted
    axis of the left operand at `(r, k)` times the right operand at `(k, j)`. -/
private theorem mmA_apply {φ₁ φ₂ : FTy} (lhs : FVec Ideal S2048x16 φ₁) (rhs : FVec Ideal S16x208 φ₂) (r : Fin 2048) (j : Fin 208) :
    matmul dot_S2048x16_S16x208_S2048x208_1_0_0_1_n_n none lhs rhs (constant (F := Ideal) S2048x208 .f32 0x00000000#32) (ix2 r j)
      = ∑ k : Fin 16, lhs (ix2 r k) * rhs (ix2 k j) := by
  refine (Ideal.matmul_constant_zero_apply dot_S2048x16_S16x208_S2048x208_1_0_0_1_n_n none lhs rhs (ix2 r j)).trans ?_
  rw [← Equiv.sum_comp (ValueIdx.contrEquiv1 dot_S2048x16_S16x208_S2048x208_1_0_0_1_n_n 16 rfl rfl).symm]
  refine Finset.sum_congr rfl fun k _ => ?_
  have hk := ValueIdx.contrEquiv1_symm_val dot_S2048x16_S16x208_S2048x208_1_0_0_1_n_n 16 rfl rfl k
  have el : dot_S2048x16_S16x208_S2048x208_1_0_0_1_n_n.lhsIdx (ix2 r j) ((ValueIdx.contrEquiv1 dot_S2048x16_S16x208_S2048x208_1_0_0_1_n_n 16 rfl rfl).symm k) = ix2 r k :=
    funext fun a => Fin.ext (by
      match a with
      | ⟨0, _⟩ => exact mmA_lhs_0 _ _
      | ⟨1, _⟩ => exact (mmA_lhs_1 _ _).trans hk)
  have er : dot_S2048x16_S16x208_S2048x208_1_0_0_1_n_n.rhsIdx (ix2 r j) ((ValueIdx.contrEquiv1 dot_S2048x16_S16x208_S2048x208_1_0_0_1_n_n 16 rfl rfl).symm k) = ix2 k j :=
    funext fun a => Fin.ext (by
      match a with
      | ⟨0, _⟩ => exact (mmA_rhs_0 _ _).trans hk
      | ⟨1, _⟩ => exact mmA_rhs_1 _ _)
  rw [el, er]

/-- The left operand's index on its free axis is the result's row. -/
private theorem mmB_lhs_0 (i : S2048x128.Idx) (q : dot_S2048x208_S208x128_S2048x128_1_0_0_1_n_n.contr.Idx) :
    (dot_S2048x208_S208x128_S2048x128_1_0_0_1_n_n.lhsIdx i q 0).val = (i 0).val := by
  unfold DotDims.lhsIdx
  rw [dif_neg (show ¬(0 : Fin S2048x208.rank) ∈ dot_S2048x208_S208x128_S2048x128_1_0_0_1_n_n.lhsBatch by decide),
    dif_pos (show (0 : Fin S2048x208.rank) ∈ dot_S2048x208_S208x128_S2048x128_1_0_0_1_n_n.lhsNonContracting by decide)]
  rfl
/-- The left operand's index on its contracted axis is the contraction index's one coordinate. -/
private theorem mmB_lhs_1 (i : S2048x128.Idx) (q : dot_S2048x208_S208x128_S2048x128_1_0_0_1_n_n.contr.Idx) :
    (dot_S2048x208_S208x128_S2048x128_1_0_0_1_n_n.lhsIdx i q 1).val = (q ⟨0, by decide⟩).val :=
  dot_S2048x208_S208x128_S2048x128_1_0_0_1_n_n.lhsIdx_val_of_single rfl i q
/-- The right operand's index on its contracted axis is the contraction index's one coordinate. -/
private theorem mmB_rhs_0 (i : S2048x128.Idx) (q : dot_S2048x208_S208x128_S2048x128_1_0_0_1_n_n.contr.Idx) :
    (dot_S2048x208_S208x128_S2048x128_1_0_0_1_n_n.rhsIdx i q 0).val = (q ⟨0, by decide⟩).val :=
  dot_S2048x208_S208x128_S2048x128_1_0_0_1_n_n.rhsIdx_val_of_single rfl i q
/-- The right operand's index on its free axis is the result's column. -/
private theorem mmB_rhs_1 (i : S2048x128.Idx) (q : dot_S2048x208_S208x128_S2048x128_1_0_0_1_n_n.contr.Idx) :
    (dot_S2048x208_S208x128_S2048x128_1_0_0_1_n_n.rhsIdx i q 1).val = (i 1).val := by
  unfold DotDims.rhsIdx
  rw [dif_neg (show ¬(1 : Fin S208x128.rank) ∈ dot_S2048x208_S208x128_S2048x128_1_0_0_1_n_n.rhsBatch by decide),
    dif_pos (show (1 : Fin S208x128.rank) ∈ dot_S2048x208_S208x128_S2048x128_1_0_0_1_n_n.rhsNonContracting by decide)]
  rfl

/-- The `[2048, 208] × [208, 128]` matrix product into the zero constant, read at `(r, j)`: the sum over the contracted
    axis of the left operand at `(r, k)` times the right operand at `(k, j)`. -/
private theorem mmB_apply {φ₁ φ₂ : FTy} (lhs : FVec Ideal S2048x208 φ₁) (rhs : FVec Ideal S208x128 φ₂) (r : Fin 2048) (j : Fin 128) :
    matmul dot_S2048x208_S208x128_S2048x128_1_0_0_1_n_n none lhs rhs (constant (F := Ideal) S2048x128 .f32 0x00000000#32) (ix2 r j)
      = ∑ k : Fin 208, lhs (ix2 r k) * rhs (ix2 k j) := by
  refine (Ideal.matmul_constant_zero_apply dot_S2048x208_S208x128_S2048x128_1_0_0_1_n_n none lhs rhs (ix2 r j)).trans ?_
  rw [← Equiv.sum_comp (ValueIdx.contrEquiv1 dot_S2048x208_S208x128_S2048x128_1_0_0_1_n_n 208 rfl rfl).symm]
  refine Finset.sum_congr rfl fun k _ => ?_
  have hk := ValueIdx.contrEquiv1_symm_val dot_S2048x208_S208x128_S2048x128_1_0_0_1_n_n 208 rfl rfl k
  have el : dot_S2048x208_S208x128_S2048x128_1_0_0_1_n_n.lhsIdx (ix2 r j) ((ValueIdx.contrEquiv1 dot_S2048x208_S208x128_S2048x128_1_0_0_1_n_n 208 rfl rfl).symm k) = ix2 r k :=
    funext fun a => Fin.ext (by
      match a with
      | ⟨0, _⟩ => exact mmB_lhs_0 _ _
      | ⟨1, _⟩ => exact (mmB_lhs_1 _ _).trans hk)
  have er : dot_S2048x208_S208x128_S2048x128_1_0_0_1_n_n.rhsIdx (ix2 r j) ((ValueIdx.contrEquiv1 dot_S2048x208_S208x128_S2048x128_1_0_0_1_n_n 208 rfl rfl).symm k) = ix2 k j :=
    funext fun a => Fin.ext (by
      match a with
      | ⟨0, _⟩ => exact (mmB_rhs_0 _ _).trans hk
      | ⟨1, _⟩ => exact mmB_rhs_1 _ _)
  rw [el, er]

/-- The payload of the first kernel at an index of its block. -/
theorem pay1_apply (x0 : Vec Ideal S2048x16 .f32) (x2 : Vec Ideal S16x208 .f32) (x5 : Vec Ideal S1x208 .f32)
    (x11 : Vec Ideal S2048x1 .f32) (x13 : Vec Ideal S2048x208 .f32) (x19 : Vec Ideal S208x128 .f32) (x22 : Vec Ideal S1x128 .f32)
    (r : Fin 2048) (j : Fin 128) :
    k0_pay1 (F := Ideal) x0 x2 x5 x11 x13 x19 x22 (ix2 r j)
      = (∑ k : Fin 208, ((x11 (ix2 r 0) + x13 (ix2 r k))
            + max ((∑ d : Fin 16, x0 (ix2 r d) * x2 (ix2 d k)) + x5 (ix2 0 k)) (Ideal.ofBits .f32 0x00000000#32)) * x19 (ix2 k j))
          + x22 (ix2 0 j) := by
  unfold k0_pay1
  rw [addf_apply]
  refine congrArg₂ (· + ·) ?_ (row_apply x22 _ _ r j)
  refine (mmB_apply _ _ r j).trans ?_
  refine Finset.sum_congr rfl fun k _ => ?_
  rw [truncf_apply, truncf_apply, addf_apply, addf_apply, maximumf_apply, addf_apply, mmA_apply]
  simp only [truncf_apply, broadcast_apply, shapeCast_self, row_apply, broadcastTo_a1_ab_apply,
    broadcastTo_1b_ab_apply, Ideal.ofBits_def]

end Cert.KernelIdeal.KStage

end
-- ==== Proof.KPipe1.lean ====
/-
  The first pallas_call's output array, as ONE function of the arrays the region finds. Point `t` of its grid of
  eight reads rows `2048 t … 2048 t + 2047` of the row term (one column), of the 208 embedding coordinates and of the
  16 dense features, and the whole of the 16 × 208 weights, their bias as a row, the 208 × 128 weights and their bias as
  a row; it writes rows `2048 t … 2048 t + 2047` of the first layer's pre-activations. What it writes at row `r`,
  feature `j` of its block is the specification's first layer at row `2048 t + r`, feature `j` (the kernel adds the row
  term to the embedding first and the rectified image after; the specification groups the other way: addition of
  extended reals is associative). The eight blocks tile the result.
-/
import proofs.«104220_j67989332296027_1_alg».proof.Proof.Gen.KernelIdeal.Frame
import proofs.«104220_j67989332296027_1_alg».proof.Proof.KStage1
import proofs.«104220_j67989332296027_1_alg».proof.Proof.Spec
import Idealize.ShloMosaic.Lib.Pipeline.Value

set_option maxRecDepth 16384

noncomputable section

namespace Cert.KernelIdeal.KPipe1

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The first layer of the arrays the region finds (`V`), index by index. -/
def G (c : Dev nD) : S16384x128.Idx → EReal := fun i =>
  Cert.Spec.S1 (fun b => V c main_v48 (ix2 b 0)) (fun b k => V c main_v49 (ix2 b k)) (fun b d => V c main_arg1 (ix2 b d))
    (fun d k => V c main_arg6 (ix2 d k)) (fun k => V c main_v50 (ix2 0 k)) (fun k j => V c main_arg8 (ix2 k j))
    (fun j => V c main_v51 (ix2 0 j)) (i 0) (i 1)

/-- The printed index maps, decided over the grid: the three batch operands and the result move with the point, the
    parameters stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `r` of point `t`'s block is row `2048 t + r` of the array. -/
def row (t : Fin cfg0.N) (r : Fin 2048) : Fin 16384 :=
  ⟨2048 * t.val + r.val, by have := lt_of_lt_of_eq t.isLt N_0; have := r.isLt; omega⟩

/-- What point `t` writes back is block `t` of `G`. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S2048x1) hz, View.ld_unit_zero (S := S2048x208) hz, View.ld_unit_zero (S := S2048x16) hz,
    View.ld_unit_zero (S := S16x208) hz, View.ld_unit_zero (S := S1x208) hz, View.ld_unit_zero (S := S208x128) hz,
    View.ld_unit_zero (S := S1x128) hz]
  obtain ⟨f00, f01, f10, f11, f20, f21, f30, f31, f40, f41, f50, f51, f60, f61, f70, f71⟩ := idx_facts t
  funext y
  obtain ⟨r, j, rfl⟩ : ∃ (r : Fin 2048) (j : Fin 128), y = ix2 r j := ⟨y 0, y 1, eq_ix2 y⟩
  show k0_pay1 (iblk0 V c 2 t) (iblk0 V c 3 t) (iblk0 V c 4 t) (iblk0 V c 0 t) (iblk0 V c 1 t) (iblk0 V c 5 t) (iblk0 V c 6 t) (ix2 r j)
    = G V c (((cfg0.win 7).blk t).view.emb (ix2 r j))
  refine (Cert.KernelIdeal.KStage.pay1_apply _ _ _ _ _ _ _ r j).trans ?_
  have e0 : iblk0 V c 0 t (ix2 r 0) = V c main_v48 (ix2 (row t r) 0) := by
    show V c main_v48 (((cfg0.win 0).blk t).view.emb (ix2 r 0)) = _
    refine congrArg _ (funext fun a => Fin.ext ?_)
    match a with
    | ⟨0, _⟩ => show win0_0.index t (0 : Fin 2) * 2048 + 1 * r.val = 2048 * t.val + r.val; omega
    | ⟨1, _⟩ => show win0_0.index t (1 : Fin 2) * 1 + 1 * 0 = 0; omega
  have e1 : ∀ k : Fin 208, iblk0 V c 1 t (ix2 r k) = V c main_v49 (ix2 (row t r) k) := fun k => by
    show V c main_v49 (((cfg0.win 1).blk t).view.emb (ix2 r k)) = _
    refine congrArg _ (funext fun a => Fin.ext ?_)
    match a with
    | ⟨0, _⟩ => show win0_1.index t (0 : Fin 2) * 2048 + 1 * r.val = 2048 * t.val + r.val; omega
    | ⟨1, _⟩ => show win0_1.index t (1 : Fin 2) * 208 + 1 * k.val = k.val; omega
  have e2 : ∀ d : Fin 16, iblk0 V c 2 t (ix2 r d) = V c main_arg1 (ix2 (row t r) d) := fun d => by
    show V c main_arg1 (((cfg0.win 2).blk t).view.emb (ix2 r d)) = _
    refine congrArg _ (funext fun a => Fin.ext ?_)
    match a with
    | ⟨0, _⟩ => show win0_2.index t (0 : Fin 2) * 2048 + 1 * r.val = 2048 * t.val + r.val; omega
    | ⟨1, _⟩ => show win0_2.index t (1 : Fin 2) * 16 + 1 * d.val = d.val; omega
  have e3 : ∀ (d : Fin 16) (k : Fin 208), iblk0 V c 3 t (ix2 d k) = V c main_arg6 (ix2 d k) := fun d k => by
    show V c main_arg6 (((cfg0.win 3).blk t).view.emb (ix2 d k)) = _
    refine congrArg _ (funext fun a => Fin.ext ?_)
    match a with
    | ⟨0, _⟩ => show win0_3.index t (0 : Fin 2) * 16 + 1 * d.val = d.val; omega
    | ⟨1, _⟩ => show win0_3.index t (1 : Fin 2) * 208 + 1 * k.val = k.val; omega
  have e4 : ∀ k : Fin 208, iblk0 V c 4 t (ix2 0 k) = V c main_v50 (ix2 0 k) := fun k => by
    show V c main_v50 (((cfg0.win 4).blk t).view.emb (ix2 0 k)) = _
    refine congrArg _ (funext fun a => Fin.ext ?_)
    match a with
    | ⟨0, _⟩ => show win0_4.index t (0 : Fin 2) * 1 + 1 * 0 = 0; omega
    | ⟨1, _⟩ => show win0_4.index t (1 : Fin 2) * 208 + 1 * k.val = k.val; omega
  have e5 : ∀ k : Fin 208, iblk0 V c 5 t (ix2 k j) = V c main_arg8 (ix2 k j) := fun k => by
    show V c main_arg8 (((cfg0.win 5).blk t).view.emb (ix2 k j)) = _
    refine congrArg _ (funext fun a => Fin.ext ?_)
    match a with
    | ⟨0, _⟩ => show win0_5.index t (0 : Fin 2) * 208 + 1 * k.val = k.val; omega
    | ⟨1, _⟩ => show win0_5.index t (1 : Fin 2) * 128 + 1 * j.val = j.val; omega
  have e6 : iblk0 V c 6 t (ix2 0 j) = V c main_v51 (ix2 0 j) := by
    show V c main_v51 (((cfg0.win 6).blk t).view.emb (ix2 0 j)) = _
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * j.val = j.val; omega
  have e7 : ((cfg0.win 7).blk t).view.emb (ix2 r j) = ix2 (row t r) j := funext fun a => Fin.ext (by
    match a with
    | ⟨0, _⟩ => show win0_7.index t (0 : Fin 2) * 2048 + 1 * r.val = 2048 * t.val + r.val; omega
    | ⟨1, _⟩ => show win0_7.index t (1 : Fin 2) * 128 + 1 * j.val = j.val; omega)
  rw [e7, e6, e0]
  simp only [e1, e2, e3, e4, e5]
  show _ = Cert.Spec.S1 _ _ _ _ _ _ _ (row t r) j
  unfold Cert.Spec.S1
  refine congrArg (· + V c main_v51 (ix2 0 j)) (Finset.sum_congr rfl fun k _ => ?_)
  rw [add_assoc]

/-- An index of the array is in point `t`'s block iff each coordinate is in the block's range on its axis. -/
theorem mem_blk (t : Fin cfg0.N) (i : S16384x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v52).slice (win0_7.rect t)).set ↔ _
  rw [View.set_slice_whole, Rect.mem_set_unit]
  exact Iff.rfl

/-- Every row lies in the block of the point its number divided by 2048 names. -/
theorem cover (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  have ht : (i 0).val / 2048 < cfg0.N := by rw [show cfg0.N = 8 from N_0]; omega
  obtain ⟨-, -, -, -, -, -, -, -, -, -, -, -, -, -, f70, f71⟩ := idx_facts ⟨(i 0).val / 2048, ht⟩
  refine ⟨⟨(i 0).val / 2048, ht⟩, flush0_7 _, ?_⟩
  rw [mem_blk]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    rw [f70]; show (i 0).val / 2048 * 2048 ≤ (i 0).val ∧ (i 0).val < (i 0).val / 2048 * 2048 + 2048; omega
  | ⟨1, _⟩ =>
    show win0_7.index ⟨(i 0).val / 2048, ht⟩ (1 : Fin 2) * 128 ≤ (i 1).val
      ∧ (i 1).val < win0_7.index ⟨(i 0).val / 2048, ht⟩ (1 : Fin 2) * 128 + 128
    omega

/-- The output array after the first pallas_call: the specification's first layer of the arrays the region finds. -/
theorem final (c : Dev nD) : (dat0 V c).arrAt 7 cfg0.N = G V c :=
  (dat0 V c).arrAt_eq_of_cover 7 (G V c) (fun t _ => flushed_eq V c t) (cover)

end Cert.KernelIdeal.KPipe1

end
-- ==== Proof.KStage2.lean ====
/-
  The second kernel's stored block, read at row `r`, feature `j` of the block: each of the row's 128 features is
  normalised with the statistics row, scaled, shifted and rectified, and the matrix product is the plain sum over them.
-/
import proofs.«104220_j67989332296027_1_alg».proof.Proof.Gen.KernelIdeal.Skeleton
import proofs.«104220_j67989332296027_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KStage

open Cert.KernelIdeal Cert.KernelIdeal.Gen Idealize.ShloMosaic Idealize.ShloMosaic.ValueIdx

/-- A `[1, b]` row, cast to its own shape and broadcast to `[a, b]`, reads at `(p, c)` the row at `c`. -/
private theorem row_apply {α : Type} {a b : ℕ} (v : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- The reciprocal square root of a vector, at an index, is that of the entry. -/
private theorem rsqrt_apply {s : Shape} {φ : FTy} (a : FVec Ideal s φ) (i : s.Idx) : rsqrt a i = Ideal.rsqrt (a i) := rfl

/-- The left operand's index on its free axis is the result's row. -/
private theorem mm2_lhs_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide),
    dif_pos (show (0 : Fin S2048x128.rank) ∈ dot_S2048x128_S128x64_S2048x64_1_0_0_1_n_n.lhsNonContracting by decide)]
  rfl
/-- The left operand's index on its contracted axis is the contraction index's one coordinate. -/
private theorem mm2_lhs_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
/-- The right operand's index on its contracted axis is the contraction index's one coordinate. -/
private theorem mm2_rhs_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
/-- The right operand's index on its free axis is the result's column. -/
private theorem mm2_rhs_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide),
    dif_pos (show (1 : Fin S128x64.rank) ∈ dot_S2048x128_S128x64_S2048x64_1_0_0_1_n_n.rhsNonContracting by decide)]
  rfl

/-- The `[2048, 128] × [128, 64]` matrix product into the zero constant, read at `(r, j)`: the sum over the contracted
    axis of the left operand at `(r, k)` times the right operand at `(k, j)`. -/
private theorem mm2_apply {φ₁ φ₂ : FTy} (lhs : FVec Ideal S2048x128 φ₁) (rhs : FVec Ideal S128x64 φ₂) (r : Fin 2048) (j : Fin 64) :
    matmul dot_S2048x128_S128x64_S2048x64_1_0_0_1_n_n none lhs rhs (constant (F := Ideal) S2048x64 .f32 0x00000000#32) (ix2 r j)
      = ∑ k : Fin 128, lhs (ix2 r k) * rhs (ix2 k j) := by
  refine (Ideal.matmul_constant_zero_apply dot_S2048x128_S128x64_S2048x64_1_0_0_1_n_n none lhs rhs (ix2 r j)).trans ?_
  rw [← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 r j) ((ValueIdx.contrEquiv1 dot_S2048x128_S128x64_S2048x64_1_0_0_1_n_n 128 rfl rfl).symm k) = ix2 r k :=
    funext fun a => Fin.ext (by
      match a with
      | ⟨0, _⟩ => exact mm2_lhs_0 _ _
      | ⟨1, _⟩ => exact (mm2_lhs_1 _ _).trans hk)
  have er : dot_S2048x128_S128x64_S2048x64_1_0_0_1_n_n.rhsIdx (ix2 r j) ((ValueIdx.contrEquiv1 dot_S2048x128_S128x64_S2048x64_1_0_0_1_n_n 128 rfl rfl).symm k) = ix2 k j :=
    funext fun a => Fin.ext (by
      match a with
      | ⟨0, _⟩ => exact (mm2_rhs_0 _ _).trans hk
      | ⟨1, _⟩ => exact mm2_rhs_1 _ _)
  rw [el, er]

/-- The payload of the second kernel at an index of its block. -/
theorem pay2_apply (x0 : Vec Ideal S2048x128 .f32) (x1 x2 x3 x4 : Vec Ideal S1x128 .f32) (x5 : Vec Ideal S128x64 .f32)
    (x6 : Vec Ideal S1x64 .f32) (r : Fin 2048) (j : Fin 64) :
    k1_pay1 (F := Ideal) x0 x1 x2 x3 x4 x5 x6 (ix2 r j)
      = (∑ k : Fin 128, Cert.Spec.bnRelu (x0 (ix2 r k)) (x1 (ix2 0 k)) (x2 (ix2 0 k)) (x3 (ix2 0 k)) (x4 (ix2 0 k)) * x5 (ix2 k j))
          + x6 (ix2 0 j) := by
  unfold k1_pay1
  rw [addf_apply]
  refine congrArg₂ (· + ·) ?_ (row_apply x6 _ _ r j)
  refine (mm2_apply _ _ r j).trans ?_
  refine Finset.sum_congr rfl fun k _ => ?_
  unfold Cert.Spec.bnRelu
  simp only [truncf_apply, mulf_apply, maximumf_apply, addf_apply, subf_apply, broadcast_apply, shapeCast_self, row_apply,
    broadcastTo_1b_ab_apply, rsqrt_apply, Ideal.ofBits_def]

end Cert.KernelIdeal.KStage

end
-- ==== Proof.KPipe2.lean ====
/-
  The second pallas_call's output array, as ONE function of the arrays the region finds. Point `t` of its grid of
  eight reads rows `2048 t … 2048 t + 2047` of the first layer's pre-activations and the whole of six small operands
  (mean, variance, scale, shift as rows of 128, the 128 × 64 weights, the bias as a row of 64), and writes rows
  `2048 t … 2048 t + 2047` of the second layer's pre-activations. What it writes at row `r`, feature `j` of its block is
  the specification's second layer at row `2048 t + r`, feature `j`. The eight blocks tile the result.
-/
import proofs.«104220_j67989332296027_1_alg».proof.Proof.Gen.KernelIdeal.Frame
import proofs.«104220_j67989332296027_1_alg».proof.Proof.KStage2
import proofs.«104220_j67989332296027_1_alg».proof.Proof.Spec
import Idealize.ShloMosaic.Lib.Pipeline.Value

set_option maxRecDepth 16384

noncomputable section

namespace Cert.KernelIdeal.KPipe2

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The second layer of the arrays the region finds (`V`), index by index. -/
def G (c : Dev nD) : S16384x64.Idx → EReal := fun i =>
  Cert.Spec.S2 (fun b k => V c main_v52 (ix2 b k)) (fun k => V c main_v56 (ix2 0 k)) (fun k => V c main_v57 (ix2 0 k))
    (fun k => V c main_v58 (ix2 0 k)) (fun k => V c main_v59 (ix2 0 k)) (fun k j => V c main_arg12 (ix2 k j))
    (fun j => V c main_v60 (ix2 0 j)) (i 0) (i 1)

/-- The printed index maps, decided over the grid: the first operand and the result move with the point, the rest stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of point `t`'s block is row `2048 t + r` of the array. -/
def row (t : Fin cfg1.N) (r : Fin 2048) : Fin 16384 :=
  ⟨2048 * t.val + r.val, by have := lt_of_lt_of_eq t.isLt N_1; have := r.isLt; omega⟩

/-- What point `t` writes back is block `t` of `G`. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2048x128) hz, View.ld_unit_zero (S := S1x128) hz, View.ld_unit_zero (S := S128x64) hz,
    View.ld_unit_zero (S := S1x64) hz]
  obtain ⟨f00, f01, f10, f11, f20, f21, f30, f31, f40, f41, f50, f51, f60, f61, f70, f71⟩ := idx_facts t
  funext y
  obtain ⟨r, j, rfl⟩ : ∃ (r : Fin 2048) (j : Fin 64), y = ix2 r j := ⟨y 0, y 1, eq_ix2 y⟩
  show k1_pay1 (iblk1 V c 0 t) (iblk1 V c 1 t) (iblk1 V c 2 t) (iblk1 V c 3 t) (iblk1 V c 4 t) (iblk1 V c 5 t) (iblk1 V c 6 t) (ix2 r j)
    = G V c (((cfg1.win 7).blk t).view.emb (ix2 r j))
  refine (Cert.KernelIdeal.KStage.pay2_apply _ _ _ _ _ _ _ r j).trans ?_
  have e0 : ∀ k : Fin 128, iblk1 V c 0 t (ix2 r k) = V c main_v52 (ix2 (row t r) k) := fun k => by
    show V c main_v52 (((cfg1.win 0).blk t).view.emb (ix2 r k)) = _
    refine congrArg _ (funext fun a => Fin.ext ?_)
    match a with
    | ⟨0, _⟩ => show win1_0.index t (0 : Fin 2) * 2048 + 1 * r.val = 2048 * t.val + r.val; omega
    | ⟨1, _⟩ => show win1_0.index t (1 : Fin 2) * 128 + 1 * k.val = k.val; omega
  have e1 : ∀ k : Fin 128, iblk1 V c 1 t (ix2 0 k) = V c main_v56 (ix2 0 k) := fun k => by
    show V c main_v56 (((cfg1.win 1).blk t).view.emb (ix2 0 k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have e2 : ∀ k : Fin 128, iblk1 V c 2 t (ix2 0 k) = V c main_v57 (ix2 0 k) := fun k => by
    show V c main_v57 (((cfg1.win 2).blk t).view.emb (ix2 0 k)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have e3 : ∀ k : Fin 128, iblk1 V c 3 t (ix2 0 k) = V c main_v58 (ix2 0 k) := fun k => by
    show V c main_v58 (((cfg1.win 3).blk t).view.emb (ix2 0 k)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have e4 : ∀ k : Fin 128, iblk1 V c 4 t (ix2 0 k) = V c main_v59 (ix2 0 k) := fun k => by
    show V c main_v59 (((cfg1.win 4).blk t).view.emb (ix2 0 k)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  have e5 : ∀ k : Fin 128, iblk1 V c 5 t (ix2 k j) = V c main_arg12 (ix2 k j) := fun k => by
    show V c main_arg12 (((cfg1.win 5).blk t).view.emb (ix2 k j)) = _
    refine congrArg _ (funext fun a => Fin.ext ?_)
    match a with
    | ⟨0, _⟩ => show win1_5.index t (0 : Fin 2) * 128 + 1 * k.val = k.val; omega
    | ⟨1, _⟩ => show win1_5.index t (1 : Fin 2) * 64 + 1 * j.val = j.val; omega
  have e6 : iblk1 V c 6 t (ix2 0 j) = V c main_v60 (ix2 0 j) := by
    show V c main_v60 (((cfg1.win 6).blk t).view.emb (ix2 0 j)) = _
    refine congrArg _ (funext fun a => Fin.ext ?_)
    match a with
    | ⟨0, _⟩ => show win1_6.index t (0 : Fin 2) * 1 + 1 * 0 = 0; omega
    | ⟨1, _⟩ => show win1_6.index t (1 : Fin 2) * 64 + 1 * j.val = j.val; omega
  have e7 : ((cfg1.win 7).blk t).view.emb (ix2 r j) = ix2 (row t r) j := funext fun a => Fin.ext (by
    match a with
    | ⟨0, _⟩ => show win1_7.index t (0 : Fin 2) * 2048 + 1 * r.val = 2048 * t.val + r.val; omega
    | ⟨1, _⟩ => show win1_7.index t (1 : Fin 2) * 64 + 1 * j.val = j.val; omega)
  rw [e7, e6]
  simp only [e0, e1, e2, e3, e4, e5]
  rfl

/-- An index of the array is in point `t`'s block iff each coordinate is in the block's range on its axis. -/
theorem mem_blk (t : Fin cfg1.N) (i : S16384x64.Idx) :
    i ∈ ((cfg1.win 7).blk t).view.set ↔ ∀ a : Fin 2, win1_7.index t a * S2048x64.size a ≤ (i a).val
      ∧ (i a).val < win1_7.index t a * S2048x64.size a + S2048x64.size a := by
  show i ∈ ((View.whole main_v61).slice (win1_7.rect t)).set ↔ _
  rw [View.set_slice_whole, Rect.mem_set_unit]
  exact Iff.rfl

/-- Every row lies in the block of the point its number divided by 2048 names. -/
theorem cover (i : S16384x64.Idx) : ∃ t : Fin cfg1.N, (cfg1.win 7).flush t = true ∧ i ∈ ((cfg1.win 7).blk t).view.set := by
  have hi0 : (i 0).val < 16384 := (i 0).isLt
  have hi1 : (i 1).val < 64 := (i 1).isLt
  have ht : (i 0).val / 2048 < cfg1.N := by rw [show cfg1.N = 8 from N_1]; omega
  obtain ⟨-, -, -, -, -, -, -, -, -, -, -, -, -, -, f70, f71⟩ := idx_facts ⟨(i 0).val / 2048, ht⟩
  refine ⟨⟨(i 0).val / 2048, ht⟩, flush1_7 _, ?_⟩
  rw [mem_blk]
  intro a
  match a with
  | ⟨0, _⟩ =>
    show win1_7.index ⟨(i 0).val / 2048, ht⟩ (0 : Fin 2) * 2048 ≤ (i 0).val
      ∧ (i 0).val < win1_7.index ⟨(i 0).val / 2048, ht⟩ (0 : Fin 2) * 2048 + 2048
    rw [f70]; show (i 0).val / 2048 * 2048 ≤ (i 0).val ∧ (i 0).val < (i 0).val / 2048 * 2048 + 2048; omega
  | ⟨1, _⟩ =>
    show win1_7.index ⟨(i 0).val / 2048, ht⟩ (1 : Fin 2) * 64 ≤ (i 1).val
      ∧ (i 1).val < win1_7.index ⟨(i 0).val / 2048, ht⟩ (1 : Fin 2) * 64 + 64
    omega

/-- The output array after the second pallas_call: the specification's second layer of the arrays the region finds. -/
theorem final (c : Dev nD) : (dat1 V c).arrAt 7 cfg1.N = G V c :=
  (dat1 V c).arrAt_eq_of_cover 7 (G V c) (fun t _ => flushed_eq V c t) (cover)

end Cert.KernelIdeal.KPipe2

end
-- ==== Proof.KStage3.lean ====
/-
  The third kernel's stored block, read at row `r` of the block: the row's 64 normalised, rectified features times the
  output weights, summed along the row by the lane reduction, plus the output bias.
-/
import proofs.«104220_j67989332296027_1_alg».proof.Proof.Gen.KernelIdeal.Skeleton
import proofs.«104220_j67989332296027_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KStage

open Cert.KernelIdeal Cert.KernelIdeal.Gen Idealize.ShloMosaic Idealize.ShloMosaic.ValueIdx

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, b]` row, cast to its own shape and broadcast to `[a, b]`, reads at `(p, c)` the row at `c`. -/
private theorem row_apply {α : Type} {a b : ℕ} (v : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- The reciprocal square root of a vector, at an index, is that of the entry. -/
private theorem rsqrt_apply {s : Shape} {φ : FTy} (a : FVec Ideal s φ) (i : s.Idx) : rsqrt a i = Ideal.rsqrt (a i) := rfl

/-- The lane sum of a `[2048, 64]` array at row `r` is the sum over the row's 64 entries. -/
private theorem laneSum_apply (src : FVec Ideal S2048x64 .f32) (h : S2048x64.Reduces [1] S2048)
    (hφ : FKind.Formats .f32) (hacc : (0x00000000#32 : BitVec 32) = FKind.add.neutral .f32 hφ) (r : Fin 2048) :
    multiReduction (F := Ideal) .add [1] S2048 src 0x00000000#32 h hφ hacc (ix1 r) = ∑ j : Fin 64, src (ix2 r j) := by
  refine (Ideal.multiReduction_add_single src 0x00000000#32 h hφ hacc (ix1 r)).trans ?_
  refine Finset.sum_congr rfl fun k _ => congrArg src ?_
  funext a; refine Fin.ext ?_
  match a with
  | ⟨0, _⟩ => rfl
  | ⟨1, _⟩ => rfl

/-- The payload of the third kernel at an index of its block. -/
theorem pay3_apply (x0 : Vec Ideal S2048x64 .f32) (x1 x2 x3 x4 x5 : Vec Ideal S1x64 .f32) (x6 : Vec Ideal S1x1 .f32)
    (r : Fin 2048) :
    k2_pay1 (F := Ideal) x0 x1 x2 x3 x4 x5 x6 (ix2 r 0)
      = (∑ j : Fin 64, Cert.Spec.bnRelu (x0 (ix2 r j)) (x1 (ix2 0 j)) (x2 (ix2 0 j)) (x3 (ix2 0 j)) (x4 (ix2 0 j)) * x5 (ix2 0 j))
          + x6 (ix2 0 0) := by
  unfold k2_pay1
  dsimp only
  rw [addf_apply]
  refine congrArg₂ (· + ·) ?_ (row_apply x6 _ _ r 0)
  refine (shapeCast_a_a1_apply _ _ r 0).trans ?_
  refine (laneSum_apply _ _ _ _ r).trans ?_
  refine Finset.sum_congr rfl fun j _ => ?_
  unfold Cert.Spec.bnRelu
  simp only [mulf_apply, maximumf_apply, addf_apply, subf_apply, broadcast_apply, shapeCast_self, row_apply,
    broadcastTo_1b_ab_apply, rsqrt_apply, Ideal.ofBits_def]

end Cert.KernelIdeal.KStage

end
-- ==== Proof.KPipe3.lean ====
/-
  The third pallas_call's output array, as ONE function of the arrays the region finds. Its grid has eight points;
  point `t` reads rows `2048 t … 2048 t + 2047` of the second layer's pre-activations and the whole of six small
  operands (mean, variance, scale, shift, output weights as rows of 64, the output bias), and writes rows
  `2048 t … 2048 t + 2047` of the result. What it writes at row `r` of its block is the specification's output layer
  at row `2048 t + r`: the payload read at an index, each block read where the window's index map puts it. The eight
  blocks tile the result, so the array ends as that function everywhere.
-/
import proofs.«104220_j67989332296027_1_alg».proof.Proof.Gen.KernelIdeal.Frame
import proofs.«104220_j67989332296027_1_alg».proof.Proof.KStage3
import proofs.«104220_j67989332296027_1_alg».proof.Proof.Spec
import Idealize.ShloMosaic.Lib.Pipeline.Value

set_option maxRecDepth 16384

noncomputable section

namespace Cert.KernelIdeal.KPipe3

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output layer of the arrays the region finds (`V`), row by row. -/
def G (c : Dev nD) : S16384x1.Idx → EReal := fun i =>
  Cert.Spec.S3 (fun b j => V c main_v61 (ix2 b j)) (fun j => V c main_v65 (ix2 0 j)) (fun j => V c main_v66 (ix2 0 j))
    (fun j => V c main_v67 (ix2 0 j)) (fun j => V c main_v68 (ix2 0 j)) (fun j => V c main_v70 (ix2 0 j))
    (V c main_v71 (ix2 0 0)) (i 0)

/-- The printed index maps, decided over the grid: the first operand and the result move with the point, the rest stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `r` of point `t`'s block is row `2048 t + r` of the array. -/
def row (t : Fin cfg2.N) (r : Fin 2048) : Fin 16384 :=
  ⟨2048 * t.val + r.val, by have := lt_of_lt_of_eq t.isLt N_2; have := r.isLt; omega⟩

/-- What point `t` writes back is block `t` of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S2048x64) hz, View.ld_unit_zero (S := S1x64) hz, View.ld_unit_zero (S := S1x1) hz]
  obtain ⟨f00, f01, f10, f11, f20, f21, f30, f31, f40, f41, f50, f51, f60, f61, f70, f71⟩ := idx_facts t
  funext y
  obtain ⟨r, q, rfl⟩ : ∃ (r : Fin 2048) (q : Fin 1), y = ix2 r q := ⟨y 0, y 1, eq_ix2 y⟩
  obtain rfl : q = 0 := Subsingleton.elim _ _
  show k2_pay1 (iblk2 V c 0 t) (iblk2 V c 1 t) (iblk2 V c 2 t) (iblk2 V c 3 t) (iblk2 V c 4 t) (iblk2 V c 5 t) (iblk2 V c 6 t) (ix2 r 0)
    = G V c (((cfg2.win 7).blk t).view.emb (ix2 r 0))
  refine (Cert.KernelIdeal.KStage.pay3_apply _ _ _ _ _ _ _ r).trans ?_
  have e0 : ∀ j : Fin 64, iblk2 V c 0 t (ix2 r j) = V c main_v61 (ix2 (row t r) j) := fun j => by
    show V c main_v61 (((cfg2.win 0).blk t).view.emb (ix2 r j)) = _
    refine congrArg _ (funext fun a => Fin.ext ?_)
    match a with
    | ⟨0, _⟩ => show win2_0.index t (0 : Fin 2) * 2048 + 1 * r.val = 2048 * t.val + r.val; omega
    | ⟨1, _⟩ => show win2_0.index t (1 : Fin 2) * 64 + 1 * j.val = j.val; omega
  have e1 : ∀ j : Fin 64, iblk2 V c 1 t (ix2 0 j) = V c main_v65 (ix2 0 j) := fun j => by
    show V c main_v65 (((cfg2.win 1).blk t).view.emb (ix2 0 j)) = _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * j.val = j.val; omega
  have e2 : ∀ j : Fin 64, iblk2 V c 2 t (ix2 0 j) = V c main_v66 (ix2 0 j) := fun j => by
    show V c main_v66 (((cfg2.win 2).blk t).view.emb (ix2 0 j)) = _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * j.val = j.val; omega
  have e3 : ∀ j : Fin 64, iblk2 V c 3 t (ix2 0 j) = V c main_v67 (ix2 0 j) := fun j => by
    show V c main_v67 (((cfg2.win 3).blk t).view.emb (ix2 0 j)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * j.val = j.val; omega
  have e4 : ∀ j : Fin 64, iblk2 V c 4 t (ix2 0 j) = V c main_v68 (ix2 0 j) := fun j => by
    show V c main_v68 (((cfg2.win 4).blk t).view.emb (ix2 0 j)) = _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * j.val = j.val; omega
  have e5 : ∀ j : Fin 64, iblk2 V c 5 t (ix2 0 j) = V c main_v70 (ix2 0 j) := fun j => by
    show V c main_v70 (((cfg2.win 5).blk t).view.emb (ix2 0 j)) = _
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * j.val = j.val; omega
  have e6 : iblk2 V c 6 t (ix2 0 0) = V c main_v71 (ix2 0 0) := by
    show V c main_v71 (((cfg2.win 6).blk t).view.emb (ix2 0 0)) = _
    refine congrArg _ (funext fun a => Fin.ext ?_)
    match a with
    | ⟨0, _⟩ => show win2_6.index t (0 : Fin 2) * 1 + 1 * 0 = 0; omega
    | ⟨1, _⟩ => show win2_6.index t (1 : Fin 2) * 1 + 1 * 0 = 0; omega
  have e7 : ((cfg2.win 7).blk t).view.emb (ix2 r 0) = ix2 (row t r) 0 := funext fun a => Fin.ext (by
    match a with
    | ⟨0, _⟩ => show win2_7.index t (0 : Fin 2) * 2048 + 1 * r.val = 2048 * t.val + r.val; omega
    | ⟨1, _⟩ => show win2_7.index t (1 : Fin 2) * 1 + 1 * 0 = 0; omega)
  rw [e7, e6]
  simp only [e0, e1, e2, e3, e4, e5]
  rfl

/-- An index of the array is in point `t`'s block iff each coordinate is in the block's range on its axis. -/
theorem mem_blk (t : Fin cfg2.N) (i : S16384x1.Idx) :
    i ∈ ((cfg2.win 7).blk t).view.set ↔ ∀ a : Fin 2, win2_7.index t a * S2048x1.size a ≤ (i a).val
      ∧ (i a).val < win2_7.index t a * S2048x1.size a + S2048x1.size a := by
  show i ∈ ((View.whole main_v72).slice (win2_7.rect t)).set ↔ _
  rw [View.set_slice_whole, Rect.mem_set_unit]
  exact Iff.rfl

/-- Every row lies in the block of the point its number divided by 2048 names. -/
theorem cover (i : S16384x1.Idx) : ∃ t : Fin cfg2.N, (cfg2.win 7).flush t = true ∧ i ∈ ((cfg2.win 7).blk t).view.set := by
  have hi0 : (i 0).val < 16384 := (i 0).isLt
  have hi1 : (i 1).val < 1 := (i 1).isLt
  have ht : (i 0).val / 2048 < cfg2.N := by rw [show cfg2.N = 8 from N_2]; omega
  obtain ⟨-, -, -, -, -, -, -, -, -, -, -, -, -, -, f70, f71⟩ := idx_facts ⟨(i 0).val / 2048, ht⟩
  refine ⟨⟨(i 0).val / 2048, ht⟩, flush2_7 _, ?_⟩
  rw [mem_blk]
  intro a
  match a with
  | ⟨0, _⟩ =>
    show win2_7.index ⟨(i 0).val / 2048, ht⟩ (0 : Fin 2) * 2048 ≤ (i 0).val
      ∧ (i 0).val < win2_7.index ⟨(i 0).val / 2048, ht⟩ (0 : Fin 2) * 2048 + 2048
    rw [f70]; show (i 0).val / 2048 * 2048 ≤ (i 0).val ∧ (i 0).val < (i 0).val / 2048 * 2048 + 2048; omega
  | ⟨1, _⟩ =>
    show win2_7.index ⟨(i 0).val / 2048, ht⟩ (1 : Fin 2) * 1 ≤ (i 1).val
      ∧ (i 1).val < win2_7.index ⟨(i 0).val / 2048, ht⟩ (1 : Fin 2) * 1 + 1
    omega

/-- The output array after the third pallas_call: the specification's output layer of the arrays the region finds. -/
theorem final (c : Dev nD) : (dat2 V c).arrAt 7 cfg2.N = G V c :=
  (dat2 V c).arrAt_eq_of_cover 7 (G V c) (fun t _ => flushed_eq V c t) (cover)

end Cert.KernelIdeal.KPipe3

end
-- ==== Proof.KChain.lean ====
/-
  The kernel program's buffers at the three regions' entries, read back through the fold of its host operations.
  No host operation and no region writes an argument, so an argument's buffer holds its launch contents at every
  boundary; a parameter the program reshapes to a row before a region (a bias, a scale, a shift, the output weights)
  is the argument read at the same coordinate; and a stretch leaves untouched the buffers it does not write (a
  region's output, the statistics computed before the reshapes).
-/
import proofs.«104220_j67989332296027_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.KChain

open Cert.KernelIdeal Cert.KernelIdeal.Gen Idealize.ShloMosaic Idealize.ShloMosaic.ValueIdx Idealize.ShloMosaic.TcCoe Idealize.SL.Sem
  Idealize.ShloMosaic.StableHlo

variable (m : (ℓ : Loc nD τ sig) → Buf (Elt Ideal) ℓ) (ρ : Dev nD → PrngReg) (c : Dev nD)

/-- A stretch of host operations leaves a buffer that none of them writes as it was. -/
local macro "host_skip " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- An `[a, 1]` array cast to `[a]` reads, at `i`, the operand at `(i, 0)`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- No operation before the first region's exit writes argument 10. -/
private theorem W2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_skip hostOps0
    _ = m ((c : Thread nD τ).loc main_arg10) := rfl

/-- No operation before the first region's exit writes argument 11. -/
private theorem W2_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by host_skip hostOps0
    _ = m ((c : Thread nD τ).loc main_arg11) := rfl

/-- No operation before the first region's exit writes argument 13. -/
private theorem W2_arg13 : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := by host_skip hostOps0
    _ = m ((c : Thread nD τ).loc main_arg13) := rfl

/-- No operation after the second region's exit writes argument 14, and at the end it holds its launch contents. -/
private theorem W6_arg14 : W6 m ρ c (Proc.devRef .tc main_arg14) = m ((c : Thread nD τ).loc main_arg14) :=
  (calc W10 m ρ c (Proc.devRef .tc main_arg14)
    _ = W9 m ρ c (Proc.devRef .tc main_arg14) := W10_of_ne m ρ c main_arg14 (by decide)
    _ = W8 m ρ c (Proc.devRef .tc main_arg14) := by host_skip hostOps2_2
    _ = W7 m ρ c (Proc.devRef .tc main_arg14) := by host_skip hostOps2_1
    _ = W6 m ρ c (Proc.devRef .tc main_arg14) := by host_skip hostOps2).symm.trans (W10_main_arg14 m ρ c)

/-- No operation after the second region's exit writes argument 15, and at the end it holds its launch contents. -/
private theorem W6_arg15 : W6 m ρ c (Proc.devRef .tc main_arg15) = m ((c : Thread nD τ).loc main_arg15) :=
  (calc W10 m ρ c (Proc.devRef .tc main_arg15)
    _ = W9 m ρ c (Proc.devRef .tc main_arg15) := W10_of_ne m ρ c main_arg15 (by decide)
    _ = W8 m ρ c (Proc.devRef .tc main_arg15) := by host_skip hostOps2_2
    _ = W7 m ρ c (Proc.devRef .tc main_arg15) := by host_skip hostOps2_1
    _ = W6 m ρ c (Proc.devRef .tc main_arg15) := by host_skip hostOps2).symm.trans (W10_main_arg15 m ρ c)

/-- No operation after the second region's exit writes argument 16, and at the end it holds its launch contents. -/
private theorem W6_arg16 : W6 m ρ c (Proc.devRef .tc main_arg16) = m ((c : Thread nD τ).loc main_arg16) :=
  (calc W10 m ρ c (Proc.devRef .tc main_arg16)
    _ = W9 m ρ c (Proc.devRef .tc main_arg16) := W10_of_ne m ρ c main_arg16 (by decide)
    _ = W8 m ρ c (Proc.devRef .tc main_arg16) := by host_skip hostOps2_2
    _ = W7 m ρ c (Proc.devRef .tc main_arg16) := by host_skip hostOps2_1
    _ = W6 m ρ c (Proc.devRef .tc main_arg16) := by host_skip hostOps2).symm.trans (W10_main_arg16 m ρ c)

/-- No operation after the second region's exit writes argument 17, and at the end it holds its launch contents. -/
private theorem W6_arg17 : W6 m ρ c (Proc.devRef .tc main_arg17) = m ((c : Thread nD τ).loc main_arg17) :=
  (calc W10 m ρ c (Proc.devRef .tc main_arg17)
    _ = W9 m ρ c (Proc.devRef .tc main_arg17) := W10_of_ne m ρ c main_arg17 (by decide)
    _ = W8 m ρ c (Proc.devRef .tc main_arg17) := by host_skip hostOps2_2
    _ = W7 m ρ c (Proc.devRef .tc main_arg17) := by host_skip hostOps2_1
    _ = W6 m ρ c (Proc.devRef .tc main_arg17) := by host_skip hostOps2).symm.trans (W10_main_arg17 m ρ c)

/-! ## At the first region's entry (`W1`: after the first stretch) -/

theorem at1_arg1 : W1 m ρ c (Proc.devRef .tc main_arg1) = m ((c : Thread nD τ).loc main_arg1) :=
  calc W1 m ρ c (Proc.devRef .tc main_arg1)
    _ = W0 m ρ c (Proc.devRef .tc main_arg1) := by host_skip hostOps0
    _ = m ((c : Thread nD τ).loc main_arg1) := rfl
theorem at1_arg6 : W1 m ρ c (Proc.devRef .tc main_arg6) = m ((c : Thread nD τ).loc main_arg6) :=
  calc W1 m ρ c (Proc.devRef .tc main_arg6)
    _ = W0 m ρ c (Proc.devRef .tc main_arg6) := by host_skip hostOps0
    _ = m ((c : Thread nD τ).loc main_arg6) := rfl
theorem at1_arg8 : W1 m ρ c (Proc.devRef .tc main_arg8) = m ((c : Thread nD τ).loc main_arg8) :=
  calc W1 m ρ c (Proc.devRef .tc main_arg8)
    _ = W0 m ρ c (Proc.devRef .tc main_arg8) := by host_skip hostOps0
    _ = m ((c : Thread nD τ).loc main_arg8) := rfl
/-- The first bias as a row is the bias. -/
theorem at1_v50 (k : Fin 208) : W1 m ρ c (Proc.devRef .tc main_v50) (ix2 0 k) = m ((c : Thread nD τ).loc main_arg7) (ix1 k) := by
  show StableHlo.after hostOps0 (W0 m ρ c) (Proc.devRef .tc main_v50) (ix2 0 k) = _
  after_results
  show shapeCast S1x208 (W0 m ρ c (Proc.devRef .tc main_arg7)) shapeCasts_S208_S1x208 (ix2 0 k) = _
  exact shapeCast_a_1a_apply _ _ 0 k
/-- The second bias as a row is the bias. -/
theorem at1_v51 (j : Fin 128) : W1 m ρ c (Proc.devRef .tc main_v51) (ix2 0 j) = m ((c : Thread nD τ).loc main_arg9) (ix1 j) := by
  show StableHlo.after hostOps0 (W0 m ρ c) (Proc.devRef .tc main_v51) (ix2 0 j) = _
  after_results
  show shapeCast S1x128 (W0 m ρ c (Proc.devRef .tc main_arg9)) shapeCasts_S128_S1x128 (ix2 0 j) = _
  exact shapeCast_a_1a_apply _ _ 0 j

/-! ## At the second region's entry (`W5`: the first region's exit `W2`, then three stretches) -/

/-- The first region's output is not written again before the second region. -/
theorem at5_v52 : W5 m ρ c (Proc.devRef .tc main_v52) = W2 m ρ c (Proc.devRef .tc main_v52) :=
  calc W5 m ρ c (Proc.devRef .tc main_v52)
    _ = W4 m ρ c (Proc.devRef .tc main_v52) := by host_skip hostOps1_2
    _ = W3 m ρ c (Proc.devRef .tc main_v52) := by host_skip hostOps1_1
    _ = W2 m ρ c (Proc.devRef .tc main_v52) := by host_skip hostOps1
/-- The mean is as the first of the three stretches leaves it. -/
theorem at5_v56 : W5 m ρ c (Proc.devRef .tc main_v56) = W3 m ρ c (Proc.devRef .tc main_v56) :=
  calc W5 m ρ c (Proc.devRef .tc main_v56)
    _ = W4 m ρ c (Proc.devRef .tc main_v56) := by host_skip hostOps1_2
    _ = W3 m ρ c (Proc.devRef .tc main_v56) := by host_skip hostOps1_1
/-- The variance is as the second of the three stretches leaves it. -/
theorem at5_v57 : W5 m ρ c (Proc.devRef .tc main_v57) = W4 m ρ c (Proc.devRef .tc main_v57) :=
  calc W5 m ρ c (Proc.devRef .tc main_v57)
    _ = W4 m ρ c (Proc.devRef .tc main_v57) := by host_skip hostOps1_2
theorem at5_v58 (k : Fin 128) : W5 m ρ c (Proc.devRef .tc main_v58) (ix2 0 k) = m ((c : Thread nD τ).loc main_arg10) (ix1 k) := by
  show StableHlo.after hostOps1_2 (W4 m ρ c) (Proc.devRef .tc main_v58) (ix2 0 k) = _
  after_results
  show shapeCast S1x128 (W2 m ρ c (Proc.devRef .tc main_arg10)) shapeCasts_S128_S1x128 (ix2 0 k) = _
  exact (shapeCast_a_1a_apply _ _ 0 k).trans (congrFun (W2_arg10 m ρ c) _)
theorem at5_v59 (k : Fin 128) : W5 m ρ c (Proc.devRef .tc main_v59) (ix2 0 k) = m ((c : Thread nD τ).loc main_arg11) (ix1 k) := by
  show StableHlo.after hostOps1_2 (W4 m ρ c) (Proc.devRef .tc main_v59) (ix2 0 k) = _
  after_results
  show shapeCast S1x128 (W2 m ρ c (Proc.devRef .tc main_arg11)) shapeCasts_S128_S1x128 (ix2 0 k) = _
  exact (shapeCast_a_1a_apply _ _ 0 k).trans (congrFun (W2_arg11 m ρ c) _)
theorem at5_arg12 : W5 m ρ c (Proc.devRef .tc main_arg12) = m ((c : Thread nD τ).loc main_arg12) :=
  calc W5 m ρ c (Proc.devRef .tc main_arg12)
    _ = W4 m ρ c (Proc.devRef .tc main_arg12) := by host_skip hostOps1_2
    _ = W3 m ρ c (Proc.devRef .tc main_arg12) := by host_skip hostOps1_1
    _ = W2 m ρ c (Proc.devRef .tc main_arg12) := by host_skip hostOps1
    _ = W1 m ρ c (Proc.devRef .tc main_arg12) := W2_of_ne m ρ c main_arg12 (by decide)
    _ = W0 m ρ c (Proc.devRef .tc main_arg12) := by host_skip hostOps0
    _ = m ((c : Thread nD τ).loc main_arg12) := rfl
theorem at5_v60 (j : Fin 64) : W5 m ρ c (Proc.devRef .tc main_v60) (ix2 0 j) = m ((c : Thread nD τ).loc main_arg13) (ix1 j) := by
  show StableHlo.after hostOps1_2 (W4 m ρ c) (Proc.devRef .tc main_v60) (ix2 0 j) = _
  after_results
  show shapeCast S1x64 (W2 m ρ c (Proc.devRef .tc main_arg13)) shapeCasts_S64_S1x64 (ix2 0 j) = _
  exact (shapeCast_a_1a_apply _ _ 0 j).trans (congrFun (W2_arg13 m ρ c) _)

/-! ## At the third region's entry (`W9`: the second region's exit `W6`, then three stretches) -/

theorem at9_v61 : W9 m ρ c (Proc.devRef .tc main_v61) = W6 m ρ c (Proc.devRef .tc main_v61) :=
  calc W9 m ρ c (Proc.devRef .tc main_v61)
    _ = W8 m ρ c (Proc.devRef .tc main_v61) := by host_skip hostOps2_2
    _ = W7 m ρ c (Proc.devRef .tc main_v61) := by host_skip hostOps2_1
    _ = W6 m ρ c (Proc.devRef .tc main_v61) := by host_skip hostOps2
theorem at9_v65 : W9 m ρ c (Proc.devRef .tc main_v65) = W7 m ρ c (Proc.devRef .tc main_v65) :=
  calc W9 m ρ c (Proc.devRef .tc main_v65)
    _ = W8 m ρ c (Proc.devRef .tc main_v65) := by host_skip hostOps2_2
    _ = W7 m ρ c (Proc.devRef .tc main_v65) := by host_skip hostOps2_1
theorem at9_v66 : W9 m ρ c (Proc.devRef .tc main_v66) = W8 m ρ c (Proc.devRef .tc main_v66) :=
  calc W9 m ρ c (Proc.devRef .tc main_v66)
    _ = W8 m ρ c (Proc.devRef .tc main_v66) := by host_skip hostOps2_2
theorem at9_v67 (j : Fin 64) : W9 m ρ c (Proc.devRef .tc main_v67) (ix2 0 j) = m ((c : Thread nD τ).loc main_arg14) (ix1 j) := by
  show StableHlo.after hostOps2_2 (W8 m ρ c) (Proc.devRef .tc main_v67) (ix2 0 j) = _
  after_results
  show shapeCast S1x64 (W6 m ρ c (Proc.devRef .tc main_arg14)) shapeCasts_S64_S1x64 (ix2 0 j) = _
  exact (shapeCast_a_1a_apply _ _ 0 j).trans (congrFun (W6_arg14 m ρ c) _)
theorem at9_v68 (j : Fin 64) : W9 m ρ c (Proc.devRef .tc main_v68) (ix2 0 j) = m ((c : Thread nD τ).loc main_arg15) (ix1 j) := by
  show StableHlo.after hostOps2_2 (W8 m ρ c) (Proc.devRef .tc main_v68) (ix2 0 j) = _
  after_results
  show shapeCast S1x64 (W6 m ρ c (Proc.devRef .tc main_arg15)) shapeCasts_S64_S1x64 (ix2 0 j) = _
  exact (shapeCast_a_1a_apply _ _ 0 j).trans (congrFun (W6_arg15 m ρ c) _)
/-- The output weights, a column of 64, reshaped to a vector and then to a row: entry `j` of the row is entry `j` of the column. -/
theorem at9_v70 (j : Fin 64) : W9 m ρ c (Proc.devRef .tc main_v70) (ix2 0 j) = m ((c : Thread nD τ).loc main_arg16) (ix2 j 0) := by
  show StableHlo.after hostOps2_2 (W8 m ρ c) (Proc.devRef .tc main_v70) (ix2 0 j) = _
  after_results
  show shapeCast S1x64 (fun i => shapeCast S64 (W6 m ρ c (Proc.devRef .tc main_arg16)) shapeCasts_S64x1_S64 i)
    shapeCasts_S64_S1x64 (ix2 0 j) = _
  refine (shapeCast_a_1a_apply _ _ 0 j).trans ?_
  refine (shapeCast_a1_a_apply _ _ j).trans ?_
  exact congrFun (W6_arg16 m ρ c) _
theorem at9_v71 : W9 m ρ c (Proc.devRef .tc main_v71) (ix2 0 0) = m ((c : Thread nD τ).loc main_arg17) (ix1 0) := by
  show StableHlo.after hostOps2_2 (W8 m ρ c) (Proc.devRef .tc main_v71) (ix2 0 0) = _
  after_results
  show shapeCast S1x1 (W6 m ρ c (Proc.devRef .tc main_arg17)) shapeCasts_S1_S1x1 (ix2 0 0) = _
  exact (shapeCast_a_1a_apply _ _ 0 0).trans (congrFun (W6_arg17 m ρ c) _)

/-! ## The regions' outputs: each region leaves its output window's array at the pipeline's final array -/

theorem at2_v52 : W2 m ρ c (Proc.devRef .tc main_v52) = (dat0 (V1 m ρ) c).arrAt 7 cfg0.N := W2_arr m ρ c 7
theorem at6_v61 : W6 m ρ c (Proc.devRef .tc main_v61) = (dat1 (V5 m ρ) c).arrAt 7 cfg1.N := W6_arr m ρ c 7
theorem at10_v72 : W10 m ρ c (Proc.devRef .tc main_v72) = (dat2 (V9 m ρ) c).arrAt 7 cfg2.N := W10_arr m ρ c 7

end Cert.KernelIdeal.KChain

end
-- ==== Proof.Shared.lean ====
/-
  What the two programs compute ALIKE on the host. Both gather the first- and second-order embeddings with the same
  operations, sum them the same way and form the same dense-feature product; they differ only in the order in which
  the three summands of the row term are added. Both compute each hidden layer's batch mean and variance with the
  same operations of that layer's pre-activations. So from buffer contents that agree on what the chains read, the
  chains' results agree — the row term after re-association (addition of extended reals is associative).
-/
import proofs.«104220_j67989332296027_1_alg».proof.Proof.Gen.KernelIdeal.Launch
import proofs.«104220_j67989332296027_1_alg».proof.Proof.RefOps
import Idealize.ShloMosaic.PureOps.Ideal
import Idealize.ShloMosaic.Lib.ValueIdx
import Idealize.ShloMosaic.Lib.StableHlo.Run

noncomputable section

namespace Cert.Shared

open Idealize.ShloMosaic Idealize.ShloMosaic.TcCoe Idealize.ShloMosaic.StableHlo Idealize.ShloMosaic.ValueIdx

/-- Buffer contents of the kernel program's device. -/
abbrev KVal := Valuation Cert.KernelIdeal.τ Cert.KernelIdeal.sig (Elt Ideal)
/-- Buffer contents of the reference program's device. -/
abbrev RVal := Valuation Cert.ReferenceIdeal.τ Cert.ReferenceIdeal.sig (Elt Ideal)

/-- The fold of a concatenation is the folds one after the other. -/
private theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A concatenation of two pieces depends on the pieces only through their values. -/
@[local congr] private theorem concatenate_pair_congr {α : Type} {t : Shape} {a : Fin t.rank} {s₁ s₂ : Shape}
    {x x' : s₁.Idx → α} {y y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

/-- Addition of arrays of extended reals is associative. -/
private theorem addf_assoc {s : Shape} {φ : FTy} (a b c : FVec Ideal s φ) : addf (addf a b) c = addf a (addf b c) :=
  funext fun i => add_assoc (a i) (b i) (c i)

set_option maxHeartbeats 4000000 in
attribute [local irreducible] Host.gather Host.reduceAdd in
/-- The row term: the kernel program's `(o₁ + (d·w + β)) + o₂` is the reference's `((o₁ + d·w) + β) + o₂`. -/
theorem rowterm_eq (Wk : KVal) (Wr : RVal)
    (h0 : Wk (Proc.devRef .tc Cert.KernelIdeal.main_arg0) = Wr (Proc.devRef .tc Cert.ReferenceIdeal.main_arg0))
    (h1 : Wk (Proc.devRef .tc Cert.KernelIdeal.main_arg1) = Wr (Proc.devRef .tc Cert.ReferenceIdeal.main_arg1))
    (h2 : Wk (Proc.devRef .tc Cert.KernelIdeal.main_arg2) = Wr (Proc.devRef .tc Cert.ReferenceIdeal.main_arg2))
    (h3 : Wk (Proc.devRef .tc Cert.KernelIdeal.main_arg3) = Wr (Proc.devRef .tc Cert.ReferenceIdeal.main_arg3))
    (h4 : Wk (Proc.devRef .tc Cert.KernelIdeal.main_arg4) = Wr (Proc.devRef .tc Cert.ReferenceIdeal.main_arg4))
    (h5 : Wk (Proc.devRef .tc Cert.KernelIdeal.main_arg5) = Wr (Proc.devRef .tc Cert.ReferenceIdeal.main_arg5)) :
    after (Cert.KernelIdeal.Gen.hostOps0 (F := Ideal)) Wk (Proc.devRef .tc Cert.KernelIdeal.main_v48)
      = after (Cert.ReferenceIdeal.RefOps.ops_a ++ Cert.ReferenceIdeal.RefOps.ops_b) Wr (Proc.devRef .tc Cert.ReferenceIdeal.main_v55) := by
  rw [after_append]
  after_results_simp
  rw [h0, h1, h2, h3, h4, h5, ← addf_assoc]
  rfl

attribute [local irreducible] Host.gather Host.reduceAdd in
/-- The flattened second-order embeddings: the same gather, the same reshape. -/
theorem emb_eq (Wk : KVal) (Wr : RVal)
    (h0 : Wk (Proc.devRef .tc Cert.KernelIdeal.main_arg0) = Wr (Proc.devRef .tc Cert.ReferenceIdeal.main_arg0))
    (h3 : Wk (Proc.devRef .tc Cert.KernelIdeal.main_arg3) = Wr (Proc.devRef .tc Cert.ReferenceIdeal.main_arg3)) :
    after (Cert.KernelIdeal.Gen.hostOps0 (F := Ideal)) Wk (Proc.devRef .tc Cert.KernelIdeal.main_v49)
      = after (Cert.ReferenceIdeal.RefOps.ops_a ++ Cert.ReferenceIdeal.RefOps.ops_b) Wr (Proc.devRef .tc Cert.ReferenceIdeal.main_v48) := by
  rw [after_append]
  after_results_simp
  rw [h0, h3]
  rfl

/-- The first hidden layer's batch mean. -/
theorem mean1_eq (Wk : KVal) (Wr : RVal)
    (h : Wk (Proc.devRef .tc Cert.KernelIdeal.main_v52) = Wr (Proc.devRef .tc Cert.ReferenceIdeal.main_v61)) :
    after (Cert.KernelIdeal.Gen.hostOps1 (F := Ideal)) Wk (Proc.devRef .tc Cert.KernelIdeal.main_v56)
      = after Cert.ReferenceIdeal.RefOps.ops_c1 Wr (Proc.devRef .tc Cert.ReferenceIdeal.main_v65) := by
  after_results_simp
  rw [h]

/-- The first hidden layer's batch variance. -/
theorem var1_eq (Wk : KVal) (Wr : RVal)
    (h : Wk (Proc.devRef .tc Cert.KernelIdeal.main_v52) = Wr (Proc.devRef .tc Cert.ReferenceIdeal.main_v61)) :
    after (Cert.KernelIdeal.Gen.hostOps1_1 (F := Ideal)) (after (Cert.KernelIdeal.Gen.hostOps1 (F := Ideal)) Wk)
        (Proc.devRef .tc Cert.KernelIdeal.main_v57)
      = after Cert.ReferenceIdeal.RefOps.ops_c1 Wr (Proc.devRef .tc Cert.ReferenceIdeal.main_v66) := by
  after_results_simp
  rw [h]

/-- The second hidden layer's batch mean. -/
theorem mean2_eq (Wk : KVal) (Wr : RVal)
    (h : Wk (Proc.devRef .tc Cert.KernelIdeal.main_v61) = Wr (Proc.devRef .tc Cert.ReferenceIdeal.main_v84)) :
    after (Cert.KernelIdeal.Gen.hostOps2 (F := Ideal)) Wk (Proc.devRef .tc Cert.KernelIdeal.main_v65)
      = after Cert.ReferenceIdeal.RefOps.ops_d1 Wr (Proc.devRef .tc Cert.ReferenceIdeal.main_v88) := by
  after_results_simp
  rw [h]

/-- The second hidden layer's batch variance. -/
theorem var2_eq (Wk : KVal) (Wr : RVal)
    (h : Wk (Proc.devRef .tc Cert.KernelIdeal.main_v61) = Wr (Proc.devRef .tc Cert.ReferenceIdeal.main_v84)) :
    after (Cert.KernelIdeal.Gen.hostOps2_1 (F := Ideal)) (after (Cert.KernelIdeal.Gen.hostOps2 (F := Ideal)) Wk)
        (Proc.devRef .tc Cert.KernelIdeal.main_v66)
      = after Cert.ReferenceIdeal.RefOps.ops_d1 Wr (Proc.devRef .tc Cert.ReferenceIdeal.main_v89) := by
  after_results_simp
  rw [h]

end Cert.Shared

end
-- ==== Proof.RefStages.lean ====
/-
  The reference's three layers as functions of whole arrays: each is the composition of the host operations the
  reference applies between two of its named intermediates, in the order and grouping it applies them.
    `hpre`   from the row term `A`, the embeddings `O`, the dense features `D` and the first layer's parameters;
    `h2pre`  from the first layer's pre-activations `X`, its batch mean and variance, and the second layer's parameters;
    `out`    from the second layer's pre-activations, their batch mean and variance, and the output layer's parameters.
-/
import proofs.«104220_j67989332296027_1_alg».proof.Proof.Gen.ReferenceIdeal
import Idealize.ShloMosaic.PureOps.Ideal

noncomputable section

namespace Cert.ReferenceIdeal.RefStages

open Cert.ReferenceIdeal Cert.ReferenceIdeal.Gen Idealize.ShloMosaic Idealize.ShloMosaic.TcCoe

/-- The first layer: `(bcast A + (O + relu (D · wdl + bdl))) · w1 + b1`. -/
def hpre (A : FVec Ideal S16384x1 .f32) (O : FVec Ideal S16384x208 .f32) (D : FVec Ideal S16384x16 .f32)
    (wdl : FVec Ideal S16x208 .f32) (bdl : FVec Ideal S208 .f32) (w1 : FVec Ideal S208x128 .f32) (b1 : FVec Ideal S128 .f32) :
    FVec Ideal S16384x128 .f32 :=
  addf (Host.dotGeneral (F := Ideal) dot_S16384x208_S208x128_S16384x128_1_0_0_1_n_n none
      (addf (broadcastInDim S16384x208 ![0, 1] bcast_S16384x1_S16384x208_0_1 A)
        (addf O (maximumf
          (addf (Host.dotGeneral (F := Ideal) dot_S16384x16_S16x208_S16384x208_1_0_0_1_n_n none D wdl)
            (broadcastInDim S16384x208 ![0, 1] bcast_S1x208_S16384x208_0_1 (broadcastInDim S1x208 ![1] bcast_S208_S1x208_1 bdl)))
          (broadcastInDim S16384x208 ![] bcast_S_S16384x208 (constant (F := Ideal) S_ .f32 0x00000000#32)))))
      w1)
    (broadcastInDim S16384x128 ![0, 1] bcast_S1x128_S16384x128_0_1 (broadcastInDim S1x128 ![1] bcast_S128_S1x128_1 b1))

/-- The second layer: `relu (((X − bcast mu) · bcast (rsqrt (var + ε))) · bcast g + bcast be) · w2 + b2`. -/
def h2pre (X : FVec Ideal S16384x128 .f32) (mu var : FVec Ideal S1x128 .f32) (g be : FVec Ideal S128 .f32)
    (w2 : FVec Ideal S128x64 .f32) (b2 : FVec Ideal S64 .f32) : FVec Ideal S16384x64 .f32 :=
  addf (Host.dotGeneral (F := Ideal) dot_S16384x128_S128x64_S16384x64_1_0_0_1_n_n none
      (maximumf
        (addf
          (mulf
            (mulf (subf X (broadcastInDim S16384x128 ![0, 1] bcast_S1x128_S16384x128_0_1 mu))
              (broadcastInDim S16384x128 ![0, 1] bcast_S1x128_S16384x128_0_1
                (Host.rsqrt (F := Ideal) (addf var (broadcastInDim S1x128 ![] bcast_S_S1x128 (constant (F := Ideal) S_ .f32 0x3727C5AC#32))))))
            (broadcastInDim S16384x128 ![0, 1] bcast_S1x128_S16384x128_0_1 (broadcastInDim S1x128 ![1] bcast_S128_S1x128_1 g)))
          (broadcastInDim S16384x128 ![0, 1] bcast_S1x128_S16384x128_0_1 (broadcastInDim S1x128 ![1] bcast_S128_S1x128_1 be)))
        (broadcastInDim S16384x128 ![] bcast_S_S16384x128 (constant (F := Ideal) S_ .f32 0x00000000#32)))
      w2)
    (broadcastInDim S16384x64 ![0, 1] bcast_S1x64_S16384x64_0_1 (broadcastInDim S1x64 ![1] bcast_S64_S1x64_1 b2))

/-- The output layer: `relu (((X − bcast mu) · bcast (rsqrt (var + ε))) · bcast g + bcast be) · wout + bout`. -/
def out (X : FVec Ideal S16384x64 .f32) (mu var : FVec Ideal S1x64 .f32) (g be : FVec Ideal S64 .f32)
    (wout : FVec Ideal S64x1 .f32) (bout : FVec Ideal S1 .f32) : FVec Ideal S16384x1 .f32 :=
  addf (Host.dotGeneral (F := Ideal) dot_S16384x64_S64x1_S16384x1_1_0_0_1_n_n none
      (maximumf
        (addf
          (mulf
            (mulf (subf X (broadcastInDim S16384x64 ![0, 1] bcast_S1x64_S16384x64_0_1 mu))
              (broadcastInDim S16384x64 ![0, 1] bcast_S1x64_S16384x64_0_1
                (Host.rsqrt (F := Ideal) (addf var (broadcastInDim S1x64 ![] bcast_S_S1x64 (constant (F := Ideal) S_ .f32 0x3727C5AC#32))))))
            (broadcastInDim S16384x64 ![0, 1] bcast_S1x64_S16384x64_0_1 (broadcastInDim S1x64 ![1] bcast_S64_S1x64_1 g)))
          (broadcastInDim S16384x64 ![0, 1] bcast_S1x64_S16384x64_0_1 (broadcastInDim S1x64 ![1] bcast_S64_S1x64_1 be)))
        (broadcastInDim S16384x64 ![] bcast_S_S16384x64 (constant (F := Ideal) S_ .f32 0x00000000#32)))
      wout)
    (broadcastInDim S16384x1 ![0, 1] bcast_S1x1_S16384x1_0_1 (broadcastInDim S1x1 ![1] bcast_S1_S1x1_1 bout))

end Cert.ReferenceIdeal.RefStages

end
-- ==== Proof.RVal.lean ====
/-
  The reference's buffers read back through the fold of its operations, stretch by stretch over a variable
  valuation: the first layer's pre-activation is `hpre` of the row term, the embeddings and the arguments; the second's
  is `h2pre` of the first's, its batch statistics and the arguments; the result is `out` of the second's, its batch
  statistics and the arguments. No operation writes an argument, and the statistics stretches do not write the
  pre-activations they read.
-/
import proofs.«104220_j67989332296027_1_alg».proof.Proof.RefRun
import proofs.«104220_j67989332296027_1_alg».proof.Proof.RefStages

set_option maxRecDepth 16384
set_option maxHeartbeats 1600000

noncomputable section

namespace Cert.ReferenceIdeal.RVal

open Cert.ReferenceIdeal Cert.ReferenceIdeal.Gen Cert.ReferenceIdeal.RefOps Cert.ReferenceIdeal.RefRun
  Cert.ReferenceIdeal.RefStages Idealize.ShloMosaic Idealize.ShloMosaic.TcCoe Idealize.SL.Sem Idealize.ShloMosaic.StableHlo

/-- Buffer contents of the reference program's device, at the ideal values. -/
abbrev RV := Valuation τ sig (Elt Ideal)

/-! ## The three layers, each read over what the stretch before it left -/

/-- The stretch ending at the first layer's pre-activation. -/
theorem read1 (W : RV) :
    after ops_b W (Proc.devRef .tc main_v61)
      = hpre (after ops_b W (Proc.devRef .tc main_v55)) (after ops_b W (Proc.devRef .tc main_v48))
          (W (Proc.devRef .tc main_arg1)) (W (Proc.devRef .tc main_arg6)) (W (Proc.devRef .tc main_arg7)) (W (Proc.devRef .tc main_arg8)) (W (Proc.devRef .tc main_arg9)) := by
  after_results_simp
  rfl

/-- The stretch from the first layer's batch statistics to the second layer's pre-activation. -/
theorem read2 (W : RV) :
    after ops_c2 W (Proc.devRef .tc main_v84)
      = h2pre (W (Proc.devRef .tc main_v61)) (W (Proc.devRef .tc main_v65)) (W (Proc.devRef .tc main_v66))
          (W (Proc.devRef .tc main_arg10)) (W (Proc.devRef .tc main_arg11)) (W (Proc.devRef .tc main_arg12)) (W (Proc.devRef .tc main_arg13)) := by
  after_results_simp
  rfl

/-- The stretch from the second layer's batch statistics to the result. -/
theorem read3 (W : RV) :
    after ops_e (after ops_d2 W) (Proc.devRef .tc main_v107)
      = out (W (Proc.devRef .tc main_v84)) (W (Proc.devRef .tc main_v88)) (W (Proc.devRef .tc main_v89))
          (W (Proc.devRef .tc main_arg14)) (W (Proc.devRef .tc main_arg15)) (W (Proc.devRef .tc main_arg16)) (W (Proc.devRef .tc main_arg17)) := by
  after_results_simp
  rfl

end Cert.ReferenceIdeal.RVal

end
-- ==== Proof.RStage1.lean ====
/-
  The reference's first layer read at row `b`, feature `j`: the broadcasts read their operand at the row or the
  feature, the two host products are plain sums over the contracted axis.
-/
import proofs.«104220_j67989332296027_1_alg».proof.Proof.RefStages
import proofs.«104220_j67989332296027_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RStage

open Cert.ReferenceIdeal Cert.ReferenceIdeal.Gen Cert.ReferenceIdeal.RefStages Idealize.ShloMosaic Idealize.ShloMosaic.ValueIdx

/-- The left operand's row coordinate is the result's row. -/
private theorem lhs0_dl (i : S16384x208.Idx) (q : dot_S16384x16_S16x208_S16384x208_1_0_0_1_n_n.contr.Idx) :
    (dot_S16384x16_S16x208_S16384x208_1_0_0_1_n_n.lhsIdx i q 0).val = (i 0).val := by
  unfold DotDims.lhsIdx
  rw [dif_neg (show ¬(0 : Fin S16384x16.rank) ∈ dot_S16384x16_S16x208_S16384x208_1_0_0_1_n_n.lhsBatch by decide),
    dif_pos (show (0 : Fin S16384x16.rank) ∈ dot_S16384x16_S16x208_S16384x208_1_0_0_1_n_n.lhsNonContracting by decide)]
  rfl

/-- The left operand's column coordinate is the contraction position. -/
private theorem lhs1_dl (i : S16384x208.Idx) (q : dot_S16384x16_S16x208_S16384x208_1_0_0_1_n_n.contr.Idx) :
    (dot_S16384x16_S16x208_S16384x208_1_0_0_1_n_n.lhsIdx i q 1).val = (q ⟨0, by decide⟩).val :=
  dot_S16384x16_S16x208_S16384x208_1_0_0_1_n_n.lhsIdx_val_of_single rfl i q

/-- The right operand's row coordinate is the contraction position. -/
private theorem rhs0_dl (i : S16384x208.Idx) (q : dot_S16384x16_S16x208_S16384x208_1_0_0_1_n_n.contr.Idx) :
    (dot_S16384x16_S16x208_S16384x208_1_0_0_1_n_n.rhsIdx i q 0).val = (q ⟨0, by decide⟩).val :=
  dot_S16384x16_S16x208_S16384x208_1_0_0_1_n_n.rhsIdx_val_of_single rfl i q

/-- The right operand's column coordinate is the result's column. -/
private theorem rhs1_dl (i : S16384x208.Idx) (q : dot_S16384x16_S16x208_S16384x208_1_0_0_1_n_n.contr.Idx) :
    (dot_S16384x16_S16x208_S16384x208_1_0_0_1_n_n.rhsIdx i q 1).val = (i 1).val := by
  unfold DotDims.rhsIdx
  rw [dif_neg (show ¬(1 : Fin S16x208.rank) ∈ dot_S16384x16_S16x208_S16384x208_1_0_0_1_n_n.rhsBatch by decide),
    dif_pos (show (1 : Fin S16x208.rank) ∈ dot_S16384x16_S16x208_S16384x208_1_0_0_1_n_n.rhsNonContracting by decide)]
  rfl

/-- The dense-feature contraction at row `b`, embedding coordinate `k'`: the sum over the 16 dense features. -/
private theorem dot_dl_apply (x : FVec Ideal S16384x16 .f32) (w : FVec Ideal S16x208 .f32) (b : Fin 16384) (k' : Fin 208) :
    Host.dotGeneral (F := Ideal) dot_S16384x16_S16x208_S16384x208_1_0_0_1_n_n none x w (ix2 b k')
      = ∑ k : Fin 16, x (ix2 b k) * w (ix2 k k') := by
  simp only [Host.dotGeneral]
  rw [Ideal.dotGeneral_apply, ← Equiv.sum_comp (ValueIdx.contrEquiv1 dot_S16384x16_S16x208_S16384x208_1_0_0_1_n_n 16 rfl rfl).symm]
  refine Finset.sum_congr rfl fun k _ => ?_
  have hk := ValueIdx.contrEquiv1_symm_val dot_S16384x16_S16x208_S16384x208_1_0_0_1_n_n 16 rfl rfl k
  have el : dot_S16384x16_S16x208_S16384x208_1_0_0_1_n_n.lhsIdx (ix2 b k') ((ValueIdx.contrEquiv1 dot_S16384x16_S16x208_S16384x208_1_0_0_1_n_n 16 rfl rfl).symm k) = ix2 b k :=
    funext fun a => Fin.ext (by
      match a with
      | ⟨0, _⟩ => exact lhs0_dl _ _
      | ⟨1, _⟩ => exact (lhs1_dl _ _).trans hk)
  have er : dot_S16384x16_S16x208_S16384x208_1_0_0_1_n_n.rhsIdx (ix2 b k') ((ValueIdx.contrEquiv1 dot_S16384x16_S16x208_S16384x208_1_0_0_1_n_n 16 rfl rfl).symm k) = ix2 k k' :=
    funext fun a => Fin.ext (by
      match a with
      | ⟨0, _⟩ => exact (rhs0_dl _ _).trans hk
      | ⟨1, _⟩ => exact rhs1_dl _ _)
  rw [el, er]

/-- The left operand's row coordinate is the result's row. -/
private theorem lhs0_h1 (i : S16384x128.Idx) (q : dot_S16384x208_S208x128_S16384x128_1_0_0_1_n_n.contr.Idx) :
    (dot_S16384x208_S208x128_S16384x128_1_0_0_1_n_n.lhsIdx i q 0).val = (i 0).val := by
  unfold DotDims.lhsIdx
  rw [dif_neg (show ¬(0 : Fin S16384x208.rank) ∈ dot_S16384x208_S208x128_S16384x128_1_0_0_1_n_n.lhsBatch by decide),
    dif_pos (show (0 : Fin S16384x208.rank) ∈ dot_S16384x208_S208x128_S16384x128_1_0_0_1_n_n.lhsNonContracting by decide)]
  rfl

/-- The left operand's column coordinate is the contraction position. -/
private theorem lhs1_h1 (i : S16384x128.Idx) (q : dot_S16384x208_S208x128_S16384x128_1_0_0_1_n_n.contr.Idx) :
    (dot_S16384x208_S208x128_S16384x128_1_0_0_1_n_n.lhsIdx i q 1).val = (q ⟨0, by decide⟩).val :=
  dot_S16384x208_S208x128_S16384x128_1_0_0_1_n_n.lhsIdx_val_of_single rfl i q

/-- The right operand's row coordinate is the contraction position. -/
private theorem rhs0_h1 (i : S16384x128.Idx) (q : dot_S16384x208_S208x128_S16384x128_1_0_0_1_n_n.contr.Idx) :
    (dot_S16384x208_S208x128_S16384x128_1_0_0_1_n_n.rhsIdx i q 0).val = (q ⟨0, by decide⟩).val :=
  dot_S16384x208_S208x128_S16384x128_1_0_0_1_n_n.rhsIdx_val_of_single rfl i q

/-- The right operand's column coordinate is the result's column. -/
private theorem rhs1_h1 (i : S16384x128.Idx) (q : dot_S16384x208_S208x128_S16384x128_1_0_0_1_n_n.contr.Idx) :
    (dot_S16384x208_S208x128_S16384x128_1_0_0_1_n_n.rhsIdx i q 1).val = (i 1).val := by
  unfold DotDims.rhsIdx
  rw [dif_neg (show ¬(1 : Fin S208x128.rank) ∈ dot_S16384x208_S208x128_S16384x128_1_0_0_1_n_n.rhsBatch by decide),
    dif_pos (show (1 : Fin S208x128.rank) ∈ dot_S16384x208_S208x128_S16384x128_1_0_0_1_n_n.rhsNonContracting by decide)]
  rfl

/-- The first layer's contraction at row `b`, feature `j`: the sum over the 208 embedding coordinates. -/
private theorem dot_h1_apply (x : FVec Ideal S16384x208 .f32) (w : FVec Ideal S208x128 .f32) (b : Fin 16384) (j : Fin 128) :
    Host.dotGeneral (F := Ideal) dot_S16384x208_S208x128_S16384x128_1_0_0_1_n_n none x w (ix2 b j)
      = ∑ k : Fin 208, x (ix2 b k) * w (ix2 k j) := by
  simp only [Host.dotGeneral]
  rw [Ideal.dotGeneral_apply, ← Equiv.sum_comp (ValueIdx.contrEquiv1 dot_S16384x208_S208x128_S16384x128_1_0_0_1_n_n 208 rfl rfl).symm]
  refine Finset.sum_congr rfl fun k _ => ?_
  have hk := ValueIdx.contrEquiv1_symm_val dot_S16384x208_S208x128_S16384x128_1_0_0_1_n_n 208 rfl rfl k
  have el : dot_S16384x208_S208x128_S16384x128_1_0_0_1_n_n.lhsIdx (ix2 b j) ((ValueIdx.contrEquiv1 dot_S16384x208_S208x128_S16384x128_1_0_0_1_n_n 208 rfl rfl).symm k) = ix2 b k :=
    funext fun a => Fin.ext (by
      match a with
      | ⟨0, _⟩ => exact lhs0_h1 _ _
      | ⟨1, _⟩ => exact (lhs1_h1 _ _).trans hk)
  have er : dot_S16384x208_S208x128_S16384x128_1_0_0_1_n_n.rhsIdx (ix2 b j) ((ValueIdx.contrEquiv1 dot_S16384x208_S208x128_S16384x128_1_0_0_1_n_n 208 rfl rfl).symm k) = ix2 k j :=
    funext fun a => Fin.ext (by
      match a with
      | ⟨0, _⟩ => exact (rhs0_h1 _ _).trans hk
      | ⟨1, _⟩ => exact rhs1_h1 _ _)
  rw [el, er]

/-- The row term, one number per row, stretched along the 208 embedding coordinates reads the row's number. -/
private theorem bcast_rowterm (v : FVec Ideal S16384x1 .f32) (b : Fin 16384) (k : Fin 208) :
    broadcastInDim S16384x208 ![0, 1] bcast_S16384x1_S16384x208_0_1 v (ix2 b k) = v (ix2 b 0) :=
  broadcastInDim_apply _ _ v (ix2 b k) (ix2 b 0) (fun a => by
    match a with
    | ⟨0, _⟩ => rfl
    | ⟨1, _⟩ => rfl)

/-- A one-row array stretched along the rows reads its row at the feature (width 208). -/
private theorem bcast_rows208 (v : FVec Ideal S1x208 .f32) (b : Fin 16384) (k : Fin 208) :
    broadcastInDim S16384x208 ![0, 1] bcast_S1x208_S16384x208_0_1 v (ix2 b k) = v (ix2 0 k) :=
  broadcastInDim_apply _ _ v (ix2 b k) (ix2 0 k) (fun a => by
    match a with
    | ⟨0, _⟩ => rfl
    | ⟨1, _⟩ => rfl)

/-- The dense bias placed as the one row of a one-row array reads the vector at the feature (width 208). -/
private theorem bcast_vec208 (v : FVec Ideal S208 .f32) (r : Fin 1) (k : Fin 208) :
    broadcastInDim S1x208 ![1] bcast_S208_S1x208_1 v (ix2 r k) = v (ix1 k) :=
  broadcastInDim_apply _ _ v (ix2 r k) (ix1 k) (fun a => by
    match a with
    | ⟨0, _⟩ => rfl)

/-- A one-row array stretched along the rows reads its row at the feature (width 128). -/
private theorem bcast_rows128 (v : FVec Ideal S1x128 .f32) (b : Fin 16384) (k : Fin 128) :
    broadcastInDim S16384x128 ![0, 1] bcast_S1x128_S16384x128_0_1 v (ix2 b k) = v (ix2 0 k) :=
  broadcastInDim_apply _ _ v (ix2 b k) (ix2 0 k) (fun a => by
    match a with
    | ⟨0, _⟩ => rfl
    | ⟨1, _⟩ => rfl)

/-- The layer bias placed as the one row of a one-row array reads the vector at the feature (width 128). -/
private theorem bcast_vec128 (v : FVec Ideal S128 .f32) (r : Fin 1) (k : Fin 128) :
    broadcastInDim S1x128 ![1] bcast_S128_S1x128_1 v (ix2 r k) = v (ix1 k) :=
  broadcastInDim_apply _ _ v (ix2 r k) (ix1 k) (fun a => by
    match a with
    | ⟨0, _⟩ => rfl)

theorem hpre_apply (A : FVec Ideal S16384x1 .f32) (O : FVec Ideal S16384x208 .f32) (D : FVec Ideal S16384x16 .f32)
    (wdl : FVec Ideal S16x208 .f32) (bdl : FVec Ideal S208 .f32) (w1 : FVec Ideal S208x128 .f32) (b1 : FVec Ideal S128 .f32)
    (b : Fin 16384) (j : Fin 128) :
    hpre A O D wdl bdl w1 b1 (ix2 b j)
      = Cert.Spec.S1 (fun b => A (ix2 b 0)) (fun b k => O (ix2 b k)) (fun b d => D (ix2 b d)) (fun d k => wdl (ix2 d k))
          (fun k => bdl (ix1 k)) (fun k j => w1 (ix2 k j)) (fun j => b1 (ix1 j)) b j := by
  unfold hpre Cert.Spec.S1
  rw [addf_apply, dot_h1_apply, bcast_rows128, bcast_vec128]
  refine congrArg (· + b1 (ix1 j)) (Finset.sum_congr rfl fun k _ => congrArg (· * w1 (ix2 k j)) ?_)
  -- the first layer's input at (b, k): row term + (embedding + rectified dense image)
  rw [addf_apply, addf_apply, maximumf_apply, addf_apply, bcast_rowterm, dot_dl_apply, bcast_rows208, bcast_vec208]
  rfl

end Cert.ReferenceIdeal.RStage

end
-- ==== Proof.RStage2.lean ====
/-
  The reference's second layer read at row `b`, feature `j`.
-/
import proofs.«104220_j67989332296027_1_alg».proof.Proof.RefStages
import proofs.«104220_j67989332296027_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RStage

open Cert.ReferenceIdeal Cert.ReferenceIdeal.Gen Cert.ReferenceIdeal.RefStages Idealize.ShloMosaic Idealize.ShloMosaic.ValueIdx

/-- The left operand's row coordinate is the result's row. -/
private theorem lhs0_h2 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide),
    dif_pos (show (0 : Fin S16384x128.rank) ∈ dot_S16384x128_S128x64_S16384x64_1_0_0_1_n_n.lhsNonContracting by decide)]
  rfl

/-- The left operand's column coordinate is the contraction position. -/
private theorem lhs1_h2 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q

/-- The right operand's row coordinate is the contraction position. -/
private theorem rhs0_h2 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q

/-- The right operand's column coordinate is the result's column. -/
private theorem rhs1_h2 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide),
    dif_pos (show (1 : Fin S128x64.rank) ∈ dot_S16384x128_S128x64_S16384x64_1_0_0_1_n_n.rhsNonContracting by decide)]
  rfl

/-- The second layer's contraction at row `b`, feature `j`: the sum over the 128 first-layer features of activation times weight. -/
private theorem dot_h2_apply (x : FVec Ideal S16384x128 .f32) (w : FVec Ideal S128x64 .f32) (b : Fin 16384) (j : Fin 64) :
    Host.dotGeneral (F := Ideal) dot_S16384x128_S128x64_S16384x64_1_0_0_1_n_n none x w (ix2 b j)
      = ∑ k : Fin 128, x (ix2 b k) * w (ix2 k j) := by
  simp only [Host.dotGeneral]
  rw [Ideal.dotGeneral_apply, ← Equiv.sum_comp (ValueIdx.contrEquiv1 dot_S16384x128_S128x64_S16384x64_1_0_0_1_n_n 128 rfl rfl).symm]
  refine Finset.sum_congr rfl fun k _ => ?_
  have hk := ValueIdx.contrEquiv1_symm_val dot_S16384x128_S128x64_S16384x64_1_0_0_1_n_n 128 rfl rfl k
  have el : dot_S16384x128_S128x64_S16384x64_1_0_0_1_n_n.lhsIdx (ix2 b j) ((ValueIdx.contrEquiv1 dot_S16384x128_S128x64_S16384x64_1_0_0_1_n_n 128 rfl rfl).symm k) = ix2 b k :=
    funext fun a => Fin.ext (by
      match a with
      | ⟨0, _⟩ => exact lhs0_h2 _ _
      | ⟨1, _⟩ => exact (lhs1_h2 _ _).trans hk)
  have er : dot_S16384x128_S128x64_S16384x64_1_0_0_1_n_n.rhsIdx (ix2 b j) ((ValueIdx.contrEquiv1 dot_S16384x128_S128x64_S16384x64_1_0_0_1_n_n 128 rfl rfl).symm k) = ix2 k j :=
    funext fun a => Fin.ext (by
      match a with
      | ⟨0, _⟩ => exact (rhs0_h2 _ _).trans hk
      | ⟨1, _⟩ => exact rhs1_h2 _ _)
  rw [el, er]

/-- A one-row array stretched along the rows reads its row at the feature. -/
private theorem bcast_rows (v : FVec Ideal S1x128 .f32) (b : Fin 16384) (k : Fin 128) :
    broadcastInDim S16384x128 ![0, 1] bcast_S1x128_S16384x128_0_1 v (ix2 b k) = v (ix2 0 k) :=
  broadcastInDim_apply _ _ v (ix2 b k) (ix2 0 k) (fun a => by
    match a with
    | ⟨0, _⟩ => rfl
    | ⟨1, _⟩ => rfl)

/-- A vector placed as the one row of a one-row array reads the vector at the feature. -/
private theorem bcast_vec (v : FVec Ideal S128 .f32) (r : Fin 1) (k : Fin 128) :
    broadcastInDim S1x128 ![1] bcast_S128_S1x128_1 v (ix2 r k) = v (ix1 k) :=
  broadcastInDim_apply _ _ v (ix2 r k) (ix1 k) (fun a => by
    match a with
    | ⟨0, _⟩ => rfl)

/-- The bias vector placed as the one row of a one-row array reads the bias at the feature. -/
private theorem bcast_bias_vec (v : FVec Ideal S64 .f32) (r : Fin 1) (j : Fin 64) :
    broadcastInDim S1x64 ![1] bcast_S64_S1x64_1 v (ix2 r j) = v (ix1 j) :=
  broadcastInDim_apply _ _ v (ix2 r j) (ix1 j) (fun a => by
    match a with
    | ⟨0, _⟩ => rfl)

/-- The one-row bias stretched along the rows reads its row at the feature. -/
private theorem bcast_bias_rows (v : FVec Ideal S1x64 .f32) (b : Fin 16384) (j : Fin 64) :
    broadcastInDim S16384x64 ![0, 1] bcast_S1x64_S16384x64_0_1 v (ix2 b j) = v (ix2 0 j) :=
  broadcastInDim_apply _ _ v (ix2 b j) (ix2 0 j) (fun a => by
    match a with
    | ⟨0, _⟩ => rfl
    | ⟨1, _⟩ => rfl)

theorem h2pre_apply (X : FVec Ideal S16384x128 .f32) (mu var : FVec Ideal S1x128 .f32) (g be : FVec Ideal S128 .f32)
    (w2 : FVec Ideal S128x64 .f32) (b2 : FVec Ideal S64 .f32) (b : Fin 16384) (j : Fin 64) :
    h2pre X mu var g be w2 b2 (ix2 b j)
      = Cert.Spec.S2 (fun b k => X (ix2 b k)) (fun k => mu (ix2 0 k)) (fun k => var (ix2 0 k)) (fun k => g (ix1 k))
          (fun k => be (ix1 k)) (fun k j => w2 (ix2 k j)) (fun j => b2 (ix1 j)) b j := by
  unfold h2pre Cert.Spec.S2
  rw [addf_apply, dot_h2_apply, bcast_bias_rows, bcast_bias_vec]
  refine congrArg (· + b2 (ix1 j)) (Finset.sum_congr rfl fun k _ => congrArg (· * w2 (ix2 k j)) ?_)
  -- the normalised, scaled, shifted and rectified activation at (b, k)
  rw [maximumf_apply, addf_apply, mulf_apply, mulf_apply, subf_apply,
    bcast_rows, bcast_rows, bcast_rows, bcast_rows, bcast_vec, bcast_vec]
  rfl

end Cert.ReferenceIdeal.RStage

end
-- ==== Proof.RStage3.lean ====
/-
  The reference's output layer read at row `b`.
-/
import proofs.«104220_j67989332296027_1_alg».proof.Proof.RefStages
import proofs.«104220_j67989332296027_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RStage

open Cert.ReferenceIdeal Cert.ReferenceIdeal.Gen Cert.ReferenceIdeal.RefStages Idealize.ShloMosaic Idealize.ShloMosaic.ValueIdx

/-- The left operand's row coordinate is the result's row. -/
private theorem lhs0_out (i : S16384x1.Idx) (q : dot_S16384x64_S64x1_S16384x1_1_0_0_1_n_n.contr.Idx) :
    (dot_S16384x64_S64x1_S16384x1_1_0_0_1_n_n.lhsIdx i q 0).val = (i 0).val := by
  unfold DotDims.lhsIdx
  rw [dif_neg (show ¬(0 : Fin S16384x64.rank) ∈ dot_S16384x64_S64x1_S16384x1_1_0_0_1_n_n.lhsBatch by decide),
    dif_pos (show (0 : Fin S16384x64.rank) ∈ dot_S16384x64_S64x1_S16384x1_1_0_0_1_n_n.lhsNonContracting by decide)]
  rfl

/-- The left operand's column coordinate is the contraction position. -/
private theorem lhs1_out (i : S16384x1.Idx) (q : dot_S16384x64_S64x1_S16384x1_1_0_0_1_n_n.contr.Idx) :
    (dot_S16384x64_S64x1_S16384x1_1_0_0_1_n_n.lhsIdx i q 1).val = (q ⟨0, by decide⟩).val :=
  dot_S16384x64_S64x1_S16384x1_1_0_0_1_n_n.lhsIdx_val_of_single rfl i q

/-- The right operand's row coordinate is the contraction position. -/
private theorem rhs0_out (i : S16384x1.Idx) (q : dot_S16384x64_S64x1_S16384x1_1_0_0_1_n_n.contr.Idx) :
    (dot_S16384x64_S64x1_S16384x1_1_0_0_1_n_n.rhsIdx i q 0).val = (q ⟨0, by decide⟩).val :=
  dot_S16384x64_S64x1_S16384x1_1_0_0_1_n_n.rhsIdx_val_of_single rfl i q

/-- The right operand's column coordinate is the result's column. -/
private theorem rhs1_out (i : S16384x1.Idx) (q : dot_S16384x64_S64x1_S16384x1_1_0_0_1_n_n.contr.Idx) :
    (dot_S16384x64_S64x1_S16384x1_1_0_0_1_n_n.rhsIdx i q 1).val = (i 1).val := by
  unfold DotDims.rhsIdx
  rw [dif_neg (show ¬(1 : Fin S64x1.rank) ∈ dot_S16384x64_S64x1_S16384x1_1_0_0_1_n_n.rhsBatch by decide),
    dif_pos (show (1 : Fin S64x1.rank) ∈ dot_S16384x64_S64x1_S16384x1_1_0_0_1_n_n.rhsNonContracting by decide)]
  rfl

/-- The output layer's contraction at row `b`: the sum over the 64 features of activation times weight. -/
private theorem dot_out_apply (x : FVec Ideal S16384x64 .f32) (w : FVec Ideal S64x1 .f32) (b : Fin 16384) :
    Host.dotGeneral (F := Ideal) dot_S16384x64_S64x1_S16384x1_1_0_0_1_n_n none x w (ix2 b 0)
      = ∑ k : Fin 64, x (ix2 b k) * w (ix2 k 0) := by
  simp only [Host.dotGeneral]
  rw [Ideal.dotGeneral_apply, ← Equiv.sum_comp (ValueIdx.contrEquiv1 dot_S16384x64_S64x1_S16384x1_1_0_0_1_n_n 64 rfl rfl).symm]
  refine Finset.sum_congr rfl fun k _ => ?_
  have hk := ValueIdx.contrEquiv1_symm_val dot_S16384x64_S64x1_S16384x1_1_0_0_1_n_n 64 rfl rfl k
  have el : dot_S16384x64_S64x1_S16384x1_1_0_0_1_n_n.lhsIdx (ix2 b 0) ((ValueIdx.contrEquiv1 dot_S16384x64_S64x1_S16384x1_1_0_0_1_n_n 64 rfl rfl).symm k) = ix2 b k :=
    funext fun a => Fin.ext (by
      match a with
      | ⟨0, _⟩ => exact lhs0_out _ _
      | ⟨1, _⟩ => exact (lhs1_out _ _).trans hk)
  have er : dot_S16384x64_S64x1_S16384x1_1_0_0_1_n_n.rhsIdx (ix2 b 0) ((ValueIdx.contrEquiv1 dot_S16384x64_S64x1_S16384x1_1_0_0_1_n_n 64 rfl rfl).symm k) = ix2 k 0 :=
    funext fun a => Fin.ext (by
      match a with
      | ⟨0, _⟩ => exact (rhs0_out _ _).trans hk
      | ⟨1, _⟩ => exact rhs1_out _ _)
  rw [el, er]

/-- A one-row array stretched along the rows reads its row at the feature. -/
private theorem bcast_rows (v : FVec Ideal S1x64 .f32) (b : Fin 16384) (k : Fin 64) :
    broadcastInDim S16384x64 ![0, 1] bcast_S1x64_S16384x64_0_1 v (ix2 b k) = v (ix2 0 k) :=
  broadcastInDim_apply _ _ v (ix2 b k) (ix2 0 k) (fun a => by
    match a with
    | ⟨0, _⟩ => rfl
    | ⟨1, _⟩ => rfl)

/-- A vector placed as the one row of a one-row array reads the vector at the feature. -/
private theorem bcast_vec (v : FVec Ideal S64 .f32) (r : Fin 1) (k : Fin 64) :
    broadcastInDim S1x64 ![1] bcast_S64_S1x64_1 v (ix2 r k) = v (ix1 k) :=
  broadcastInDim_apply _ _ v (ix2 r k) (ix1 k) (fun a => by
    match a with
    | ⟨0, _⟩ => rfl)

/-- The one-element bias placed as a 1 × 1 array reads the bias. -/
private theorem bcast_bias_vec (v : FVec Ideal S1 .f32) (r c : Fin 1) :
    broadcastInDim S1x1 ![1] bcast_S1_S1x1_1 v (ix2 r c) = v (ix1 0) :=
  broadcastInDim_apply _ _ v (ix2 r c) (ix1 0) (fun a => by
    match a with
    | ⟨0, _⟩ => rfl)

/-- The 1 × 1 bias stretched along the rows reads its one element. -/
private theorem bcast_bias_rows (v : FVec Ideal S1x1 .f32) (b : Fin 16384) (c : Fin 1) :
    broadcastInDim S16384x1 ![0, 1] bcast_S1x1_S16384x1_0_1 v (ix2 b c) = v (ix2 0 0) :=
  broadcastInDim_apply _ _ v (ix2 b c) (ix2 0 0) (fun a => by
    match a with
    | ⟨0, _⟩ => rfl
    | ⟨1, _⟩ => rfl)

theorem out_apply (X : FVec Ideal S16384x64 .f32) (mu var : FVec Ideal S1x64 .f32) (g be : FVec Ideal S64 .f32)
    (wout : FVec Ideal S64x1 .f32) (bout : FVec Ideal S1 .f32) (b : Fin 16384) :
    out X mu var g be wout bout (ix2 b 0)
      = Cert.Spec.S3 (fun b j => X (ix2 b j)) (fun j => mu (ix2 0 j)) (fun j => var (ix2 0 j)) (fun j => g (ix1 j))
          (fun j => be (ix1 j)) (fun j => wout (ix2 j 0)) (bout (ix1 0)) b := by
  unfold out Cert.Spec.S3
  rw [addf_apply, dot_out_apply, bcast_bias_rows, bcast_bias_vec]
  refine congrArg (· + bout (ix1 0)) (Finset.sum_congr rfl fun k _ => congrArg (· * wout (ix2 k 0)) ?_)
  -- the normalised, scaled, shifted and rectified activation at (b, k)
  rw [maximumf_apply, addf_apply, mulf_apply, mulf_apply, subf_apply,
    bcast_rows, bcast_rows, bcast_rows, bcast_rows, bcast_vec, bcast_vec]
  rfl

end Cert.ReferenceIdeal.RStage

end
-- ==== Proof.RKeepP.lean ====
/- What the reference's stretches leave untouched, as the bridge needs it: the first layer's parameters through the
   first stretch, the second layer's through the first three, the output layer's through the first five; and each
   statistics stretch leaves the pre-activations it reads.
-/
import proofs.«104220_j67989332296027_1_alg».proof.Proof.RefRun

set_option maxRecDepth 16384
set_option maxHeartbeats 1600000

noncomputable section

namespace Cert.ReferenceIdeal.RKeepP

open Cert.ReferenceIdeal Cert.ReferenceIdeal.Gen Cert.ReferenceIdeal.RefOps Cert.ReferenceIdeal.RefRun
  Idealize.ShloMosaic Idealize.ShloMosaic.TcCoe Idealize.SL.Sem Idealize.ShloMosaic.StableHlo

variable {F : FTy → Type} [FloatOps F]

theorem keep_a_arg1 (V : Valuation τ sig (Elt F)) :
    after ops_a V (Proc.devRef .tc main_arg1) = V (Proc.devRef .tc main_arg1) := by
  after_results_simp

theorem keep_a_arg6 (V : Valuation τ sig (Elt F)) :
    after ops_a V (Proc.devRef .tc main_arg6) = V (Proc.devRef .tc main_arg6) := by
  after_results_simp

theorem keep_a_arg7 (V : Valuation τ sig (Elt F)) :
    after ops_a V (Proc.devRef .tc main_arg7) = V (Proc.devRef .tc main_arg7) := by
  after_results_simp

theorem keep_a_arg8 (V : Valuation τ sig (Elt F)) :
    after ops_a V (Proc.devRef .tc main_arg8) = V (Proc.devRef .tc main_arg8) := by
  after_results_simp

theorem keep_a_arg9 (V : Valuation τ sig (Elt F)) :
    after ops_a V (Proc.devRef .tc main_arg9) = V (Proc.devRef .tc main_arg9) := by
  after_results_simp

theorem keep_c1_arg10 (V : Valuation τ sig (Elt F)) :
    after ops_c1 (after ops_b (after ops_a V)) (Proc.devRef .tc main_arg10) = V (Proc.devRef .tc main_arg10) := by
  after_results_simp

theorem keep_c1_arg11 (V : Valuation τ sig (Elt F)) :
    after ops_c1 (after ops_b (after ops_a V)) (Proc.devRef .tc main_arg11) = V (Proc.devRef .tc main_arg11) := by
  after_results_simp

theorem keep_c1_arg12 (V : Valuation τ sig (Elt F)) :
    after ops_c1 (after ops_b (after ops_a V)) (Proc.devRef .tc main_arg12) = V (Proc.devRef .tc main_arg12) := by
  after_results_simp

theorem keep_c1_arg13 (V : Valuation τ sig (Elt F)) :
    after ops_c1 (after ops_b (after ops_a V)) (Proc.devRef .tc main_arg13) = V (Proc.devRef .tc main_arg13) := by
  after_results_simp

theorem keep_d1_arg14 (V : Valuation τ sig (Elt F)) :
    after ops_d1 (after ops_c2 (after ops_c1 (after ops_b (after ops_a V)))) (Proc.devRef .tc main_arg14) = V (Proc.devRef .tc main_arg14) := by
  after_results_simp

theorem keep_d1_arg15 (V : Valuation τ sig (Elt F)) :
    after ops_d1 (after ops_c2 (after ops_c1 (after ops_b (after ops_a V)))) (Proc.devRef .tc main_arg15) = V (Proc.devRef .tc main_arg15) := by
  after_results_simp

theorem keep_d1_arg16 (V : Valuation τ sig (Elt F)) :
    after ops_d1 (after ops_c2 (after ops_c1 (after ops_b (after ops_a V)))) (Proc.devRef .tc main_arg16) = V (Proc.devRef .tc main_arg16) := by
  after_results_simp

theorem keep_d1_arg17 (V : Valuation τ sig (Elt F)) :
    after ops_d1 (after ops_c2 (after ops_c1 (after ops_b (after ops_a V)))) (Proc.devRef .tc main_arg17) = V (Proc.devRef .tc main_arg17) := by
  after_results_simp

theorem keep_c1_v61 (W : Valuation τ sig (Elt F)) : after ops_c1 W (Proc.devRef .tc main_v61) = W (Proc.devRef .tc main_v61) := by
  after_results_simp

theorem keep_d1_v84 (W : Valuation τ sig (Elt F)) : after ops_d1 W (Proc.devRef .tc main_v84) = W (Proc.devRef .tc main_v84) := by
  after_results_simp

end Cert.ReferenceIdeal.RKeepP

end
-- ==== Proof.Bridge.lean ====
/-
  THE BRIDGE between the two programs, at the ideal values, from launch memories that agree on the arguments.
  Layer by layer: the kernel program's pallas_call leaves its output array at the specification's layer of the arrays
  the region finds; the reference's stretch leaves its buffer at the same layer of its own buffers; and the inputs of
  the two agree — the previous layer's arrays by the previous step, the batch statistics because both programs
  compute them from those arrays with the same host operations, the row term because the two orders of adding its
  three summands agree (addition of extended reals is associative), the parameters because they are the arguments.
-/
import proofs.«104220_j67989332296027_1_alg».proof.Proof.KPipe1
import proofs.«104220_j67989332296027_1_alg».proof.Proof.KPipe2
import proofs.«104220_j67989332296027_1_alg».proof.Proof.KPipe3
import proofs.«104220_j67989332296027_1_alg».proof.Proof.KChain
import proofs.«104220_j67989332296027_1_alg».proof.Proof.Shared
import proofs.«104220_j67989332296027_1_alg».proof.Proof.RVal
import proofs.«104220_j67989332296027_1_alg».proof.Proof.RStage1
import proofs.«104220_j67989332296027_1_alg».proof.Proof.RStage2
import proofs.«104220_j67989332296027_1_alg».proof.Proof.RStage3
import proofs.«104220_j67989332296027_1_alg».proof.Proof.RKeepP

set_option maxRecDepth 16384

noncomputable section

namespace Cert.Bridge

open Idealize.ShloMosaic Idealize.ShloMosaic.TcCoe Idealize.SL.Sem Idealize.ShloMosaic.StableHlo Idealize.ShloMosaic.ValueIdx
open Cert.ReferenceIdeal.RefOps

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's buffers at launch, as a valuation. -/
abbrev Vr : Cert.ReferenceIdeal.RVal.RV := launchContents m' c

/-- The two launch memories agree on the eighteen arguments (the equivalence claim's hypothesis, on core `c`). -/
structure Agrees : Prop where
  a0 : Cert.KernelIdeal.Gen.W0 m ρ c (Proc.devRef .tc Cert.KernelIdeal.main_arg0) = Vr m' c (Proc.devRef .tc Cert.ReferenceIdeal.main_arg0)
  a1 : Cert.KernelIdeal.Gen.W0 m ρ c (Proc.devRef .tc Cert.KernelIdeal.main_arg1) = Vr m' c (Proc.devRef .tc Cert.ReferenceIdeal.main_arg1)
  a2 : Cert.KernelIdeal.Gen.W0 m ρ c (Proc.devRef .tc Cert.KernelIdeal.main_arg2) = Vr m' c (Proc.devRef .tc Cert.ReferenceIdeal.main_arg2)
  a3 : Cert.KernelIdeal.Gen.W0 m ρ c (Proc.devRef .tc Cert.KernelIdeal.main_arg3) = Vr m' c (Proc.devRef .tc Cert.ReferenceIdeal.main_arg3)
  a4 : Cert.KernelIdeal.Gen.W0 m ρ c (Proc.devRef .tc Cert.KernelIdeal.main_arg4) = Vr m' c (Proc.devRef .tc Cert.ReferenceIdeal.main_arg4)
  a5 : Cert.KernelIdeal.Gen.W0 m ρ c (Proc.devRef .tc Cert.KernelIdeal.main_arg5) = Vr m' c (Proc.devRef .tc Cert.ReferenceIdeal.main_arg5)
  a6 : Cert.KernelIdeal.Gen.W0 m ρ c (Proc.devRef .tc Cert.KernelIdeal.main_arg6) = Vr m' c (Proc.devRef .tc Cert.ReferenceIdeal.main_arg6)
  a7 : Cert.KernelIdeal.Gen.W0 m ρ c (Proc.devRef .tc Cert.KernelIdeal.main_arg7) = Vr m' c (Proc.devRef .tc Cert.ReferenceIdeal.main_arg7)
  a8 : Cert.KernelIdeal.Gen.W0 m ρ c (Proc.devRef .tc Cert.KernelIdeal.main_arg8) = Vr m' c (Proc.devRef .tc Cert.ReferenceIdeal.main_arg8)
  a9 : Cert.KernelIdeal.Gen.W0 m ρ c (Proc.devRef .tc Cert.KernelIdeal.main_arg9) = Vr m' c (Proc.devRef .tc Cert.ReferenceIdeal.main_arg9)
  a10 : Cert.KernelIdeal.Gen.W0 m ρ c (Proc.devRef .tc Cert.KernelIdeal.main_arg10) = Vr m' c (Proc.devRef .tc Cert.ReferenceIdeal.main_arg10)
  a11 : Cert.KernelIdeal.Gen.W0 m ρ c (Proc.devRef .tc Cert.KernelIdeal.main_arg11) = Vr m' c (Proc.devRef .tc Cert.ReferenceIdeal.main_arg11)
  a12 : Cert.KernelIdeal.Gen.W0 m ρ c (Proc.devRef .tc Cert.KernelIdeal.main_arg12) = Vr m' c (Proc.devRef .tc Cert.ReferenceIdeal.main_arg12)
  a13 : Cert.KernelIdeal.Gen.W0 m ρ c (Proc.devRef .tc Cert.KernelIdeal.main_arg13) = Vr m' c (Proc.devRef .tc Cert.ReferenceIdeal.main_arg13)
  a14 : Cert.KernelIdeal.Gen.W0 m ρ c (Proc.devRef .tc Cert.KernelIdeal.main_arg14) = Vr m' c (Proc.devRef .tc Cert.ReferenceIdeal.main_arg14)
  a15 : Cert.KernelIdeal.Gen.W0 m ρ c (Proc.devRef .tc Cert.KernelIdeal.main_arg15) = Vr m' c (Proc.devRef .tc Cert.ReferenceIdeal.main_arg15)
  a16 : Cert.KernelIdeal.Gen.W0 m ρ c (Proc.devRef .tc Cert.KernelIdeal.main_arg16) = Vr m' c (Proc.devRef .tc Cert.ReferenceIdeal.main_arg16)
  a17 : Cert.KernelIdeal.Gen.W0 m ρ c (Proc.devRef .tc Cert.KernelIdeal.main_arg17) = Vr m' c (Proc.devRef .tc Cert.ReferenceIdeal.main_arg17)

variable {m ρ m' c}

/-- THE FIRST LAYER: the first pallas_call's output array is the reference's first pre-activation. -/
theorem layer1 (h : Agrees m ρ m' c) :
    Cert.KernelIdeal.Gen.W2 m ρ c (Proc.devRef .tc Cert.KernelIdeal.main_v52)
      = after ops_b (after ops_a (Vr m' c)) (Proc.devRef .tc Cert.ReferenceIdeal.main_v61) := by
  rw [Cert.KernelIdeal.KChain.at2_v52, Cert.KernelIdeal.KPipe1.final]
  funext i
  obtain ⟨b, j, rfl⟩ : ∃ (b : Fin 16384) (j : Fin 128), i = ix2 b j := ⟨i 0, i 1, eq_ix2 i⟩
  rw [Cert.ReferenceIdeal.RVal.read1, Cert.ReferenceIdeal.RStage.hpre_apply]
  have hA : ∀ b : Fin 16384, Cert.KernelIdeal.Gen.V1 m ρ c Cert.KernelIdeal.main_v48 (ix2 b 0)
      = after ops_b (after ops_a (Vr m' c)) (Proc.devRef .tc Cert.ReferenceIdeal.main_v55) (ix2 b 0) := fun b =>
    congrFun ((Cert.Shared.rowterm_eq (Cert.KernelIdeal.Gen.W0 m ρ c) (Vr m' c) h.a0 h.a1 h.a2 h.a3 h.a4 h.a5).trans
      (congrFun (Cert.ReferenceIdeal.RefRun.after_append _ _ _) _)) (ix2 b 0)
  have hO : ∀ (b : Fin 16384) (k : Fin 208), Cert.KernelIdeal.Gen.V1 m ρ c Cert.KernelIdeal.main_v49 (ix2 b k)
      = after ops_b (after ops_a (Vr m' c)) (Proc.devRef .tc Cert.ReferenceIdeal.main_v48) (ix2 b k) := fun b k =>
    congrFun ((Cert.Shared.emb_eq (Cert.KernelIdeal.Gen.W0 m ρ c) (Vr m' c) h.a0 h.a3).trans
      (congrFun (Cert.ReferenceIdeal.RefRun.after_append _ _ _) _)) (ix2 b k)
  have hD : ∀ (b : Fin 16384) (d : Fin 16), Cert.KernelIdeal.Gen.V1 m ρ c Cert.KernelIdeal.main_arg1 (ix2 b d)
      = after ops_a (Vr m' c) (Proc.devRef .tc Cert.ReferenceIdeal.main_arg1) (ix2 b d) := fun b d =>
    congrFun ((Cert.KernelIdeal.KChain.at1_arg1 m ρ c).trans (h.a1.trans (Cert.ReferenceIdeal.RKeepP.keep_a_arg1 _).symm)) (ix2 b d)
  have hW : ∀ (d : Fin 16) (k : Fin 208), Cert.KernelIdeal.Gen.V1 m ρ c Cert.KernelIdeal.main_arg6 (ix2 d k)
      = after ops_a (Vr m' c) (Proc.devRef .tc Cert.ReferenceIdeal.main_arg6) (ix2 d k) := fun d k =>
    congrFun ((Cert.KernelIdeal.KChain.at1_arg6 m ρ c).trans (h.a6.trans (Cert.ReferenceIdeal.RKeepP.keep_a_arg6 _).symm)) (ix2 d k)
  have hB : ∀ k : Fin 208, Cert.KernelIdeal.Gen.V1 m ρ c Cert.KernelIdeal.main_v50 (ix2 0 k)
      = after ops_a (Vr m' c) (Proc.devRef .tc Cert.ReferenceIdeal.main_arg7) (ix1 k) := fun k =>
    (Cert.KernelIdeal.KChain.at1_v50 m ρ c k).trans (congrFun (h.a7.trans (Cert.ReferenceIdeal.RKeepP.keep_a_arg7 _).symm) (ix1 k))
  have hW1 : ∀ (k : Fin 208) (j : Fin 128), Cert.KernelIdeal.Gen.V1 m ρ c Cert.KernelIdeal.main_arg8 (ix2 k j)
      = after ops_a (Vr m' c) (Proc.devRef .tc Cert.ReferenceIdeal.main_arg8) (ix2 k j) := fun k j =>
    congrFun ((Cert.KernelIdeal.KChain.at1_arg8 m ρ c).trans (h.a8.trans (Cert.ReferenceIdeal.RKeepP.keep_a_arg8 _).symm)) (ix2 k j)
  have hB1 : ∀ j : Fin 128, Cert.KernelIdeal.Gen.V1 m ρ c Cert.KernelIdeal.main_v51 (ix2 0 j)
      = after ops_a (Vr m' c) (Proc.devRef .tc Cert.ReferenceIdeal.main_arg9) (ix1 j) := fun j =>
    (Cert.KernelIdeal.KChain.at1_v51 m ρ c j).trans (congrFun (h.a9.trans (Cert.ReferenceIdeal.RKeepP.keep_a_arg9 _).symm) (ix1 j))
  unfold Cert.KernelIdeal.KPipe1.G
  simp only [hA, hO, hD, hW, hB, hW1, hB1]

/-- THE SECOND LAYER: the second pallas_call's output array is the reference's second pre-activation. The first
    layer's arrays agree (`layer1`), so do the batch statistics both programs compute from them with the same
    operations, and the parameters are the arguments. -/
theorem layer2 (h : Agrees m ρ m' c) :
    Cert.KernelIdeal.Gen.W6 m ρ c (Proc.devRef .tc Cert.KernelIdeal.main_v61)
      = after ops_c2 (after ops_c1 (after ops_b (after ops_a (Vr m' c)))) (Proc.devRef .tc Cert.ReferenceIdeal.main_v84) := by
  have E1 := layer1 h
  rw [Cert.KernelIdeal.KChain.at6_v61, Cert.KernelIdeal.KPipe2.final]
  funext i
  obtain ⟨b, j, rfl⟩ : ∃ (b : Fin 16384) (j : Fin 64), i = ix2 b j := ⟨i 0, i 1, eq_ix2 i⟩
  rw [Cert.ReferenceIdeal.RVal.read2, Cert.ReferenceIdeal.RStage.h2pre_apply]
  have hX : ∀ (b : Fin 16384) (k : Fin 128), Cert.KernelIdeal.Gen.V5 m ρ c Cert.KernelIdeal.main_v52 (ix2 b k)
      = (after ops_c1 (after ops_b (after ops_a (Vr m' c)))) (Proc.devRef .tc Cert.ReferenceIdeal.main_v61) (ix2 b k) := fun b k =>
    congrFun ((Cert.KernelIdeal.KChain.at5_v52 m ρ c).trans (E1.trans (Cert.ReferenceIdeal.RKeepP.keep_c1_v61 _).symm)) (ix2 b k)
  have hmu : ∀ k : Fin 128, Cert.KernelIdeal.Gen.V5 m ρ c Cert.KernelIdeal.main_v56 (ix2 0 k)
      = (after ops_c1 (after ops_b (after ops_a (Vr m' c)))) (Proc.devRef .tc Cert.ReferenceIdeal.main_v65) (ix2 0 k) := fun k =>
    congrFun ((Cert.KernelIdeal.KChain.at5_v56 m ρ c).trans (Cert.Shared.mean1_eq (Cert.KernelIdeal.Gen.W2 m ρ c) (after ops_b (after ops_a (Vr m' c))) E1)) (ix2 0 k)
  have hvar : ∀ k : Fin 128, Cert.KernelIdeal.Gen.V5 m ρ c Cert.KernelIdeal.main_v57 (ix2 0 k)
      = (after ops_c1 (after ops_b (after ops_a (Vr m' c)))) (Proc.devRef .tc Cert.ReferenceIdeal.main_v66) (ix2 0 k) := fun k =>
    congrFun ((Cert.KernelIdeal.KChain.at5_v57 m ρ c).trans (Cert.Shared.var1_eq (Cert.KernelIdeal.Gen.W2 m ρ c) (after ops_b (after ops_a (Vr m' c))) E1)) (ix2 0 k)
  have hg : ∀ k : Fin 128, Cert.KernelIdeal.Gen.V5 m ρ c Cert.KernelIdeal.main_v58 (ix2 0 k)
      = (after ops_c1 (after ops_b (after ops_a (Vr m' c)))) (Proc.devRef .tc Cert.ReferenceIdeal.main_arg10) (ix1 k) := fun k =>
    (Cert.KernelIdeal.KChain.at5_v58 m ρ c k).trans (congrFun (h.a10.trans (Cert.ReferenceIdeal.RKeepP.keep_c1_arg10 _).symm) (ix1 k))
  have hbe : ∀ k : Fin 128, Cert.KernelIdeal.Gen.V5 m ρ c Cert.KernelIdeal.main_v59 (ix2 0 k)
      = (after ops_c1 (after ops_b (after ops_a (Vr m' c)))) (Proc.devRef .tc Cert.ReferenceIdeal.main_arg11) (ix1 k) := fun k =>
    (Cert.KernelIdeal.KChain.at5_v59 m ρ c k).trans (congrFun (h.a11.trans (Cert.ReferenceIdeal.RKeepP.keep_c1_arg11 _).symm) (ix1 k))
  have hw2 : ∀ (k : Fin 128) (j : Fin 64), Cert.KernelIdeal.Gen.V5 m ρ c Cert.KernelIdeal.main_arg12 (ix2 k j)
      = (after ops_c1 (after ops_b (after ops_a (Vr m' c)))) (Proc.devRef .tc Cert.ReferenceIdeal.main_arg12) (ix2 k j) := fun k j =>
    congrFun ((Cert.KernelIdeal.KChain.at5_arg12 m ρ c).trans (h.a12.trans (Cert.ReferenceIdeal.RKeepP.keep_c1_arg12 _).symm)) (ix2 k j)
  have hb2 : ∀ j : Fin 64, Cert.KernelIdeal.Gen.V5 m ρ c Cert.KernelIdeal.main_v60 (ix2 0 j)
      = (after ops_c1 (after ops_b (after ops_a (Vr m' c)))) (Proc.devRef .tc Cert.ReferenceIdeal.main_arg13) (ix1 j) := fun j =>
    (Cert.KernelIdeal.KChain.at5_v60 m ρ c j).trans (congrFun (h.a13.trans (Cert.ReferenceIdeal.RKeepP.keep_c1_arg13 _).symm) (ix1 j))
  unfold Cert.KernelIdeal.KPipe2.G
  simp only [hX, hmu, hvar, hg, hbe, hw2, hb2]

/-- THE OUTPUT LAYER: the third pallas_call's output array is the reference's result. -/
theorem layer3 (h : Agrees m ρ m' c) :
    Cert.KernelIdeal.Gen.W10 m ρ c (Proc.devRef .tc Cert.KernelIdeal.main_v72)
      = after ops_e (after ops_d2 (after ops_d1 (after ops_c2 (after ops_c1 (after ops_b (after ops_a (Vr m' c))))))) (Proc.devRef .tc Cert.ReferenceIdeal.main_v107) := by
  have E2 := layer2 h
  rw [Cert.KernelIdeal.KChain.at10_v72, Cert.KernelIdeal.KPipe3.final]
  funext i
  obtain ⟨b, q, rfl⟩ : ∃ (b : Fin 16384) (q : Fin 1), i = ix2 b q := ⟨i 0, i 1, eq_ix2 i⟩
  obtain rfl : q = 0 := Subsingleton.elim _ _
  rw [Cert.ReferenceIdeal.RVal.read3, Cert.ReferenceIdeal.RStage.out_apply]
  have hX : ∀ (b : Fin 16384) (j : Fin 64), Cert.KernelIdeal.Gen.V9 m ρ c Cert.KernelIdeal.main_v61 (ix2 b j)
      = (after ops_d1 (after ops_c2 (after ops_c1 (after ops_b (after ops_a (Vr m' c)))))) (Proc.devRef .tc Cert.ReferenceIdeal.main_v84) (ix2 b j) := fun b j =>
    congrFun ((Cert.KernelIdeal.KChain.at9_v61 m ρ c).trans (E2.trans (Cert.ReferenceIdeal.RKeepP.keep_d1_v84 _).symm)) (ix2 b j)
  have hmu : ∀ j : Fin 64, Cert.KernelIdeal.Gen.V9 m ρ c Cert.KernelIdeal.main_v65 (ix2 0 j)
      = (after ops_d1 (after ops_c2 (after ops_c1 (after ops_b (after ops_a (Vr m' c)))))) (Proc.devRef .tc Cert.ReferenceIdeal.main_v88) (ix2 0 j) := fun j =>
    congrFun ((Cert.KernelIdeal.KChain.at9_v65 m ρ c).trans (Cert.Shared.mean2_eq (Cert.KernelIdeal.Gen.W6 m ρ c) (after ops_c2 (after ops_c1 (after ops_b (after ops_a (Vr m' c))))) E2)) (ix2 0 j)
  have hvar : ∀ j : Fin 64, Cert.KernelIdeal.Gen.V9 m ρ c Cert.KernelIdeal.main_v66 (ix2 0 j)
      = (after ops_d1 (after ops_c2 (after ops_c1 (after ops_b (after ops_a (Vr m' c)))))) (Proc.devRef .tc Cert.ReferenceIdeal.main_v89) (ix2 0 j) := fun j =>
    congrFun ((Cert.KernelIdeal.KChain.at9_v66 m ρ c).trans (Cert.Shared.var2_eq (Cert.KernelIdeal.Gen.W6 m ρ c) (after ops_c2 (after ops_c1 (after ops_b (after ops_a (Vr m' c))))) E2)) (ix2 0 j)
  have hg : ∀ j : Fin 64, Cert.KernelIdeal.Gen.V9 m ρ c Cert.KernelIdeal.main_v67 (ix2 0 j)
      = (after ops_d1 (after ops_c2 (after ops_c1 (after ops_b (after ops_a (Vr m' c)))))) (Proc.devRef .tc Cert.ReferenceIdeal.main_arg14) (ix1 j) := fun j =>
    (Cert.KernelIdeal.KChain.at9_v67 m ρ c j).trans (congrFun (h.a14.trans (Cert.ReferenceIdeal.RKeepP.keep_d1_arg14 _).symm) (ix1 j))
  have hbe : ∀ j : Fin 64, Cert.KernelIdeal.Gen.V9 m ρ c Cert.KernelIdeal.main_v68 (ix2 0 j)
      = (after ops_d1 (after ops_c2 (after ops_c1 (after ops_b (after ops_a (Vr m' c)))))) (Proc.devRef .tc Cert.ReferenceIdeal.main_arg15) (ix1 j) := fun j =>
    (Cert.KernelIdeal.KChain.at9_v68 m ρ c j).trans (congrFun (h.a15.trans (Cert.ReferenceIdeal.RKeepP.keep_d1_arg15 _).symm) (ix1 j))
  have hwo : ∀ j : Fin 64, Cert.KernelIdeal.Gen.V9 m ρ c Cert.KernelIdeal.main_v70 (ix2 0 j)
      = (after ops_d1 (after ops_c2 (after ops_c1 (after ops_b (after ops_a (Vr m' c)))))) (Proc.devRef .tc Cert.ReferenceIdeal.main_arg16) (ix2 j 0) := fun j =>
    (Cert.KernelIdeal.KChain.at9_v70 m ρ c j).trans (congrFun (h.a16.trans (Cert.ReferenceIdeal.RKeepP.keep_d1_arg16 _).symm) (ix2 j 0))
  have hbo : Cert.KernelIdeal.Gen.V9 m ρ c Cert.KernelIdeal.main_v71 (ix2 0 0)
      = (after ops_d1 (after ops_c2 (after ops_c1 (after ops_b (after ops_a (Vr m' c)))))) (Proc.devRef .tc Cert.ReferenceIdeal.main_arg17) (ix1 0) :=
    (Cert.KernelIdeal.KChain.at9_v71 m ρ c).trans (congrFun (h.a17.trans (Cert.ReferenceIdeal.RKeepP.keep_d1_arg17 _).symm) (ix1 0))
  unfold Cert.KernelIdeal.KPipe3.G
  simp only [hX, hmu, hvar, hg, hbe, hwo, hbo]

/-- THE RESULT: what the kernel program's result buffer holds at the return is what the reference's holds. -/
theorem result_eq (h : Agrees m ρ m' c) :
    Cert.KernelIdeal.Gen.W10 m ρ c (Proc.devRef .tc Cert.KernelIdeal.main_v72)
      = after Cert.ReferenceIdeal.RefRun.ops (Vr m' c) (Proc.devRef .tc Cert.ReferenceIdeal.main_v107) := by
  rw [Cert.ReferenceIdeal.RefRun.after_ops]
  exact layer3 h

end Cert.Bridge

end
-- ==== Proof.lean ====
/-
  The certificate: a factorisation-machine-plus-MLP scorer in three pallas_calls (first layer; normalise-rectify and
  second layer; normalise-rectify and output layer, each over eight blocks of 2048 batch rows, the batch statistics
  computed on the host between them) against the plain jnp reference.

  At the ideal values both programs compute, for batch row `b`,
      h₁ = (a_b + (o_b + relu (d_b · W_dl + β_dl))) · W₁ + β₁,
      h₂ = relu (((h₁ − μ₁) · (σ₁² + ε)^(−1/2)) · γ₁ + δ₁) · W₂ + β₂,
      out = relu (((h₂ − μ₂) · (σ₂² + ε)^(−1/2)) · γ₂ + δ₂) · w_out + β_out,
  with `a_b` the row's first- and second-order factorisation-machine term, `o_b` its 208 embedding coordinates, `d_b`
  its dense features, and `μ, σ²` the batch mean and variance of the layer before. A change of float format is the
  identity there, a matrix product and a lane sum are plain sums, so the kernel's bf16 products are the reference's;
  the only algebra between the two is the association of three sums (extended reals add associatively), and the
  precondition is never opened.

  The frames of the two kernel programs are the generated ones. The reference is a straight line of host operations;
  its run is read back as the fold of its operations (RefRun), which gives its frame and its value. The kernel
  program's run is the generated launch over its ten segments with the last boundary's contents named (KerRun); the
  value of its result buffer is read through the three pipelines (KPipe1–3, over the payloads read at an index,
  KStage1–3) and the host stretches between them (KChain), and meets the reference's (RVal, RStage1–3) in Bridge.
  The idealisation pass rewrote nothing, so `preserves` is `True`.
-/
import proofs.«104220_j67989332296027_1_alg».proof.Defs
import proofs.«104220_j67989332296027_1_alg».proof.Proof.Gen.Kernel
import proofs.«104220_j67989332296027_1_alg».proof.Proof.Gen.Kernel.Frame
import proofs.«104220_j67989332296027_1_alg».proof.Proof.Gen.KernelIdeal
import proofs.«104220_j67989332296027_1_alg».proof.Proof.Gen.KernelIdeal.Frame
import proofs.«104220_j67989332296027_1_alg».proof.Proof.Gen.ReferenceIdeal
import proofs.«104220_j67989332296027_1_alg».proof.Proof.Gen.Pre_finite_inputs
import proofs.«104220_j67989332296027_1_alg».proof.Proof.KerRun
import proofs.«104220_j67989332296027_1_alg».proof.Proof.RefRun
import proofs.«104220_j67989332296027_1_alg».proof.Proof.RKeepA
import proofs.«104220_j67989332296027_1_alg».proof.Proof.RKeepB
import proofs.«104220_j67989332296027_1_alg».proof.Proof.RKeepC
import proofs.«104220_j67989332296027_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The reference runs and leaves its arguments as launched: its run read back as the fold of its operations, none of
    which writes an argument. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.ReferenceIdeal.RKeep.keep_arg0 _),
     (h c Cert.ReferenceIdeal.main_arg1).trans (Cert.ReferenceIdeal.RKeep.keep_arg1 _),
     (h c Cert.ReferenceIdeal.main_arg2).trans (Cert.ReferenceIdeal.RKeep.keep_arg2 _),
     (h c Cert.ReferenceIdeal.main_arg3).trans (Cert.ReferenceIdeal.RKeep.keep_arg3 _),
     (h c Cert.ReferenceIdeal.main_arg4).trans (Cert.ReferenceIdeal.RKeep.keep_arg4 _),
     (h c Cert.ReferenceIdeal.main_arg5).trans (Cert.ReferenceIdeal.RKeep.keep_arg5 _),
     (h c Cert.ReferenceIdeal.main_arg6).trans (Cert.ReferenceIdeal.RKeep.keep_arg6 _),
     (h c Cert.ReferenceIdeal.main_arg7).trans (Cert.ReferenceIdeal.RKeep.keep_arg7 _),
     (h c Cert.ReferenceIdeal.main_arg8).trans (Cert.ReferenceIdeal.RKeep.keep_arg8 _),
     (h c Cert.ReferenceIdeal.main_arg9).trans (Cert.ReferenceIdeal.RKeep.keep_arg9 _),
     (h c Cert.ReferenceIdeal.main_arg10).trans (Cert.ReferenceIdeal.RKeep.keep_arg10 _),
     (h c Cert.ReferenceIdeal.main_arg11).trans (Cert.ReferenceIdeal.RKeep.keep_arg11 _),
     (h c Cert.ReferenceIdeal.main_arg12).trans (Cert.ReferenceIdeal.RKeep.keep_arg12 _),
     (h c Cert.ReferenceIdeal.main_arg13).trans (Cert.ReferenceIdeal.RKeep.keep_arg13 _),
     (h c Cert.ReferenceIdeal.main_arg14).trans (Cert.ReferenceIdeal.RKeep.keep_arg14 _),
     (h c Cert.ReferenceIdeal.main_arg15).trans (Cert.ReferenceIdeal.RKeep.keep_arg15 _),
     (h c Cert.ReferenceIdeal.main_arg16).trans (Cert.ReferenceIdeal.RKeep.keep_arg16 _),
     (h c Cert.ReferenceIdeal.main_arg17).trans (Cert.ReferenceIdeal.RKeep.keep_arg17 _)⟩)
    (Cert.ReferenceIdeal.RefRun.run_main (F := Ideal) m ρ)

/-- From memories agreeing on the arguments both idealized programs run, leave their arguments as launched, and end
    with the same result: the kernel program's result buffer at the last boundary's contents, which the bridge shows
    to be the fold of the reference's operations at its result buffer. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  have hA : ∀ c, Cert.Bridge.Agrees m ρ m' c := fun c => by
    obtain ⟨g0, g1, g2, g3, g4, g5, g6, g7, g8, g9, g10, g11, g12, g13, g14, g15, g16, g17⟩ := hagree c
    exact ⟨g0.symm, g1.symm, g2.symm, g3.symm, g4.symm, g5.symm, g6.symm, g7.symm, g8.symm, g9.symm, g10.symm, g11.symm,
      g12.symm, g13.symm, g14.symm, g15.symm, g16.symm, g17.symm⟩
  refine ⟨fun c => Cert.KernelIdeal.Gen.W10 m ρ c (Proc.devRef .tc Cert.KernelIdeal.main_v72), ?_, ?_⟩
  · exact (θ_run Cert.KernelIdeal.defs _ _).mono (fun r h c =>
      ⟨h c Cert.KernelIdeal.main_v72 (by decide),
       (h c Cert.KernelIdeal.main_arg0 (by decide)).trans (Cert.KernelIdeal.Gen.W10_main_arg0 m ρ c),
       (h c Cert.KernelIdeal.main_arg1 (by decide)).trans (Cert.KernelIdeal.Gen.W10_main_arg1 m ρ c),
       (h c Cert.KernelIdeal.main_arg2 (by decide)).trans (Cert.KernelIdeal.Gen.W10_main_arg2 m ρ c),
       (h c Cert.KernelIdeal.main_arg3 (by decide)).trans (Cert.KernelIdeal.Gen.W10_main_arg3 m ρ c),
       (h c Cert.KernelIdeal.main_arg4 (by decide)).trans (Cert.KernelIdeal.Gen.W10_main_arg4 m ρ c),
       (h c Cert.KernelIdeal.main_arg5 (by decide)).trans (Cert.KernelIdeal.Gen.W10_main_arg5 m ρ c),
       (h c Cert.KernelIdeal.main_arg6 (by decide)).trans (Cert.KernelIdeal.Gen.W10_main_arg6 m ρ c),
       (h c Cert.KernelIdeal.main_arg7 (by decide)).trans (Cert.KernelIdeal.Gen.W10_main_arg7 m ρ c),
       (h c Cert.KernelIdeal.main_arg8 (by decide)).trans (Cert.KernelIdeal.Gen.W10_main_arg8 m ρ c),
       (h c Cert.KernelIdeal.main_arg9 (by decide)).trans (Cert.KernelIdeal.Gen.W10_main_arg9 m ρ c),
       (h c Cert.KernelIdeal.main_arg10 (by decide)).trans (Cert.KernelIdeal.Gen.W10_main_arg10 m ρ c),
       (h c Cert.KernelIdeal.main_arg11 (by decide)).trans (Cert.KernelIdeal.Gen.W10_main_arg11 m ρ c),
       (h c Cert.KernelIdeal.main_arg12 (by decide)).trans (Cert.KernelIdeal.Gen.W10_main_arg12 m ρ c),
       (h c Cert.KernelIdeal.main_arg13 (by decide)).trans (Cert.KernelIdeal.Gen.W10_main_arg13 m ρ c),
       (h c Cert.KernelIdeal.main_arg14 (by decide)).trans (Cert.KernelIdeal.Gen.W10_main_arg14 m ρ c),
       (h c Cert.KernelIdeal.main_arg15 (by decide)).trans (Cert.KernelIdeal.Gen.W10_main_arg15 m ρ c),
       (h c Cert.KernelIdeal.main_arg16 (by decide)).trans (Cert.KernelIdeal.Gen.W10_main_arg16 m ρ c),
       (h c Cert.KernelIdeal.main_arg17 (by decide)).trans (Cert.KernelIdeal.Gen.W10_main_arg17 m ρ c)⟩)
      (Cert.KernelIdeal.KerRun.run_main m ρ)
  · exact (θ_run Cert.ReferenceIdeal.defs _ _).mono (fun r h c =>
      ⟨(h c Cert.ReferenceIdeal.main_v107).trans (Cert.Bridge.result_eq (hA c)).symm,
       (h c Cert.ReferenceIdeal.main_arg0).trans (Cert.ReferenceIdeal.RKeep.keep_arg0 _),
       (h c Cert.ReferenceIdeal.main_arg1).trans (Cert.ReferenceIdeal.RKeep.keep_arg1 _),
       (h c Cert.ReferenceIdeal.main_arg2).trans (Cert.ReferenceIdeal.RKeep.keep_arg2 _),
       (h c Cert.ReferenceIdeal.main_arg3).trans (Cert.ReferenceIdeal.RKeep.keep_arg3 _),
       (h c Cert.ReferenceIdeal.main_arg4).trans (Cert.ReferenceIdeal.RKeep.keep_arg4 _),
       (h c Cert.ReferenceIdeal.main_arg5).trans (Cert.ReferenceIdeal.RKeep.keep_arg5 _),
       (h c Cert.ReferenceIdeal.main_arg6).trans (Cert.ReferenceIdeal.RKeep.keep_arg6 _),
       (h c Cert.ReferenceIdeal.main_arg7).trans (Cert.ReferenceIdeal.RKeep.keep_arg7 _),
       (h c Cert.ReferenceIdeal.main_arg8).trans (Cert.ReferenceIdeal.RKeep.keep_arg8 _),
       (h c Cert.ReferenceIdeal.main_arg9).trans (Cert.ReferenceIdeal.RKeep.keep_arg9 _),
       (h c Cert.ReferenceIdeal.main_arg10).trans (Cert.ReferenceIdeal.RKeep.keep_arg10 _),
       (h c Cert.ReferenceIdeal.main_arg11).trans (Cert.ReferenceIdeal.RKeep.keep_arg11 _),
       (h c Cert.ReferenceIdeal.main_arg12).trans (Cert.ReferenceIdeal.RKeep.keep_arg12 _),
       (h c Cert.ReferenceIdeal.main_arg13).trans (Cert.ReferenceIdeal.RKeep.keep_arg13 _),
       (h c Cert.ReferenceIdeal.main_arg14).trans (Cert.ReferenceIdeal.RKeep.keep_arg14 _),
       (h c Cert.ReferenceIdeal.main_arg15).trans (Cert.ReferenceIdeal.RKeep.keep_arg15 _),
       (h c Cert.ReferenceIdeal.main_arg16).trans (Cert.ReferenceIdeal.RKeep.keep_arg16 _),
       (h c Cert.ReferenceIdeal.main_arg17).trans (Cert.ReferenceIdeal.RKeep.keep_arg17 _)⟩)
      (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
